-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x14x3 : Shape := ⟨4, ![2, 2048, 14, 3]⟩
abbrev S2x2048 : Shape := ⟨2, ![2, 2048]⟩
abbrev S2x2048x30 : Shape := ⟨3, ![2, 2048, 30]⟩
abbrev S_ : Shape := ⟨0, ![]⟩

class Facts : Prop where
  bcast_S_S2x2048x14x3 : S_.BroadcastsInDim S2x2048x14x3 (![] : Fin 0 → Fin S2x2048x14x3.rank)
  reducesTo_S2x2048x14x3_S_d0_1_2_3 : S2x2048x14x3.ReducesTo [0, 1, 2, 3] S_
  h_S_ : 0 < S_.numel
  bcast_S_S2x2048 : S_.BroadcastsInDim S2x2048 (![] : Fin 0 → Fin S2x2048.rank)
  reducesTo_S2x2048_S_d0_1 : S2x2048.ReducesTo [0, 1] S_
  bcast_S_S2x2048x30 : S_.BroadcastsInDim S2x2048x30 (![] : Fin 0 → Fin S2x2048x30.rank)
  reducesTo_S2x2048x30_S_d0_1_2 : S2x2048x30.ReducesTo [0, 1, 2] S_

variable [Facts]

def fn {F : FTy → Type} [FloatOps F] (main_arg0 : FVec F S2x2048x14x3 .f32) (main_arg1 : FVec F S2x2048 .f32) (main_arg2 : FVec F S2x2048x30 .f32) (main_arg3 : IVec S2x2048 32) (main_arg4 : IVec S2x2048 32) (main_arg5 : IVec S2x2048x30 32) : IVec S_ 1 :=
  let main_v0 : FVec F S2x2048x14x3 .f32 := Host.absf main_arg0
  let main_cst : FVec F S_ .f32 := constant S_ .f32 0x7F800000#32
  let main_v1 : FVec F S2x2048x14x3 .f32 := broadcastInDim S2x2048x14x3 ![] bcast_S_S2x2048x14x3 main_cst
  let main_v2 : IVec S2x2048x14x3 1 := cmpf .olt main_v0 main_v1
  let main_c : IVec S_ 1 := constantI S_ 1 1#1
  let main_v3 : IVec S_ 1 := (fun x v => Host.reduce IntOp.andi x v reducesTo_S2x2048x14x3_S_d0_1_2_3 h_S_) main_v2 main_c
  let main_v4 : FVec F S2x2048 .f32 := Host.absf main_arg1
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  let main_v9 : FVec F S2x2048x30 .f32 := Host.absf main_arg2
  let main_cst_2 : FVec F S_ .f32 := constant S_ .f32 0x7F800000#32
  let main_v10 : FVec F S2x2048x30 .f32 := broadcastInDim S2x2048x30 ![] bcast_S_S2x2048x30 main_cst_2
  let main_v11 : IVec S2x2048x30 1 := cmpf .olt main_v9 main_v10
  let main_c_3 : IVec S_ 1 := constantI S_ 1 1#1
  let main_v12 : IVec S_ 1 := (fun x v => Host.reduce IntOp.andi x v reducesTo_S2x2048x30_S_d0_1_2 h_S_) main_v11 main_c_3
  let main_v13 : IVec S_ 1 := andi main_v8 main_v12
  main_v13
-- ==== Kernel.lean ====
abbrev S2x2048x14x3 : Shape := ⟨4, ![2, 2048, 14, 3]⟩
abbrev S2x2048 : Shape := ⟨2, ![2, 2048]⟩
abbrev S2x2048x30 : Shape := ⟨3, ![2, 2048, 30]⟩
abbrev S20 : Shape := ⟨1, ![20]⟩
abbrev S20x14 : Shape := ⟨2, ![20, 14]⟩
abbrev S_ : Shape := ⟨0, ![]⟩
abbrev S2x2048x1 : Shape := ⟨3, ![2, 2048, 1]⟩
abbrev S14 : Shape := ⟨1, ![14]⟩
abbrev S1x1x14 : Shape := ⟨3, ![1, 1, 14]⟩
abbrev S2x2048x14 : Shape := ⟨3, ![2, 2048, 14]⟩
abbrev S2x2048x30x1 : Shape := ⟨4, ![2, 2048, 30, 1]⟩
abbrev S2x2048x30x14 : Shape := ⟨4, ![2, 2048, 30, 14]⟩
abbrev S2x2048x30x14x3 : Shape := ⟨5, ![2, 2048, 30, 14, 3]⟩
abbrev S2048 : Shape := ⟨1, ![2048]⟩
abbrev S1x2048x1 : Shape := ⟨3, ![1, 2048, 1]⟩
abbrev S2x2048x10x3 : Shape := ⟨4, ![2, 2048, 10, 3]⟩
abbrev S2x2048x10 : Shape := ⟨3, ![2, 2048, 10]⟩
abbrev S2x2048x3x10 : Shape := ⟨4, ![2, 2048, 3, 10]⟩
abbrev S4096x30 : Shape := ⟨2, ![4096, 30]⟩
abbrev S2x2048x3x30x14 : Shape := ⟨5, ![2, 2048, 3, 30, 14]⟩
abbrev S4096x1260 : Shape := ⟨2, ![4096, 1260]⟩
abbrev S4096x10 : Shape := ⟨2, ![4096, 10]⟩
abbrev S4096x420 : Shape := ⟨2, ![4096, 420]⟩
abbrev S4096 : Shape := ⟨1, ![4096]⟩
abbrev S512x30 : Shape := ⟨2, ![512, 30]⟩
abbrev S512x1260 : Shape := ⟨2, ![512, 1260]⟩
abbrev S512x10 : Shape := ⟨2, ![512, 10]⟩
abbrev S512x420 : Shape := ⟨2, ![512, 420]⟩
abbrev S512 : Shape := ⟨1, ![512]⟩
abbrev S512x14 : Shape := ⟨2, ![512, 14]⟩
abbrev S512x1 : Shape := ⟨2, ![512, 1]⟩
abbrev S512x10x14 : Shape := ⟨3, ![512, 10, 14]⟩
abbrev S512x10x1 : Shape := ⟨3, ![512, 10, 1]⟩
abbrev S512x1x14 : Shape := ⟨3, ![512, 1, 14]⟩
abbrev S512x1x1 : Shape := ⟨3, ![512, 1, 1]⟩

abbrev nBuf : Space → Nat
  | .hbm => 90
  | .vmem => 16
  | .smem => 0
  | _ => 0

abbrev bufTy : (tb : Table) → Fin (tcTables nBuf tb) → BufTy
  | .hbm, ⟨0, _⟩ => ⟨S2x2048x14x3, .f32⟩
  | .hbm, ⟨1, _⟩ => ⟨S2x2048, .f32⟩
  | .hbm, ⟨2, _⟩ => ⟨S2x2048x30, .f32⟩
  | .hbm, ⟨3, _⟩ => ⟨S2x2048, .i32⟩
  | .hbm, ⟨4, _⟩ => ⟨S2x2048, .i32⟩
  | .hbm, ⟨5, _⟩ => ⟨S2x2048x30, .i32⟩
  | .hbm, ⟨6, _⟩ => ⟨S20, .i32⟩
  | .hbm, ⟨7, _⟩ => ⟨S20x14, .f32⟩
  | .hbm, ⟨8, _⟩ => ⟨S_, .i32⟩
  | .hbm, ⟨9, _⟩ => ⟨S2x2048, .i32⟩
  | .hbm, ⟨10, _⟩ => ⟨S2x2048, .i1⟩
  | .hbm, ⟨11, _⟩ => ⟨S_, .i32⟩
  | .hbm, ⟨12, _⟩ => ⟨S2x2048, .i32⟩
  | .hbm, ⟨13, _⟩ => ⟨S2x2048, .i32⟩
  | .hbm, ⟨14, _⟩ => ⟨S2x2048, .i32⟩
  | .hbm, ⟨15, _⟩ => ⟨S2x2048x1, .i32⟩
  | .hbm, ⟨16, _⟩ => ⟨S2x2048, .i32⟩
  | .hbm, ⟨17, _⟩ => ⟨S2x2048, .f32⟩
  | .hbm, ⟨18, _⟩ => ⟨S_, .i32⟩
  | .hbm, ⟨19, _⟩ => ⟨S2x2048, .i32⟩
  | .hbm, ⟨20, _⟩ => ⟨S2x2048, .i1⟩
  | .hbm, ⟨21, _⟩ => ⟨S2x2048, .f32⟩
  | .hbm, ⟨22, _⟩ => ⟨S2x2048, .f32⟩
  | .hbm, ⟨23, _⟩ => ⟨S14, .i32⟩
  | .hbm, ⟨24, _⟩ => ⟨S1x1x14, .i32⟩
  | .hbm, ⟨25, _⟩ => ⟨S2x2048x1, .f32⟩
  | .hbm, ⟨26, _⟩ => ⟨S1x1x14, .f32⟩
  | .hbm, ⟨27, _⟩ => ⟨S2x2048x14, .f32⟩
  | .hbm, ⟨28, _⟩ => ⟨S2x2048x14, .f32⟩
  | .hbm, ⟨29, _⟩ => ⟨S2x2048x14, .i1⟩
  | .hbm, ⟨30, _⟩ => ⟨S2x2048x14, .f32⟩
  | .hbm, ⟨31, _⟩ => ⟨S2x2048x1, .f32⟩
  | .hbm, ⟨32, _⟩ => ⟨S2x2048x14, .f32⟩
  | .hbm, ⟨33, _⟩ => ⟨S2x2048x14, .f32⟩
  | .hbm, ⟨34, _⟩ => ⟨S_, .i32⟩
  | .hbm, ⟨35, _⟩ => ⟨S2x2048x30, .i32⟩
  | .hbm, ⟨36, _⟩ => ⟨S2x2048x30, .i1⟩
  | .hbm, ⟨37, _⟩ => ⟨S_, .i32⟩
  | .hbm, ⟨38, _⟩ => ⟨S2x2048x30, .i32⟩
  | .hbm, ⟨39, _⟩ => ⟨S2x2048x30, .i32⟩
  | .hbm, ⟨40, _⟩ => ⟨S2x2048x30, .i32⟩
  | .hbm, ⟨41, _⟩ => ⟨S2x2048x30x1, .i32⟩
  | .hbm, ⟨42, _⟩ => ⟨S2x2048x30x14, .f32⟩
  | .hbm, ⟨43, _⟩ => ⟨S_, .i32⟩
  | .hbm, ⟨44, _⟩ => ⟨S2x2048x30, .i32⟩
  | .hbm, ⟨45, _⟩ => ⟨S2x2048x30, .i1⟩
  | .hbm, ⟨46, _⟩ => ⟨S_, .i32⟩
  | .hbm, ⟨47, _⟩ => ⟨S2x2048x30, .i32⟩
  | .hbm, ⟨48, _⟩ => ⟨S2x2048x30, .i32⟩
  | .hbm, ⟨49, _⟩ => ⟨S2x2048x30, .i32⟩
  | .hbm, ⟨50, _⟩ => ⟨S2x2048x30x1, .i32⟩
  | .hbm, ⟨51, _⟩ => ⟨S2x2048x30x14x3, .f32⟩
  | .hbm, ⟨52, _⟩ => ⟨S_, .i32⟩
  | .hbm, ⟨53, _⟩ => ⟨S2x2048, .i32⟩
  | .hbm, ⟨54, _⟩ => ⟨S2x2048, .i1⟩
  | .hbm, ⟨55, _⟩ => ⟨S_, .i32⟩
  | .hbm, ⟨56, _⟩ => ⟨S2x2048, .i32⟩
  | .hbm, ⟨57, _⟩ => ⟨S2x2048, .i32⟩
  | .hbm, ⟨58, _⟩ => ⟨S2x2048, .i32⟩
  | .hbm, ⟨59, _⟩ => ⟨S2x2048x1, .i32⟩
  | .hbm, ⟨60, _⟩ => ⟨S2x2048x14, .f32⟩
  | .hbm, ⟨61, _⟩ => ⟨S_, .i32⟩
  | .hbm, ⟨62, _⟩ => ⟨S2x2048x30, .i32⟩
  | .hbm, ⟨63, _⟩ => ⟨S2x2048x30, .i1⟩
  | .hbm, ⟨64, _⟩ => ⟨S_, .i32⟩
  | .hbm, ⟨65, _⟩ => ⟨S2x2048x30, .i32⟩
  | .hbm, ⟨66, _⟩ => ⟨S2x2048x30, .i32⟩
  | .hbm, ⟨67, _⟩ => ⟨S2x2048x30, .i32⟩
  | .hbm, ⟨68, _⟩ => ⟨S2x2048x30x1, .i32⟩
  | .hbm, ⟨69, _⟩ => ⟨S2x2048x30x14, .f32⟩
  | .hbm, ⟨70, _⟩ => ⟨S2048, .i32⟩
  | .hbm, ⟨71, _⟩ => ⟨S1x2048x1, .i32⟩
  | .hbm, ⟨72, _⟩ => ⟨S2x2048x30, .i32⟩
  | .hbm, ⟨73, _⟩ => ⟨S2x2048x30, .i1⟩
  | .hbm, ⟨74, _⟩ => ⟨S2x2048x30, .f32⟩
  | .hbm, ⟨75, _⟩ => ⟨S2x2048x30, .f32⟩
  | .hbm, ⟨76, _⟩ => ⟨S2x2048x10x3, .f32⟩
  | .hbm, ⟨77, _⟩ => ⟨S2x2048x10, .f32⟩
  | .hbm, ⟨78, _⟩ => ⟨S2x2048x10, .f32⟩
  | .hbm, ⟨79, _⟩ => ⟨S2x2048x3x10, .f32⟩
  | .hbm, ⟨80, _⟩ => ⟨S4096x30, .f32⟩
  | .hbm, ⟨81, _⟩ => ⟨S2x2048x3x30x14, .f32⟩
  | .hbm, ⟨82, _⟩ => ⟨S4096x1260, .f32⟩
  | .hbm, ⟨83, _⟩ => ⟨S4096x10, .f32⟩
  | .hbm, ⟨84, _⟩ => ⟨S4096x420, .f32⟩
  | .hbm, ⟨85, _⟩ => ⟨S4096x10, .f32⟩
  | .hbm, ⟨86, _⟩ => ⟨S4096x420, .f32⟩
  | .hbm, ⟨87, _⟩ => ⟨S4096x30, .f32⟩
  | .hbm, ⟨88, _⟩ => ⟨S4096, .f32⟩
  | .hbm, ⟨89, _⟩ => ⟨S2x2048, .f32⟩
  | .local _ .vmem, ⟨0, _⟩ => ⟨S512x30, .f32⟩
  | .local _ .vmem, ⟨1, _⟩ => ⟨S512x30, .f32⟩
  | .local _ .vmem, ⟨2, _⟩ => ⟨S512x1260, .f32⟩
  | .local _ .vmem, ⟨3, _⟩ => ⟨S512x1260, .f32⟩
  | .local _ .vmem, ⟨4, _⟩ => ⟨S512x10, .f32⟩
  | .local _ .vmem, ⟨5, _⟩ => ⟨S512x10, .f32⟩
  | .local _ .vmem, ⟨6, _⟩ => ⟨S512x420, .f32⟩
  | .local _ .vmem, ⟨7, _⟩ => ⟨S512x420, .f32⟩
  | .local _ .vmem, ⟨8, _⟩ => ⟨S512x10, .f32⟩
  | .local _ .vmem, ⟨9, _⟩ => ⟨S512x10, .f32⟩
  | .local _ .vmem, ⟨10, _⟩ => ⟨S512x420, .f32⟩
  | .local _ .vmem, ⟨11, _⟩ => ⟨S512x420, .f32⟩
  | .local _ .vmem, ⟨12, _⟩ => ⟨S512x30, .f32⟩
  | .local _ .vmem, ⟨13, _⟩ => ⟨S512x30, .f32⟩
  | .local _ .vmem, ⟨14, _⟩ => ⟨S512, .f32⟩
  | .local _ .vmem, ⟨15, _⟩ => ⟨S512, .f32⟩
  | _, _ => ⟨S2x2048x14x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_c_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1260 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x420 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x420 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x30 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S14_S1x1x14_2 : S14.BroadcastsInDim S1x1x14 (![2] : Fin 1 → Fin S1x1x14.rank)
  bcast_S1x1x14_S2x2048x14_0_1_2 : S1x1x14.BroadcastsInDim S2x2048x14 (![0, 1, 2] : Fin 3 → Fin S2x2048x14.rank)
  bcast_S2x2048x1_S2x2048x14_0_1_2 : S2x2048x1.BroadcastsInDim S2x2048x14 (![0, 1, 2] : Fin 3 → Fin S2x2048x14.rank)
  bcast_S_S2x2048x30 : S_.BroadcastsInDim S2x2048x30 (![] : Fin 0 → Fin S2x2048x30.rank)
  bcast_S2x2048x30_S2x2048x30x1_0_1_2 : S2x2048x30.BroadcastsInDim S2x2048x30x1 (![0, 1, 2] : Fin 3 → Fin S2x2048x30x1.rank)
  bcast_S2048_S1x2048x1_1 : S2048.BroadcastsInDim S1x2048x1 (![1] : Fin 1 → Fin S1x2048x1.rank)
  bcast_S1x2048x1_S2x2048x30_0_1_2 : S1x2048x1.BroadcastsInDim S2x2048x30 (![0, 1, 2] : Fin 3 → Fin S2x2048x30.rank)
  slices_S2x2048x14x3_S2x2048x10x3_0_0_4_0 : S2x2048x14x3.Slices ![0, 0, 4, 0] S2x2048x10x3
  slices_S2x2048x14_S2x2048x10_0_0_4 : S2x2048x14.Slices ![0, 0, 4] S2x2048x10
  transposes_S2x2048x10x3_S2x2048x3x10_0_1_3_2 : S2x2048x10x3.Transposes [0, 1, 3, 2] S2x2048x3x10
  shapeCasts_S2x2048x3x10_S4096x30 : S2x2048x3x10.ShapeCasts S4096x30
  transposes_S2x2048x30x14x3_S2x2048x3x30x14_0_1_4_2_3 : S2x2048x30x14x3.Transposes [0, 1, 4, 2, 3] S2x2048x3x30x14
  shapeCasts_S2x2048x3x30x14_S4096x1260 : S2x2048x3x30x14.ShapeCasts S4096x1260
  shapeCasts_S2x2048x10_S4096x10 : S2x2048x10.ShapeCasts S4096x10
  shapeCasts_S2x2048x30x14_S4096x420 : S2x2048x30x14.ShapeCasts S4096x420
  shapeCasts_S2x2048x30_S4096x30 : S2x2048x30.ShapeCasts S4096x30
  inb_S512x30_S512x30_0_0 : ∀ a, (![0, 0] : Fin 2 → Nat) a + S512x30.size a ≤ S512x30.size a
  h_S512x30 : 0 < S512x30.numel
  shapeCasts_S512x30_S512x30 : S512x30.ShapeCasts S512x30
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S512x1260_S512x1260_0_0 : ∀ a, (![0, 0] : Fin 2 → Nat) a + S512x1260.size a ≤ S512x1260.size a
  h_S512x1260 : 0 < S512x1260.numel
  shapeCasts_S512x1260_S512x1260 : S512x1260.ShapeCasts S512x1260
  inb_S512x420_S512x420_0_0 : ∀ a, (![0, 0] : Fin 2 → Nat) a + S512x420.size a ≤ S512x420.size a
  h_S512x420 : 0 < S512x420.numel
  shapeCasts_S512x420_S512x420 : S512x420.ShapeCasts S512x420
  slices_S512x30_o0_0_S512x10 : S512x30.Slices ![0, 0] S512x10
  slices_S512x30_o0_10_S512x10 : S512x30.Slices ![0, 10] S512x10
  slices_S512x30_o0_20_S512x10 : S512x30.Slices ![0, 20] S512x10
  slices_S512x420_o0_0_S512x14 : S512x420.Slices ![0, 0] S512x14
  slices_S512x30_o0_0_S512x1 : S512x30.Slices ![0, 0] S512x1
  slices_S512x1260_o0_0_S512x14 : S512x1260.Slices ![0, 0] S512x14
  shapeCasts_S512x10_S512x10x1 : S512x10.ShapeCasts S512x10x1
  shapeCasts_S512x14_S512x1x14 : S512x14.ShapeCasts S512x1x14
  broadcasts_S512x10x1_S512x10x14 : S512x10x1.Broadcasts S512x10x14
  broadcasts_S512x1x14_S512x10x14 : S512x1x14.Broadcasts S512x10x14
  slices_S512x1260_o0_420_S512x14 : S512x1260.Slices ![0, 420] S512x14
  slices_S512x1260_o0_840_S512x14 : S512x1260.Slices ![0, 840] S512x14
  shapeCasts_S512x1_S512x1x1 : S512x1.ShapeCasts S512x1x1
  broadcasts_S512x1x1_S512x10x14 : S512x1x1.Broadcasts S512x10x14
  reduces_S512x10x14_S512x10 : S512x10x14.Reduces [2] S512x10
  reduces_S512x10_S512 : S512x10.Reduces [1] S512
  slices_S512x420_o0_14_S512x14 : S512x420.Slices ![0, 14] S512x14
  slices_S512x30_o0_1_S512x1 : S512x30.Slices ![0, 1] S512x1
  slices_S512x1260_o0_14_S512x14 : S512x1260.Slices ![0, 14] S512x14
  slices_S512x1260_o0_434_S512x14 : S512x1260.Slices ![0, 434] S512x14
  slices_S512x1260_o0_854_S512x14 : S512x1260.Slices ![0, 854] S512x14
  slices_S512x420_o0_28_S512x14 : S512x420.Slices ![0, 28] S512x14
  slices_S512x30_o0_2_S512x1 : S512x30.Slices ![0, 2] S512x1
  slices_S512x1260_o0_28_S512x14 : S512x1260.Slices ![0, 28] S512x14
  slices_S512x1260_o0_448_S512x14 : S512x1260.Slices ![0, 448] S512x14
  slices_S512x1260_o0_868_S512x14 : S512x1260.Slices ![0, 868] S512x14
  slices_S512x420_o0_42_S512x14 : S512x420.Slices ![0, 42] S512x14
  slices_S512x30_o0_3_S512x1 : S512x30.Slices ![0, 3] S512x1
  slices_S512x1260_o0_42_S512x14 : S512x1260.Slices ![0, 42] S512x14
  slices_S512x1260_o0_462_S512x14 : S512x1260.Slices ![0, 462] S512x14
  slices_S512x1260_o0_882_S512x14 : S512x1260.Slices ![0, 882] S512x14
  slices_S512x420_o0_56_S512x14 : S512x420.Slices ![0, 56] S512x14
  slices_S512x30_o0_4_S512x1 : S512x30.Slices ![0, 4] S512x1
  slices_S512x1260_o0_56_S512x14 : S512x1260.Slices ![0, 56] S512x14
  slices_S512x1260_o0_476_S512x14 : S512x1260.Slices ![0, 476] S512x14
  slices_S512x1260_o0_896_S512x14 : S512x1260.Slices ![0, 896] S512x14
  slices_S512x420_o0_70_S512x14 : S512x420.Slices ![0, 70] S512x14
  slices_S512x30_o0_5_S512x1 : S512x30.Slices ![0, 5] S512x1
  slices_S512x1260_o0_70_S512x14 : S512x1260.Slices ![0, 70] S512x14
  slices_S512x1260_o0_490_S512x14 : S512x1260.Slices ![0, 490] S512x14
  slices_S512x1260_o0_910_S512x14 : S512x1260.Slices ![0, 910] S512x14
  slices_S512x420_o0_84_S512x14 : S512x420.Slices ![0, 84] S512x14
  slices_S512x30_o0_6_S512x1 : S512x30.Slices ![0, 6] S512x1
  slices_S512x1260_o0_84_S512x14 : S512x1260.Slices ![0, 84] S512x14
  slices_S512x1260_o0_504_S512x14 : S512x1260.Slices ![0, 504] S512x14
  slices_S512x1260_o0_924_S512x14 : S512x1260.Slices ![0, 924] S512x14
  slices_S512x420_o0_98_S512x14 : S512x420.Slices ![0, 98] S512x14
  slices_S512x30_o0_7_S512x1 : S512x30.Slices ![0, 7] S512x1
  slices_S512x1260_o0_98_S512x14 : S512x1260.Slices ![0, 98] S512x14
  slices_S512x1260_o0_518_S512x14 : S512x1260.Slices ![0, 518] S512x14
  slices_S512x1260_o0_938_S512x14 : S512x1260.Slices ![0, 938] S512x14
  slices_S512x420_o0_112_S512x14 : S512x420.Slices ![0, 112] S512x14
  slices_S512x30_o0_8_S512x1 : S512x30.Slices ![0, 8] S512x1
  slices_S512x1260_o0_112_S512x14 : S512x1260.Slices ![0, 112] S512x14
  slices_S512x1260_o0_532_S512x14 : S512x1260.Slices ![0, 532] S512x14
  slices_S512x1260_o0_952_S512x14 : S512x1260.Slices ![0, 952] S512x14
  slices_S512x420_o0_126_S512x14 : S512x420.Slices ![0, 126] S512x14
  slices_S512x30_o0_9_S512x1 : S512x30.Slices ![0, 9] S512x1
  slices_S512x1260_o0_126_S512x14 : S512x1260.Slices ![0, 126] S512x14
  slices_S512x1260_o0_546_S512x14 : S512x1260.Slices ![0, 546] S512x14
  slices_S512x1260_o0_966_S512x14 : S512x1260.Slices ![0, 966] S512x14
  slices_S512x420_o0_140_S512x14 : S512x420.Slices ![0, 140] S512x14
  slices_S512x30_o0_10_S512x1 : S512x30.Slices ![0, 10] S512x1
  slices_S512x1260_o0_140_S512x14 : S512x1260.Slices ![0, 140] S512x14
  slices_S512x1260_o0_560_S512x14 : S512x1260.Slices ![0, 560] S512x14
  slices_S512x1260_o0_980_S512x14 : S512x1260.Slices ![0, 980] S512x14
  slices_S512x420_o0_154_S512x14 : S512x420.Slices ![0, 154] S512x14
  slices_S512x30_o0_11_S512x1 : S512x30.Slices ![0, 11] S512x1
  slices_S512x1260_o0_154_S512x14 : S512x1260.Slices ![0, 154] S512x14
  slices_S512x1260_o0_574_S512x14 : S512x1260.Slices ![0, 574] S512x14
  slices_S512x1260_o0_994_S512x14 : S512x1260.Slices ![0, 994] S512x14
  slices_S512x420_o0_168_S512x14 : S512x420.Slices ![0, 168] S512x14
  slices_S512x30_o0_12_S512x1 : S512x30.Slices ![0, 12] S512x1
  slices_S512x1260_o0_168_S512x14 : S512x1260.Slices ![0, 168] S512x14
  slices_S512x1260_o0_588_S512x14 : S512x1260.Slices ![0, 588] S512x14
  slices_S512x1260_o0_1008_S512x14 : S512x1260.Slices ![0, 1008] S512x14
  slices_S512x420_o0_182_S512x14 : S512x420.Slices ![0, 182] S512x14
  slices_S512x30_o0_13_S512x1 : S512x30.Slices ![0, 13] S512x1
  slices_S512x1260_o0_182_S512x14 : S512x1260.Slices ![0, 182] S512x14
  slices_S512x1260_o0_602_S512x14 : S512x1260.Slices ![0, 602] S512x14
  slices_S512x1260_o0_1022_S512x14 : S512x1260.Slices ![0, 1022] S512x14
  slices_S512x420_o0_196_S512x14 : S512x420.Slices ![0, 196] S512x14
  slices_S512x30_o0_14_S512x1 : S512x30.Slices ![0, 14] S512x1
  slices_S512x1260_o0_196_S512x14 : S512x1260.Slices ![0, 196] S512x14
  slices_S512x1260_o0_616_S512x14 : S512x1260.Slices ![0, 616] S512x14
  slices_S512x1260_o0_1036_S512x14 : S512x1260.Slices ![0, 1036] S512x14
  slices_S512x420_o0_210_S512x14 : S512x420.Slices ![0, 210] S512x14
  slices_S512x30_o0_15_S512x1 : S512x30.Slices ![0, 15] S512x1
  slices_S512x1260_o0_210_S512x14 : S512x1260.Slices ![0, 210] S512x14
  slices_S512x1260_o0_630_S512x14 : S512x1260.Slices ![0, 630] S512x14
  slices_S512x1260_o0_1050_S512x14 : S512x1260.Slices ![0, 1050] S512x14
  slices_S512x420_o0_224_S512x14 : S512x420.Slices ![0, 224] S512x14
  slices_S512x30_o0_16_S512x1 : S512x30.Slices ![0, 16] S512x1
  slices_S512x1260_o0_224_S512x14 : S512x1260.Slices ![0, 224] S512x14
  slices_S512x1260_o0_644_S512x14 : S512x1260.Slices ![0, 644] S512x14
  slices_S512x1260_o0_1064_S512x14 : S512x1260.Slices ![0, 1064] S512x14
  slices_S512x420_o0_238_S512x14 : S512x420.Slices ![0, 238] S512x14
  slices_S512x30_o0_17_S512x1 : S512x30.Slices ![0, 17] S512x1
  slices_S512x1260_o0_238_S512x14 : S512x1260.Slices ![0, 238] S512x14
  slices_S512x1260_o0_658_S512x14 : S512x1260.Slices ![0, 658] S512x14
  slices_S512x1260_o0_1078_S512x14 : S512x1260.Slices ![0, 1078] S512x14
  slices_S512x420_o0_252_S512x14 : S512x420.Slices ![0, 252] S512x14
  slices_S512x30_o0_18_S512x1 : S512x30.Slices ![0, 18] S512x1
  slices_S512x1260_o0_252_S512x14 : S512x1260.Slices ![0, 252] S512x14
  slices_S512x1260_o0_672_S512x14 : S512x1260.Slices ![0, 672] S512x14
  slices_S512x1260_o0_1092_S512x14 : S512x1260.Slices ![0, 1092] S512x14
  slices_S512x420_o0_266_S512x14 : S512x420.Slices ![0, 266] S512x14
  slices_S512x30_o0_19_S512x1 : S512x30.Slices ![0, 19] S512x1
  slices_S512x1260_o0_266_S512x14 : S512x1260.Slices ![0, 266] S512x14
  slices_S512x1260_o0_686_S512x14 : S512x1260.Slices ![0, 686] S512x14
  slices_S512x1260_o0_1106_S512x14 : S512x1260.Slices ![0, 1106] S512x14
  slices_S512x420_o0_280_S512x14 : S512x420.Slices ![0, 280] S512x14
  slices_S512x30_o0_20_S512x1 : S512x30.Slices ![0, 20] S512x1
  slices_S512x1260_o0_280_S512x14 : S512x1260.Slices ![0, 280] S512x14
  slices_S512x1260_o0_700_S512x14 : S512x1260.Slices ![0, 700] S512x14
  slices_S512x1260_o0_1120_S512x14 : S512x1260.Slices ![0, 1120] S512x14
  slices_S512x420_o0_294_S512x14 : S512x420.Slices ![0, 294] S512x14
  slices_S512x30_o0_21_S512x1 : S512x30.Slices ![0, 21] S512x1
  slices_S512x1260_o0_294_S512x14 : S512x1260.Slices ![0, 294] S512x14
  slices_S512x1260_o0_714_S512x14 : S512x1260.Slices ![0, 714] S512x14
  slices_S512x1260_o0_1134_S512x14 : S512x1260.Slices ![0, 1134] S512x14
  slices_S512x420_o0_308_S512x14 : S512x420.Slices ![0, 308] S512x14
  slices_S512x30_o0_22_S512x1 : S512x30.Slices ![0, 22] S512x1
  slices_S512x1260_o0_308_S512x14 : S512x1260.Slices ![0, 308] S512x14
  slices_S512x1260_o0_728_S512x14 : S512x1260.Slices ![0, 728] S512x14
  slices_S512x1260_o0_1148_S512x14 : S512x1260.Slices ![0, 1148] S512x14
  slices_S512x420_o0_322_S512x14 : S512x420.Slices ![0, 322] S512x14
  slices_S512x30_o0_23_S512x1 : S512x30.Slices ![0, 23] S512x1
  slices_S512x1260_o0_322_S512x14 : S512x1260.Slices ![0, 322] S512x14
  slices_S512x1260_o0_742_S512x14 : S512x1260.Slices ![0, 742] S512x14
  slices_S512x1260_o0_1162_S512x14 : S512x1260.Slices ![0, 1162] S512x14
  slices_S512x420_o0_336_S512x14 : S512x420.Slices ![0, 336] S512x14
  slices_S512x30_o0_24_S512x1 : S512x30.Slices ![0, 24] S512x1
  slices_S512x1260_o0_336_S512x14 : S512x1260.Slices ![0, 336] S512x14
  slices_S512x1260_o0_756_S512x14 : S512x1260.Slices ![0, 756] S512x14
  slices_S512x1260_o0_1176_S512x14 : S512x1260.Slices ![0, 1176] S512x14
  slices_S512x420_o0_350_S512x14 : S512x420.Slices ![0, 350] S512x14
  slices_S512x30_o0_25_S512x1 : S512x30.Slices ![0, 25] S512x1
  slices_S512x1260_o0_350_S512x14 : S512x1260.Slices ![0, 350] S512x14
  slices_S512x1260_o0_770_S512x14 : S512x1260.Slices ![0, 770] S512x14
  slices_S512x1260_o0_1190_S512x14 : S512x1260.Slices ![0, 1190] S512x14
  slices_S512x420_o0_364_S512x14 : S512x420.Slices ![0, 364] S512x14
  slices_S512x30_o0_26_S512x1 : S512x30.Slices ![0, 26] S512x1
  slices_S512x1260_o0_364_S512x14 : S512x1260.Slices ![0, 364] S512x14
  slices_S512x1260_o0_784_S512x14 : S512x1260.Slices ![0, 784] S512x14
  slices_S512x1260_o0_1204_S512x14 : S512x1260.Slices ![0, 1204] S512x14
  slices_S512x420_o0_378_S512x14 : S512x420.Slices ![0, 378] S512x14
  slices_S512x30_o0_27_S512x1 : S512x30.Slices ![0, 27] S512x1
  slices_S512x1260_o0_378_S512x14 : S512x1260.Slices ![0, 378] S512x14
  slices_S512x1260_o0_798_S512x14 : S512x1260.Slices ![0, 798] S512x14
  slices_S512x1260_o0_1218_S512x14 : S512x1260.Slices ![0, 1218] S512x14
  slices_S512x420_o0_392_S512x14 : S512x420.Slices ![0, 392] S512x14
  slices_S512x30_o0_28_S512x1 : S512x30.Slices ![0, 28] S512x1
  slices_S512x1260_o0_392_S512x14 : S512x1260.Slices ![0, 392] S512x14
  slices_S512x1260_o0_812_S512x14 : S512x1260.Slices ![0, 812] S512x14
  slices_S512x1260_o0_1232_S512x14 : S512x1260.Slices ![0, 1232] S512x14
  slices_S512x420_o0_406_S512x14 : S512x420.Slices ![0, 406] S512x14
  slices_S512x30_o0_29_S512x1 : S512x30.Slices ![0, 29] S512x1
  slices_S512x1260_o0_406_S512x14 : S512x1260.Slices ![0, 406] S512x14
  slices_S512x1260_o0_826_S512x14 : S512x1260.Slices ![0, 826] S512x14
  slices_S512x1260_o0_1246_S512x14 : S512x1260.Slices ![0, 1246] S512x14
  inb_S512_S512_0 : ∀ a, (![0] : Fin 1 → Nat) a + S512.size a ≤ S512.size a
  h_S512 : 0 < S512.numel
  shapeCasts_S4096_S2x2048 : S4096.ShapeCasts S2x2048
  gather_S20_S2x2048x1_S2x2048_n_0_n_n_0_2_1_wf : GatherDims.WF S20 S2x2048x1 S2x2048 [] [0] [] [0] [] 2 ![1]
  gather_S2x2048x14_S2x2048x30x1_S2x2048x30x14_3_1_0_0_1_3_1114_wf : GatherDims.WF S2x2048x14 S2x2048x30x1 S2x2048x30x14 [3] [1] [0] [1] [0] 3 ![1, 1, 14]
  gather_S2x2048x14x3_S2x2048x30x1_S2x2048x30x14x3_34_1_0_0_1_3_11143_wf : GatherDims.WF S2x2048x14x3 S2x2048x30x1 S2x2048x30x14x3 [3, 4] [1] [0] [1] [0] 3 ![1, 1, 14, 3]
  gather_S20x14_S2x2048x1_S2x2048x14_2_0_n_n_0_2_114_wf : GatherDims.WF S20x14 S2x2048x1 S2x2048x14 [2] [0] [] [0] [] 2 ![1, 14]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x30.size a ≤ S4096x30.size a
  hwx0_0 : ∀ i : grid0.Coords, EltTy.bits .f32 = 32 ∨ (Rect.block (s := S4096x30) S512x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1260.size a ≤ S4096x1260.size a
  hwx0_1 : ∀ i : grid0.Coords, EltTy.bits .f32 = 32 ∨ (Rect.block (s := S4096x1260) S512x1260.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x10.size a ≤ S4096x10.size a
  hwx0_2 : ∀ i : grid0.Coords, EltTy.bits .f32 = 32 ∨ (Rect.block (s := S4096x10) S512x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x420.size a ≤ S4096x420.size a
  hwx0_3 : ∀ i : grid0.Coords, EltTy.bits .f32 = 32 ∨ (Rect.block (s := S4096x420) S512x420.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x10.size a ≤ S4096x10.size a
  hwx0_4 : ∀ i : grid0.Coords, EltTy.bits .f32 = 32 ∨ (Rect.block (s := S4096x10) S512x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x420.size a ≤ S4096x420.size a
  hwx0_5 : ∀ i : grid0.Coords, EltTy.bits .f32 = 32 ∨ (Rect.block (s := S4096x420) S512x420.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x30.size a ≤ S4096x30.size a
  hwx0_6 : ∀ i : grid0.Coords, EltTy.bits .f32 = 32 ∨ (Rect.block (s := S4096x30) S512x30.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S4096.size a
  hwx0_7 : ∀ i : grid0.Coords, EltTy.bits .f32 = 32 ∨ (Rect.block (s := S4096) S512.size (cc0_transform_7 i) (hinb0_7 i)).WholeWords (EltTy.packing .f32)

variable [Facts₀]

def gather_S20_S2x2048x1_S2x2048_n_0_n_n_0_2_1 : GatherDims S20 S2x2048x1 S2x2048 where
  offsetDims := []
  collapsedSliceDims := [0]
  operandBatchingDims := []
  startIndicesBatchingDims := []
  startIndexMap := [0]
  indexVectorDim := 2
  sliceSizes := ![1]
  wf := gather_S20_S2x2048x1_S2x2048_n_0_n_n_0_2_1_wf
def gather_S2x2048x14_S2x2048x30x1_S2x2048x30x14_3_1_0_0_1_3_1114 : GatherDims S2x2048x14 S2x2048x30x1 S2x2048x30x14 where
  offsetDims := [3]
  collapsedSliceDims := [1]
  operandBatchingDims := [0]
  startIndicesBatchingDims := [0]
  startIndexMap := [1]
  indexVectorDim := 3
  sliceSizes := ![1, 1, 14]
  wf := gather_S2x2048x14_S2x2048x30x1_S2x2048x30x14_3_1_0_0_1_3_1114_wf
def gather_S2x2048x14x3_S2x2048x30x1_S2x2048x30x14x3_34_1_0_0_1_3_11143 : GatherDims S2x2048x14x3 S2x2048x30x1 S2x2048x30x14x3 where
  offsetDims := [3, 4]
  collapsedSliceDims := [1]
  operandBatchingDims := [0]
  startIndicesBatchingDims := [0]
  startIndexMap := [1]
  indexVectorDim := 3
  sliceSizes := ![1, 1, 14, 3]
  wf := gather_S2x2048x14x3_S2x2048x30x1_S2x2048x30x14x3_34_1_0_0_1_3_11143_wf
def gather_S20x14_S2x2048x1_S2x2048x14_2_0_n_n_0_2_114 : GatherDims S20x14 S2x2048x1 S2x2048x14 where
  offsetDims := [2]
  collapsedSliceDims := [0]
  operandBatchingDims := []
  startIndicesBatchingDims := []
  startIndexMap := [0]
  indexVectorDim := 2
  sliceSizes := ![1, 14]
  wf := gather_S20x14_S2x2048x1_S2x2048x14_2_0_n_n_0_2_114_wf

abbrev win0_0 : Pipeline.Window sig grid0 :=
  Pipeline.Window.ofSpec (Memref.whole main_v61) S512x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S512x1260.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S512x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S512x420.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v66) S512x10.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v67) S512x420.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v68) S512x30.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v69) S512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x2048x14x3 : Shape := ⟨4, ![2, 2048, 14, 3]⟩
abbrev S2x2048 : Shape := ⟨2, ![2, 2048]⟩
abbrev S2x2048x30 : Shape := ⟨3, ![2, 2048, 30]⟩
abbrev S20 : Shape := ⟨1, ![20]⟩
abbrev S20x14 : Shape := ⟨2, ![20, 14]⟩
abbrev S_ : Shape := ⟨0, ![]⟩
abbrev S2x2048x1 : Shape := ⟨3, ![2, 2048, 1]⟩
abbrev S14 : Shape := ⟨1, ![14]⟩
abbrev S1x1x14 : Shape := ⟨3, ![1, 1, 14]⟩
abbrev S2x2048x14 : Shape := ⟨3, ![2, 2048, 14]⟩
abbrev S2x2048x30x1 : Shape := ⟨4, ![2, 2048, 30, 1]⟩
abbrev S2x2048x30x14 : Shape := ⟨4, ![2, 2048, 30, 14]⟩
abbrev S2x2048x1x14x1 : Shape := ⟨5, ![2, 2048, 1, 14, 1]⟩
abbrev S2x2048x30x1x14 : Shape := ⟨5, ![2, 2048, 30, 1, 14]⟩
abbrev S2x2048x30x14x14 : Shape := ⟨5, ![2, 2048, 30, 14, 14]⟩
abbrev S2048 : Shape := ⟨1, ![2048]⟩
abbrev S1x2048x1 : Shape := ⟨3, ![1, 2048, 1]⟩
abbrev S2x2048x30x1x1 : Shape := ⟨5, ![2, 2048, 30, 1, 1]⟩
abbrev S2x2048x30x14x3 : Shape := ⟨5, ![2, 2048, 30, 14, 3]⟩
abbrev S2x2048x1x14x1x3 : Shape := ⟨6, ![2, 2048, 1, 14, 1, 3]⟩
abbrev S2x2048x30x1x14x3 : Shape := ⟨6, ![2, 2048, 30, 1, 14, 3]⟩
abbrev S2x2048x30x14x14x3 : Shape := ⟨6, ![2, 2048, 30, 14, 14, 3]⟩
abbrev S2x2048x30x10x14 : Shape := ⟨5, ![2, 2048, 30, 10, 14]⟩

abbrev nBuf : Space → Nat
  | .hbm => 125
  | .vmem => 0
  | .smem => 0
  | _ => 0

abbrev bufTy : (tb : Table) → Fin (tcTables nBuf tb) → BufTy
  | .hbm, ⟨0, _⟩ => ⟨S2x2048x14x3, .f32⟩
  | .hbm, ⟨1, _⟩ => ⟨S2x2048, .f32⟩
  | .hbm, ⟨2, _⟩ => ⟨S2x2048x30, .f32⟩
  | .hbm, ⟨3, _⟩ => ⟨S2x2048, .i32⟩
  | .hbm, ⟨4, _⟩ => ⟨S2x2048, .i32⟩
  | .hbm, ⟨5, _⟩ => ⟨S2x2048x30, .i32⟩
  | .hbm, ⟨6, _⟩ => ⟨S20, .i32⟩
  | .hbm, ⟨7, _⟩ => ⟨S20x14, .f32⟩
  | .hbm, ⟨8, _⟩ => ⟨S_, .i32⟩
  | .hbm, ⟨9, _⟩ => ⟨S2x2048, .i32⟩
  | .hbm, ⟨10, _⟩ => ⟨S2x2048, .i1⟩
  | .hbm, ⟨11, _⟩ => ⟨S_, .i32⟩
  | .hbm, ⟨12, _⟩ => ⟨S2x2048, .i32⟩
  | .hbm, ⟨13, _⟩ => ⟨S2x2048, .i32⟩
  | .hbm, ⟨14, _⟩ => ⟨S2x2048, .i32⟩
  | .hbm, ⟨15, _⟩ => ⟨S2x2048x1, .i32⟩
  | .hbm, ⟨16, _⟩ => ⟨S2x2048, .i32⟩
  | .hbm, ⟨17, _⟩ => ⟨S2x2048, .f32⟩
  | .hbm, ⟨18, _⟩ => ⟨S_, .i32⟩
  | .hbm, ⟨19, _⟩ => ⟨S2x2048, .i32⟩
  | .hbm, ⟨20, _⟩ => ⟨S2x2048, .i1⟩
  | .hbm, ⟨21, _⟩ => ⟨S2x2048, .f32⟩
  | .hbm, ⟨22, _⟩ => ⟨S2x2048, .f32⟩
  | .hbm, ⟨23, _⟩ => ⟨S14, .i32⟩
  | .hbm, ⟨24, _⟩ => ⟨S2x2048x1, .f32⟩
  | .hbm, ⟨25, _⟩ => ⟨S14, .f32⟩
  | .hbm, ⟨26, _⟩ => ⟨S1x1x14, .f32⟩
  | .hbm, ⟨27, _⟩ => ⟨S2x2048x14, .f32⟩
  | .hbm, ⟨28, _⟩ => ⟨S2x2048x14, .f32⟩
  | .hbm, ⟨29, _⟩ => ⟨S2x2048x14, .i1⟩
  | .hbm, ⟨30, _⟩ => ⟨S2x2048x14, .f32⟩
  | .hbm, ⟨31, _⟩ => ⟨S2x2048x1, .f32⟩
  | .hbm, ⟨32, _⟩ => ⟨S2x2048x14, .f32⟩
  | .hbm, ⟨33, _⟩ => ⟨S2x2048x14, .f32⟩
  | .hbm, ⟨34, _⟩ => ⟨S_, .i32⟩
  | .hbm, ⟨35, _⟩ => ⟨S2x2048x30, .i32⟩
  | .hbm, ⟨36, _⟩ => ⟨S2x2048x30, .i1⟩
  | .hbm, ⟨37, _⟩ => ⟨S_, .i32⟩
  | .hbm, ⟨38, _⟩ => ⟨S2x2048x30, .i32⟩
  | .hbm, ⟨39, _⟩ => ⟨S2x2048x30, .i32⟩
  | .hbm, ⟨40, _⟩ => ⟨S2x2048x30, .i32⟩
  | .hbm, ⟨41, _⟩ => ⟨S2x2048x30x1, .i32⟩
  | .hbm, ⟨42, _⟩ => ⟨S2x2048x30x14, .f32⟩
  | .hbm, ⟨43, _⟩ => ⟨S2x2048x1x14x1, .f32⟩
  | .hbm, ⟨44, _⟩ => ⟨S2x2048x30x1x14, .f32⟩
  | .hbm, ⟨45, _⟩ => ⟨S2x2048x30x14x14, .f32⟩
  | .hbm, ⟨46, _⟩ => ⟨S2x2048x30x14x14, .f32⟩
  | .hbm, ⟨47, _⟩ => ⟨S2x2048x30x14x14, .f32⟩
  | .hbm, ⟨48, _⟩ => ⟨S2048, .i32⟩
  | .hbm, ⟨49, _⟩ => ⟨S1x2048x1, .i32⟩
  | .hbm, ⟨50, _⟩ => ⟨S2x2048x30, .i32⟩
  | .hbm, ⟨51, _⟩ => ⟨S2x2048x30, .i1⟩
  | .hbm, ⟨52, _⟩ => ⟨S2x2048x30, .f32⟩
  | .hbm, ⟨53, _⟩ => ⟨S2x2048x30x1x1, .f32⟩
  | .hbm, ⟨54, _⟩ => ⟨S2x2048x30x14x14, .f32⟩
  | .hbm, ⟨55, _⟩ => ⟨S2x2048x30x14x14, .f32⟩
  | .hbm, ⟨56, _⟩ => ⟨S2x2048x30x1x1, .f32⟩
  | .hbm, ⟨57, _⟩ => ⟨S2x2048x30x14x14, .f32⟩
  | .hbm, ⟨58, _⟩ => ⟨S2x2048x30x14x14, .f32⟩
  | .hbm, ⟨59, _⟩ => ⟨S_, .i32⟩
  | .hbm, ⟨60, _⟩ => ⟨S2x2048x30, .i32⟩
  | .hbm, ⟨61, _⟩ => ⟨S2x2048x30, .i1⟩
  | .hbm, ⟨62, _⟩ => ⟨S_, .i32⟩
  | .hbm, ⟨63, _⟩ => ⟨S2x2048x30, .i32⟩
  | .hbm, ⟨64, _⟩ => ⟨S2x2048x30, .i32⟩
  | .hbm, ⟨65, _⟩ => ⟨S2x2048x30, .i32⟩
  | .hbm, ⟨66, _⟩ => ⟨S2x2048x30x1, .i32⟩
  | .hbm, ⟨67, _⟩ => ⟨S2x2048x30x14x3, .f32⟩
  | .hbm, ⟨68, _⟩ => ⟨S2x2048x1x14x1x3, .f32⟩
  | .hbm, ⟨69, _⟩ => ⟨S2x2048x30x1x14x3, .f32⟩
  | .hbm, ⟨70, _⟩ => ⟨S2x2048x30x14x14x3, .f32⟩
  | .hbm, ⟨71, _⟩ => ⟨S2x2048x30x14x14x3, .f32⟩
  | .hbm, ⟨72, _⟩ => ⟨S2x2048x30x14x14x3, .f32⟩
  | .hbm, ⟨73, _⟩ => ⟨S2x2048x30x14x14x3, .f32⟩
  | .hbm, ⟨74, _⟩ => ⟨S_, .f32⟩
  | .hbm, ⟨75, _⟩ => ⟨S2x2048x30x14x14, .f32⟩
  | .hbm, ⟨76, _⟩ => ⟨S_, .f32⟩
  | .hbm, ⟨77, _⟩ => ⟨S2x2048x30x14x14, .f32⟩
  | .hbm, ⟨78, _⟩ => ⟨S2x2048x30x14x14, .f32⟩
  | .hbm, ⟨79, _⟩ => ⟨S2x2048x30x14x14, .f32⟩
  | .hbm, ⟨80, _⟩ => ⟨S_, .i32⟩
  | .hbm, ⟨81, _⟩ => ⟨S2x2048, .i32⟩
  | .hbm, ⟨82, _⟩ => ⟨S2x2048, .i1⟩
  | .hbm, ⟨83, _⟩ => ⟨S_, .i32⟩
  | .hbm, ⟨84, _⟩ => ⟨S2x2048, .i32⟩
  | .hbm, ⟨85, _⟩ => ⟨S2x2048, .i32⟩
  | .hbm, ⟨86, _⟩ => ⟨S2x2048, .i32⟩
  | .hbm, ⟨87, _⟩ => ⟨S2x2048x1, .i32⟩
  | .hbm, ⟨88, _⟩ => ⟨S2x2048x14, .f32⟩
  | .hbm, ⟨89, _⟩ => ⟨S_, .i32⟩
  | .hbm, ⟨90, _⟩ => ⟨S2x2048x30, .i32⟩
  | .hbm, ⟨91, _⟩ => ⟨S2x2048x30, .i1⟩
  | .hbm, ⟨92, _⟩ => ⟨S_, .i32⟩
  | .hbm, ⟨93, _⟩ => ⟨S2x2048x30, .i32⟩
  | .hbm, ⟨94, _⟩ => ⟨S2x2048x30, .i32⟩
  | .hbm, ⟨95, _⟩ => ⟨S2x2048x30, .i32⟩
  | .hbm, ⟨96, _⟩ => ⟨S2x2048x30x1, .i32⟩
  | .hbm, ⟨97, _⟩ => ⟨S2x2048x30x14, .f32⟩
  | .hbm, ⟨98, _⟩ => ⟨S2x2048x1x14x1, .f32⟩
  | .hbm, ⟨99, _⟩ => ⟨S2x2048x30x1x14, .f32⟩
  | .hbm, ⟨100, _⟩ => ⟨S2x2048x30x14x14, .f32⟩
  | .hbm, ⟨101, _⟩ => ⟨S2x2048x30x14x14, .f32⟩
  | .hbm, ⟨102, _⟩ => ⟨S2x2048x30x14x14, .f32⟩
  | .hbm, ⟨103, _⟩ => ⟨S_, .f32⟩
  | .hbm, ⟨104, _⟩ => ⟨S2x2048x30x14x14, .f32⟩
  | .hbm, ⟨105, _⟩ => ⟨S2x2048x30x14x14, .f32⟩
  | .hbm, ⟨106, _⟩ => ⟨S_, .f32⟩
  | .hbm, ⟨107, _⟩ => ⟨S2x2048x30x14x14, .f32⟩
  | .hbm, ⟨108, _⟩ => ⟨S2x2048x30x14x14, .f32⟩
  | .hbm, ⟨109, _⟩ => ⟨S2x2048x30x14x14, .f32⟩
  | .hbm, ⟨110, _⟩ => ⟨S_, .f32⟩
  | .hbm, ⟨111, _⟩ => ⟨S2x2048x30x14x14, .f32⟩
  | .hbm, ⟨112, _⟩ => ⟨S2x2048x30x14x14, .f32⟩
  | .hbm, ⟨113, _⟩ => ⟨S2x2048x30x14x14, .f32⟩
  | .hbm, ⟨114, _⟩ => ⟨S2x2048x30x14x14, .f32⟩
  | .hbm, ⟨115, _⟩ => ⟨S_, .f32⟩
  | .hbm, ⟨116, _⟩ => ⟨S2x2048x30x14x14, .f32⟩
  | .hbm, ⟨117, _⟩ => ⟨S2x2048x30x14x14, .f32⟩
  | .hbm, ⟨118, _⟩ => ⟨S_, .f32⟩
  | .hbm, ⟨119, _⟩ => ⟨S2x2048x30x14x14, .f32⟩
  | .hbm, ⟨120, _⟩ => ⟨S2x2048x30x14x14, .f32⟩
  | .hbm, ⟨121, _⟩ => ⟨S2x2048x30x14x14, .f32⟩
  | .hbm, ⟨122, _⟩ => ⟨S2x2048x30x10x14, .f32⟩
  | .hbm, ⟨123, _⟩ => ⟨S_, .f32⟩
  | .hbm, ⟨124, _⟩ => ⟨S2x2048, .f32⟩
  | _, _ => ⟨S2x2048x14x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_c_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_9 : Ref sig .tc := ⟨.hbm, 80, rfl⟩
abbrev main_v63 : Ref sig .tc := ⟨.hbm, 81, rfl⟩
abbrev main_v64 : Ref sig .tc := ⟨.hbm, 82, rfl⟩
abbrev main_c_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_11 : Ref sig .tc := ⟨.hbm, 89, rfl⟩
abbrev main_v70 : Ref sig .tc := ⟨.hbm, 90, rfl⟩
abbrev main_v71 : Ref sig .tc := ⟨.hbm, 91, rfl⟩
abbrev main_c_12 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_15 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_16 : Ref sig .tc := ⟨.hbm, 115, rfl⟩
abbrev main_v91 : Ref sig .tc := ⟨.hbm, 116, rfl⟩
abbrev main_v92 : Ref sig .tc := ⟨.hbm, 117, rfl⟩
abbrev main_cst_17 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_18 : Ref sig .tc := ⟨.hbm, 123, rfl⟩
abbrev main_v97 : Ref sig .tc := ⟨.hbm, 124, rfl⟩

abbrev nD : Nat := 1
abbrev τ : Topo := Topo.v7x

variable {F : FTy → Type} [FloatOps F]

class Facts₀ : Prop where
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S14_S1x1x14_2 : S14.BroadcastsInDim S1x1x14 (![2] : Fin 1 → Fin S1x1x14.rank)
  bcast_S1x1x14_S2x2048x14_0_1_2 : S1x1x14.BroadcastsInDim S2x2048x14 (![0, 1, 2] : Fin 3 → Fin S2x2048x14.rank)
  bcast_S2x2048x1_S2x2048x14_0_1_2 : S2x2048x1.BroadcastsInDim S2x2048x14 (![0, 1, 2] : Fin 3 → Fin S2x2048x14.rank)
  bcast_S_S2x2048x30 : S_.BroadcastsInDim S2x2048x30 (![] : Fin 0 → Fin S2x2048x30.rank)
  bcast_S2x2048x30_S2x2048x30x1_0_1_2 : S2x2048x30.BroadcastsInDim S2x2048x30x1 (![0, 1, 2] : Fin 3 → Fin S2x2048x30x1.rank)
  bcast_S2x2048x14_S2x2048x1x14x1_0_1_3 : S2x2048x14.BroadcastsInDim S2x2048x1x14x1 (![0, 1, 3] : Fin 3 → Fin S2x2048x1x14x1.rank)
  bcast_S2x2048x30x14_S2x2048x30x1x14_0_1_2_4 : S2x2048x30x14.BroadcastsInDim S2x2048x30x1x14 (![0, 1, 2, 4] : Fin 4 → Fin S2x2048x30x1x14.rank)
  bcast_S2x2048x1x14x1_S2x2048x30x14x14_0_1_2_3_4 : S2x2048x1x14x1.BroadcastsInDim S2x2048x30x14x14 (![0, 1, 2, 3, 4] : Fin 5 → Fin S2x2048x30x14x14.rank)
  bcast_S2x2048x30x1x14_S2x2048x30x14x14_0_1_2_3_4 : S2x2048x30x1x14.BroadcastsInDim S2x2048x30x14x14 (![0, 1, 2, 3, 4] : Fin 5 → Fin S2x2048x30x14x14.rank)
  bcast_S2048_S1x2048x1_1 : S2048.BroadcastsInDim S1x2048x1 (![1] : Fin 1 → Fin S1x2048x1.rank)
  bcast_S1x2048x1_S2x2048x30_0_1_2 : S1x2048x1.BroadcastsInDim S2x2048x30 (![0, 1, 2] : Fin 3 → Fin S2x2048x30.rank)
  bcast_S2x2048x30_S2x2048x30x1x1_0_1_2 : S2x2048x30.BroadcastsInDim S2x2048x30x1x1 (![0, 1, 2] : Fin 3 → Fin S2x2048x30x1x1.rank)
  bcast_S2x2048x30x1x1_S2x2048x30x14x14_0_1_2_3_4 : S2x2048x30x1x1.BroadcastsInDim S2x2048x30x14x14 (![0, 1, 2, 3, 4] : Fin 5 → Fin S2x2048x30x14x14.rank)
  bcast_S2x2048x14x3_S2x2048x1x14x1x3_0_1_3_5 : S2x2048x14x3.BroadcastsInDim S2x2048x1x14x1x3 (![0, 1, 3, 5] : Fin 4 → Fin S2x2048x1x14x1x3.rank)
  bcast_S2x2048x30x14x3_S2x2048x30x1x14x3_0_1_2_4_5 : S2x2048x30x14x3.BroadcastsInDim S2x2048x30x1x14x3 (![0, 1, 2, 4, 5] : Fin 5 → Fin S2x2048x30x1x14x3.rank)
  bcast_S2x2048x1x14x1x3_S2x2048x30x14x14x3_0_1_2_3_4_5 : S2x2048x1x14x1x3.BroadcastsInDim S2x2048x30x14x14x3 (![0, 1, 2, 3, 4, 5] : Fin 6 → Fin S2x2048x30x14x14x3.rank)
  bcast_S2x2048x30x1x14x3_S2x2048x30x14x14x3_0_1_2_3_4_5 : S2x2048x30x1x14x3.BroadcastsInDim S2x2048x30x14x14x3 (![0, 1, 2, 3, 4, 5] : Fin 6 → Fin S2x2048x30x14x14x3.rank)
  reducesTo_S2x2048x30x14x14x3_S2x2048x30x14x14_d5 : S2x2048x30x14x14x3.ReducesTo [5] S2x2048x30x14x14
  h_S_ : 0 < S_.numel
  bcast_S_S2x2048x30x14x14 : S_.BroadcastsInDim S2x2048x30x14x14 (![] : Fin 0 → Fin S2x2048x30x14x14.rank)
  slices_S2x2048x30x14x14_S2x2048x30x10x14_0_0_0_4_0 : S2x2048x30x14x14.Slices ![0, 0, 0, 4, 0] S2x2048x30x10x14
  reducesTo_S2x2048x30x10x14_S2x2048_d2_3_4 : S2x2048x30x10x14.ReducesTo [2, 3, 4] S2x2048
  gather_S20_S2x2048x1_S2x2048_n_0_n_n_0_2_1_wf : GatherDims.WF S20 S2x2048x1 S2x2048 [] [0] [] [0] [] 2 ![1]
  gather_S2x2048x14_S2x2048x30x1_S2x2048x30x14_3_1_0_0_1_3_1114_wf : GatherDims.WF S2x2048x14 S2x2048x30x1 S2x2048x30x14 [3] [1] [0] [1] [0] 3 ![1, 1, 14]
  gather_S2x2048x14x3_S2x2048x30x1_S2x2048x30x14x3_34_1_0_0_1_3_11143_wf : GatherDims.WF S2x2048x14x3 S2x2048x30x1 S2x2048x30x14x3 [3, 4] [1] [0] [1] [0] 3 ![1, 1, 14, 3]
  gather_S20x14_S2x2048x1_S2x2048x14_2_0_n_n_0_2_114_wf : GatherDims.WF S20x14 S2x2048x1 S2x2048x14 [2] [0] [] [0] [] 2 ![1, 14]

variable [Facts₀]

def gather_S20_S2x2048x1_S2x2048_n_0_n_n_0_2_1 : GatherDims S20 S2x2048x1 S2x2048 where
  offsetDims := []
  collapsedSliceDims := [0]
  operandBatchingDims := []
  startIndicesBatchingDims := []
  startIndexMap := [0]
  indexVectorDim := 2
  sliceSizes := ![1]
  wf := gather_S20_S2x2048x1_S2x2048_n_0_n_n_0_2_1_wf
def gather_S2x2048x14_S2x2048x30x1_S2x2048x30x14_3_1_0_0_1_3_1114 : GatherDims S2x2048x14 S2x2048x30x1 S2x2048x30x14 where
  offsetDims := [3]
  collapsedSliceDims := [1]
  operandBatchingDims := [0]
  startIndicesBatchingDims := [0]
  startIndexMap := [1]
  indexVectorDim := 3
  sliceSizes := ![1, 1, 14]
  wf := gather_S2x2048x14_S2x2048x30x1_S2x2048x30x14_3_1_0_0_1_3_1114_wf
def gather_S2x2048x14x3_S2x2048x30x1_S2x2048x30x14x3_34_1_0_0_1_3_11143 : GatherDims S2x2048x14x3 S2x2048x30x1 S2x2048x30x14x3 where
  offsetDims := [3, 4]
  collapsedSliceDims := [1]
  operandBatchingDims := [0]
  startIndicesBatchingDims := [0]
  startIndexMap := [1]
  indexVectorDim := 3
  sliceSizes := ![1, 1, 14, 3]
  wf := gather_S2x2048x14x3_S2x2048x30x1_S2x2048x30x14x3_34_1_0_0_1_3_11143_wf
def gather_S20x14_S2x2048x1_S2x2048x14_2_0_n_n_0_2_114 : GatherDims S20x14 S2x2048x1 S2x2048x14 where
  offsetDims := [2]
  collapsedSliceDims := [0]
  operandBatchingDims := []
  startIndicesBatchingDims := []
  startIndexMap := [0]
  indexVectorDim := 2
  sliceSizes := ![1, 14]
  wf := gather_S20x14_S2x2048x1_S2x2048x14_2_0_n_n_0_2_114_wf

class Facts : Prop extends Facts₀ where

variable [Facts]
-- ==== Proof.BodyIter.lean ====
/-
  One grid point's body, written once for a neighbour index `k` instead of thirty times: the pair terms of neighbour
  `k` (every side-chain atom of the residue against every atom of the neighbour) as the vector operations the kernel
  applies — the neighbour's columns sliced out of the flattened rows at the offsets 14 k (mask, radii, first coordinate),
  420 + 14 k and 840 + 14 k (the other two coordinates) and column k of the combined neighbour mask —, their sum over
  both atom axes, and the running sum over the neighbours as a recursion on the number of neighbours added so far.
-/
import proofs.«107015_j40819369181410_2_alg».proof.Proof.Gen.KernelIdeal

noncomputable section

namespace Cert.KernelIdeal.Body

open Idealize.ShloMosaic Cert.KernelIdeal Cert.KernelIdeal.Gen

variable {F : FTy → Type} [FloatOps F]

/-! ## The neighbour's columns lie inside the rows -/

theorem sl420 (k : ℕ) (hk : k < 30) : S512x420.Slices ![0, 14 * k] S512x14 :=
  ⟨rfl, fun a => by
    match a with
    | ⟨0, _⟩ => show 0 + 512 ≤ 512; omega
    | ⟨1, _⟩ => show 14 * k + 14 ≤ 420; omega⟩

theorem sl30 (k : ℕ) (hk : k < 30) : S512x30.Slices ![0, k] S512x1 :=
  ⟨rfl, fun a => by
    match a with
    | ⟨0, _⟩ => show 0 + 512 ≤ 512; omega
    | ⟨1, _⟩ => show k + 1 ≤ 30; omega⟩

theorem sl1260 (o k : ℕ) (ho : o ≤ 840) (hk : k < 30) : S512x1260.Slices ![0, o + 14 * k] S512x14 :=
  ⟨rfl, fun a => by
    match a with
    | ⟨0, _⟩ => show 0 + 512 ≤ 512; omega
    | ⟨1, _⟩ => show o + 14 * k + 14 ≤ 1260; omega⟩

/-! ## Neighbour `k`'s pair terms, their sum, and the running sum -/

/-- Neighbour `k`'s 10 x 14 pair terms in every row: mask product times the sigmoid of the cutoff minus the distance. -/
def pairs (k : ℕ) (hk : k < 30) (v3 v5 : FVec F S512x10 .f32) (v7 : FVec F S512x1260 .f32) (v9 v11 : FVec F S512x420 .f32)
    (v13 : FVec F S512x30 .f32) (v15 v16 v17 : FVec F S512x10 .f32) : FVec F S512x10x14 .f32 :=
  have mg : FVec F S512x14 .f32 := extractStridedSlice S512x14 ![0, 14 * k] v9 (sl420 k hk)
  have rj : FVec F S512x14 .f32 := extractStridedSlice S512x14 ![0, 14 * k] v11 (sl420 k hk)
  have mn : FVec F S512x1 .f32 := extractStridedSlice S512x1 ![0, k] v13 (sl30 k hk)
  have z : FVec F S512x10x14 .f32 := broadcast S512x10x14 (Scalar.ofBits .f32 0x00000000#32)
  have y0 : FVec F S512x14 .f32 := extractStridedSlice S512x14 ![0, 0 + 14 * k] v7 (sl1260 0 k (by omega) hk)
  have a0 : FVec F S512x10x1 .f32 := shapeCast S512x10x1 v15 shapeCasts_S512x10_S512x10x1
  have b0 : FVec F S512x1x14 .f32 := shapeCast S512x1x14 y0 shapeCasts_S512x14_S512x1x14
  have d0 : FVec F S512x10x14 .f32 := subf (broadcastTo S512x10x14 a0 broadcasts_S512x10x1_S512x10x14) (broadcastTo S512x10x14 b0 broadcasts_S512x1x14_S512x10x14)
  have s0 : FVec F S512x10x14 .f32 := addf z (mulf d0 d0)
  have y1 : FVec F S512x14 .f32 := extractStridedSlice S512x14 ![0, 420 + 14 * k] v7 (sl1260 420 k (by omega) hk)
  have a1 : FVec F S512x10x1 .f32 := shapeCast S512x10x1 v16 shapeCasts_S512x10_S512x10x1
  have b1 : FVec F S512x1x14 .f32 := shapeCast S512x1x14 y1 shapeCasts_S512x14_S512x1x14
  have d1 : FVec F S512x10x14 .f32 := subf (broadcastTo S512x10x14 a1 broadcasts_S512x10x1_S512x10x14) (broadcastTo S512x10x14 b1 broadcasts_S512x1x14_S512x10x14)
  have s1 : FVec F S512x10x14 .f32 := addf s0 (mulf d1 d1)
  have y2 : FVec F S512x14 .f32 := extractStridedSlice S512x14 ![0, 840 + 14 * k] v7 (sl1260 840 k (by omega) hk)
  have a2 : FVec F S512x10x1 .f32 := shapeCast S512x10x1 v17 shapeCasts_S512x10_S512x10x1
  have b2 : FVec F S512x1x14 .f32 := shapeCast S512x1x14 y2 shapeCasts_S512x14_S512x1x14
  have d2 : FVec F S512x10x14 .f32 := subf (broadcastTo S512x10x14 a2 broadcasts_S512x10x1_S512x10x14) (broadcastTo S512x10x14 b2 broadcasts_S512x1x14_S512x10x14)
  have s2 : FVec F S512x10x14 .f32 := addf s1 (mulf d2 d2)
  have dist : FVec F S512x10x14 .f32 := sqrt (addf s2 (broadcast S512x10x14 (Scalar.ofBits .f32 0x3A83126F#32)))
  have ri' : FVec F S512x10x1 .f32 := shapeCast S512x10x1 v5 shapeCasts_S512x10_S512x10x1
  have rj' : FVec F S512x1x14 .f32 := shapeCast S512x1x14 rj shapeCasts_S512x14_S512x1x14
  have rsum : FVec F S512x10x14 .f32 := addf (broadcastTo S512x10x14 ri' broadcasts_S512x10x1_S512x10x14) (broadcastTo S512x10x14 rj' broadcasts_S512x1x14_S512x10x14)
  have cut : FVec F S512x10x14 .f32 := addf (mulf rsum (broadcast S512x10x14 (Scalar.ofBits .f32 0x3F000000#32))) (broadcast S512x10x14 (Scalar.ofBits .f32 0x3EB33333#32))
  have ma' : FVec F S512x10x1 .f32 := shapeCast S512x10x1 v3 shapeCasts_S512x10_S512x10x1
  have mg' : FVec F S512x1x14 .f32 := shapeCast S512x1x14 mg shapeCasts_S512x14_S512x1x14
  have mm : FVec F S512x10x14 .f32 := mulf (broadcastTo S512x10x14 ma' broadcasts_S512x10x1_S512x10x14) (broadcastTo S512x10x14 mg' broadcasts_S512x1x14_S512x10x14)
  have mn' : FVec F S512x1x1 .f32 := shapeCast S512x1x1 mn shapeCasts_S512x1_S512x1x1
  have mask : FVec F S512x10x14 .f32 := mulf mm (broadcastTo S512x10x14 mn' broadcasts_S512x1x1_S512x10x14)
  have arg : FVec F S512x10x14 .f32 := mulf (broadcast S512x10x14 (Scalar.ofBits .f32 0x3F800000#32)) (subf cut dist)
  mulf mask (logistic arg)

/-- The sum of a row's 10 x 14 terms: over the neighbour's atoms, then over the residue's side-chain atoms. -/
def sumPairs (t : FVec F S512x10x14 .f32) : FVec F S512 .f32 :=
  multiReduction .add [1] S512 (multiReduction .add [2] S512x10 t 0x00000000#32 reduces_S512x10x14_S512x10 (.inl rfl) rfl) 0x00000000#32 reduces_S512x10_S512 (.inl rfl) rfl

/-- The running sum after the first `n` neighbours, from zero. -/
def accUpTo (v3 v5 : FVec F S512x10 .f32) (v7 : FVec F S512x1260 .f32) (v9 v11 : FVec F S512x420 .f32)
    (v13 : FVec F S512x30 .f32) (v15 v16 v17 : FVec F S512x10 .f32) : (n : ℕ) → n ≤ 30 → FVec F S512 .f32
  | 0, _ => broadcast S512 (Scalar.ofBits .f32 0x00000000#32)
  | n + 1, h => addf (accUpTo v3 v5 v7 v9 v11 v13 v15 v16 v17 n (Nat.le_of_succ_le h))
      (sumPairs (pairs n (Nat.lt_of_succ_le h) v3 v5 v7 v9 v11 v13 v15 v16 v17))

/-- The body's result from the seven loaded blocks: the own coordinates' three column groups sliced out once, then the
    running sum over all thirty neighbours. -/
def bodyVal (l0 : Vec F S512x30 .f32) (l1 : Vec F S512x1260 .f32) (l2 : Vec F S512x10 .f32) (l3 : Vec F S512x420 .f32)
    (l4 : Vec F S512x10 .f32) (l5 : Vec F S512x420 .f32) (l6 : Vec F S512x30 .f32) : FVec F S512 .f32 :=
  have v1 : FVec F S512x30 .f32 := shapeCast S512x30 l0 shapeCasts_S512x30_S512x30
  accUpTo (shapeCast S512x10 l2 shapeCasts_S512x10_S512x10) (shapeCast S512x10 l4 shapeCasts_S512x10_S512x10)
    (shapeCast S512x1260 l1 shapeCasts_S512x1260_S512x1260) (shapeCast S512x420 l3 shapeCasts_S512x420_S512x420)
    (shapeCast S512x420 l5 shapeCasts_S512x420_S512x420) (shapeCast S512x30 l6 shapeCasts_S512x30_S512x30)
    (extractStridedSlice S512x10 ![0, 0] v1 slices_S512x30_o0_0_S512x10)
    (extractStridedSlice S512x10 ![0, 10] v1 slices_S512x30_o0_10_S512x10)
    (extractStridedSlice S512x10 ![0, 20] v1 slices_S512x30_o0_20_S512x10) 30 (Nat.le_refl 30)

end Cert.KernelIdeal.Body

end
-- ==== Proof.BodyRead.lean ====
/-
  The layout steps of the body read at an index: a column vector [512,10] seen as [512,10,1] and spread over the
  neighbour's atoms reads its own (row, side-chain atom); a row vector [512,14] seen as [512,1,14] and spread over the
  side-chain atoms reads its own (row, neighbour atom); a single column [512,1] seen as [512,1,1] and spread over both
  reads the row; a block of columns sliced at an offset reads the column moved by the offset.
-/
import proofs.«107015_j40819369181410_2_alg».proof.Proof.Gen.KernelIdeal
import Idealize.ShloMosaic.Lib.Pipeline.Value
import Idealize.ShloMosaic.Lib.ValueIdx

noncomputable section

namespace Cert.KernelIdeal.Body

open Idealize.ShloMosaic Idealize.ShloMosaic.ValueIdx Cert.KernelIdeal

variable {α : Type}

/-- A [512,10] vector as [512,10,1], spread to [512,10,14], at (r, a', a) is the vector at (r, a'). -/
theorem col_apply (u : S512x10.Idx → α) (h1 : S512x10.ShapeCasts S512x10x1) (h2 : S512x10x1.Broadcasts S512x10x14)
    (r : Fin 512) (a' : Fin 10) (a : Fin 14) :
    broadcastTo S512x10x14 (shapeCast S512x10x1 u h1) h2 (ix3 r a' a) = u (ix2 r a') := by
  refine (broadcastTo_apply _ h2 (ix3 r a' a) (ix3 r a' (0 : Fin 1)) fun d => ?_).trans ?_
  · match d with
    | ⟨0, _⟩ => rfl
    | ⟨1, _⟩ => rfl
    | ⟨2, _⟩ => rfl
  · refine shapeCast_apply u h1 _ (ix2 r a') ?_
    rw [Shape.rowMajor_val_two, Shape.rowMajor_val_three]
    show r.val * 10 + a'.val = (r.val * 10 + a'.val) * 1 + 0
    omega

/-- A [512,14] vector as [512,1,14], spread to [512,10,14], at (r, a', a) is the vector at (r, a). -/
theorem row_apply (w : S512x14.Idx → α) (h1 : S512x14.ShapeCasts S512x1x14) (h2 : S512x1x14.Broadcasts S512x10x14)
    (r : Fin 512) (a' : Fin 10) (a : Fin 14) :
    broadcastTo S512x10x14 (shapeCast S512x1x14 w h1) h2 (ix3 r a' a) = w (ix2 r a) := by
  refine (broadcastTo_apply _ h2 (ix3 r a' a) (ix3 r (0 : Fin 1) a) fun d => ?_).trans ?_
  · match d with
    | ⟨0, _⟩ => rfl
    | ⟨1, _⟩ => rfl
    | ⟨2, _⟩ => rfl
  · refine shapeCast_apply w h1 _ (ix2 r a) ?_
    rw [Shape.rowMajor_val_two, Shape.rowMajor_val_three]
    show r.val * 14 + a.val = (r.val * 1 + 0) * 14 + a.val
    omega

/-- A [512,1] vector as [512,1,1], spread to [512,10,14], at (r, a', a) is the vector at (r, 0). -/
theorem one_apply (s : S512x1.Idx → α) (h1 : S512x1.ShapeCasts S512x1x1) (h2 : S512x1x1.Broadcasts S512x10x14)
    (r : Fin 512) (a' : Fin 10) (a : Fin 14) :
    broadcastTo S512x10x14 (shapeCast S512x1x1 s h1) h2 (ix3 r a' a) = s (ix2 r (0 : Fin 1)) := by
  refine (broadcastTo_apply _ h2 (ix3 r a' a) (ix3 r (0 : Fin 1) (0 : Fin 1)) fun d => ?_).trans ?_
  · match d with
    | ⟨0, _⟩ => rfl
    | ⟨1, _⟩ => rfl
    | ⟨2, _⟩ => rfl
  · refine shapeCast_apply s h1 _ (ix2 r (0 : Fin 1)) ?_
    rw [Shape.rowMajor_val_two, Shape.rowMajor_val_three]
    show r.val * 1 + 0 = (r.val * 1 + 0) * 1 + 0
    omega

/-- Fourteen columns sliced out of 420 at offset `o` read column `o + a`. -/
theorem slice420_apply (x : S512x420.Idx → α) (o : ℕ) (h : S512x420.Slices ![0, o] S512x14) (r : Fin 512) (a : Fin 14)
    (c : Fin 420) (hc : c.val = o + a.val) :
    extractStridedSlice S512x14 ![0, o] x h (ix2 r a) = x (ix2 r c) := by
  refine extractStridedSlice_apply _ x h _ (ix2 r c) fun d => ?_
  match d with
  | ⟨0, _⟩ => show r.val = 0 + r.val; omega
  | ⟨1, _⟩ => show c.val = o + a.val; exact hc

/-- Fourteen columns sliced out of 1260 at offset `o` read column `o + a`. -/
theorem slice1260_apply (x : S512x1260.Idx → α) (o : ℕ) (h : S512x1260.Slices ![0, o] S512x14) (r : Fin 512) (a : Fin 14)
    (c : Fin 1260) (hc : c.val = o + a.val) :
    extractStridedSlice S512x14 ![0, o] x h (ix2 r a) = x (ix2 r c) := by
  refine extractStridedSlice_apply _ x h _ (ix2 r c) fun d => ?_
  match d with
  | ⟨0, _⟩ => show r.val = 0 + r.val; omega
  | ⟨1, _⟩ => show c.val = o + a.val; exact hc

/-- One column sliced out of 30 at offset `o` reads column `o`. -/
theorem slice30_apply (x : S512x30.Idx → α) (o : ℕ) (h : S512x30.Slices ![0, o] S512x1) (r : Fin 512)
    (c : Fin 30) (hc : c.val = o) :
    extractStridedSlice S512x1 ![0, o] x h (ix2 r (0 : Fin 1)) = x (ix2 r c) := by
  refine extractStridedSlice_apply _ x h _ (ix2 r c) fun d => ?_
  match d with
  | ⟨0, _⟩ => show r.val = 0 + r.val; omega
  | ⟨1, _⟩ => show c.val = o + 0; omega

/-- Ten columns sliced out of 30 at offset `o` read column `o + a'`. -/
theorem slice10_apply (x : S512x30.Idx → α) (o : ℕ) (h : S512x30.Slices ![0, o] S512x10) (r : Fin 512) (a' : Fin 10)
    (c : Fin 30) (hc : c.val = o + a'.val) :
    extractStridedSlice S512x10 ![0, o] x h (ix2 r a') = x (ix2 r c) := by
  refine extractStridedSlice_apply _ x h _ (ix2 r c) fun d => ?_
  match d with
  | ⟨0, _⟩ => show r.val = 0 + r.val; omega
  | ⟨1, _⟩ => show c.val = o + a'.val; exact hc

end Cert.KernelIdeal.Body

end
-- ==== Proof.Spec.lean ====
/-
  The specification both programs are proved against: for every residue (b, n) the clash score

      sum over neighbours k < 30, side-chain atoms a' < 10 of the residue (atoms 4..13), atoms a < 14 of the neighbour, of
        mask(b,n,k,a',a) * sigmoid(1 * ((r_i + r_j) / 2 + 0.35 - sqrt(|x_i - x_j|^2 + 0.001)))

  over the extended reals, written once as a function of the arrays the two programs share (the atom mask, the gathered
  neighbour mask, the not-self mask, the pair mask, the coordinates, the gathered coordinates, the radii, the gathered radii),
  and once more in the flattened row layout the kernel's pipeline works in (one row per residue, the neighbour and atom axes
  folded into the columns).  The laws that join the two forms: multiplication of extended reals is associative, halving is
  dividing by two, and a three-term sum written out is the sum over `Fin 3`.
-/
import Idealize.ShloMosaic.PureOps.Ideal
import Idealize.ShloMosaic.Lib.ValueIdx

noncomputable section

namespace Cert.Clash

open Idealize.ShloMosaic Idealize.ShloMosaic.ValueIdx

/-! ## The literals, as the extended reals their f32 words denote (never evaluated: the same word on both sides) -/

abbrev zero : EReal := Ideal.ofBits .f32 0x00000000#32
abbrev one : EReal := Ideal.ofBits .f32 0x3F800000#32
abbrev two : EReal := Ideal.ofBits .f32 0x40000000#32
abbrev half : EReal := Ideal.ofBits .f32 0x3F000000#32
abbrev eps : EReal := Ideal.ofBits .f32 0x3A83126F#32
abbrev c35 : EReal := Ideal.ofBits .f32 0x3EB33333#32

/-! ## Index helpers over literal extents -/

/-- Side-chain atom `a'` of ten is atom `a' + 4` of fourteen. -/
def up4 (a' : Fin 10) : Fin 14 := ⟨a'.val + 4, by omega⟩
/-- Residue (b, n) is row `b * 2048 + n` of the flattened 4096. -/
def flat (b : Fin 2) (n : Fin 2048) : Fin 4096 := ⟨b.val * 2048 + n.val, by omega⟩
/-- Column `c * 10 + a'` of the flattened coordinates of the residue's own side-chain atoms. -/
def colXi (c : Fin 3) (a' : Fin 10) : Fin 30 := ⟨c.val * 10 + a'.val, by omega⟩
/-- Column `c * 420 + k * 14 + a` of the flattened gathered coordinates. -/
def colXj (c : Fin 3) (k : Fin 30) (a : Fin 14) : Fin 1260 := ⟨c.val * 420 + k.val * 14 + a.val, by omega⟩
/-- Column `k * 14 + a` of a flattened (neighbour, atom) pair. -/
def colKA (k : Fin 30) (a : Fin 14) : Fin 420 := ⟨k.val * 14 + a.val, by omega⟩

/-! ## One pair of atoms -/

/-- Squared distance of two points of three coordinates. -/
def sq3 (x y : Fin 3 → EReal) : EReal := ∑ c : Fin 3, (x c - y c) * (x c - y c)

/-- The smooth cutoff of one pair: sigmoid of (the mean radius + 0.35 - the distance), the reference's spelling. -/
def gate (ri rj d2 : EReal) : EReal :=
  Ideal.logistic (one * ((Ideal.div (ri + rj) two + c35) - Ideal.sqrt (d2 + eps)))

/-- One pair's contribution, the masks multiplied in the reference's order. -/
def T (ma mg ne mij ri rj : EReal) (x y : Fin 3 → EReal) : EReal :=
  (((ma * mg) * ne) * mij) * gate ri rj (sq3 x y)

/-- One pair's contribution with the not-self and pair masks already multiplied into one factor (the kernel's order). -/
def Tk (ma mg mnk ri rj : EReal) (x y : Fin 3 → EReal) : EReal :=
  ((ma * mg) * mnk) * gate ri rj (sq3 x y)

theorem Tk_mul (ma mg ne mij ri rj : EReal) (x y : Fin 3 → EReal) :
    Tk ma mg (ne * mij) ri rj x y = T ma mg ne mij ri rj x y := by
  unfold Tk T; rw [← mul_assoc (ma * mg) ne mij]

/-! ## The result over the shared arrays -/

/-- The score of residue (b, n). -/
def Gat (MA : FVec Ideal ⟨3, ![2, 2048, 14]⟩ .f32) (MG : FVec Ideal ⟨4, ![2, 2048, 30, 14]⟩ .f32)
    (NE MIJ : FVec Ideal ⟨3, ![2, 2048, 30]⟩ .f32) (X : FVec Ideal ⟨4, ![2, 2048, 14, 3]⟩ .f32)
    (XJ : FVec Ideal ⟨5, ![2, 2048, 30, 14, 3]⟩ .f32) (R : FVec Ideal ⟨3, ![2, 2048, 14]⟩ .f32)
    (RJ : FVec Ideal ⟨4, ![2, 2048, 30, 14]⟩ .f32) (b : Fin 2) (n : Fin 2048) : EReal :=
  ∑ k : Fin 30, ∑ a' : Fin 10, ∑ a : Fin 14,
    T (MA (ix3 b n (up4 a'))) (MG (ix4 b n k a)) (NE (ix3 b n k)) (MIJ (ix3 b n k))
      (R (ix3 b n (up4 a'))) (RJ (ix4 b n k a))
      (fun c => X (ix4 b n (up4 a') c)) (fun c => XJ (ix5 b n k a c))

/-- The whole result array. -/
def G (MA : FVec Ideal ⟨3, ![2, 2048, 14]⟩ .f32) (MG : FVec Ideal ⟨4, ![2, 2048, 30, 14]⟩ .f32)
    (NE MIJ : FVec Ideal ⟨3, ![2, 2048, 30]⟩ .f32) (X : FVec Ideal ⟨4, ![2, 2048, 14, 3]⟩ .f32)
    (XJ : FVec Ideal ⟨5, ![2, 2048, 30, 14, 3]⟩ .f32) (R : FVec Ideal ⟨3, ![2, 2048, 14]⟩ .f32)
    (RJ : FVec Ideal ⟨4, ![2, 2048, 30, 14]⟩ .f32) : FVec Ideal ⟨2, ![2, 2048]⟩ .f32 :=
  fun i => Gat MA MG NE MIJ X XJ R RJ (i 0) (i 1)

/-! ## The same sum in the flattened row layout, for any number of rows -/

/-- Row `r` of the flattened layout: columns `c * 10 + a'` of the own coordinates, `c * 420 + k * 14 + a` of the gathered
    ones, `a'` of the own mask and radii, `k * 14 + a` of the gathered mask and radii, `k` of the combined neighbour mask. -/
def rowAt {Rn : Nat} (xi : FVec Ideal ⟨2, ![Rn, 30]⟩ .f32) (xj : FVec Ideal ⟨2, ![Rn, 1260]⟩ .f32)
    (mai : FVec Ideal ⟨2, ![Rn, 10]⟩ .f32) (mg : FVec Ideal ⟨2, ![Rn, 420]⟩ .f32) (ri : FVec Ideal ⟨2, ![Rn, 10]⟩ .f32)
    (rj : FVec Ideal ⟨2, ![Rn, 420]⟩ .f32) (mnk : FVec Ideal ⟨2, ![Rn, 30]⟩ .f32) (r : Fin Rn) : EReal :=
  ∑ k : Fin 30, ∑ a' : Fin 10, ∑ a : Fin 14,
    Tk (mai (ix2 r a')) (mg (ix2 r (colKA k a))) (mnk (ix2 r k)) (ri (ix2 r a')) (rj (ix2 r (colKA k a)))
      (fun c => xi (ix2 r (colXi c a'))) (fun c => xj (ix2 r (colXj c k a)))

/-- All rows. -/
def rowsG {Rn : Nat} (xi : FVec Ideal ⟨2, ![Rn, 30]⟩ .f32) (xj : FVec Ideal ⟨2, ![Rn, 1260]⟩ .f32)
    (mai : FVec Ideal ⟨2, ![Rn, 10]⟩ .f32) (mg : FVec Ideal ⟨2, ![Rn, 420]⟩ .f32) (ri : FVec Ideal ⟨2, ![Rn, 10]⟩ .f32)
    (rj : FVec Ideal ⟨2, ![Rn, 420]⟩ .f32) (mnk : FVec Ideal ⟨2, ![Rn, 30]⟩ .f32) : FVec Ideal ⟨1, ![Rn]⟩ .f32 :=
  fun i => rowAt xi xj mai mg ri rj mnk (i 0)

/-- A flat array of 4096 read as 2 x 2048, row-major. -/
def unflat (y : FVec Ideal ⟨1, ![4096]⟩ .f32) : FVec Ideal ⟨2, ![2, 2048]⟩ .f32 :=
  fun i => y (ix1 (flat (i 0) (i 1)))

end Cert.Clash

end
-- ==== Proof.Consts.lean ====
/-
  The values of the literals the two programs spell differently, and the two small laws that join their spellings:
  multiplying by one half is dividing by two on every extended real, and the kernel's running sum of the three squared
  coordinate differences from zero is the sum over the three coordinates.
-/
import proofs.«107015_j40819369181410_2_alg».proof.Proof.Spec
import Idealize.ShloMosaic.PureOps.Ideal.Laws

noncomputable section

namespace Cert.Clash

open Idealize.ShloMosaic

theorem zero_eq : zero = 0 := Ideal.ofBits_zero_f32

theorem one_eq : one = 1 := by
  simp [Ideal.ofBits, Ideal.ieee, -EReal.coe_mul]; norm_num

theorem two_eq : two = ((2 : ℝ) : EReal) := by
  simp [Ideal.ofBits, Ideal.ieee, -EReal.coe_mul]; norm_num

theorem half_eq : half = ((1 / 2 : ℝ) : EReal) := by
  simp [Ideal.ofBits, Ideal.ieee, -EReal.coe_mul]; norm_num

/-- Halving is dividing by two, at the infinities too. -/
theorem mul_half (x : EReal) : x * half = Ideal.div x two := by
  rw [half_eq, two_eq, Ideal.div_coe (by norm_num : (2 : ℝ) ≠ 0)]

/-- The three squared differences added to zero one after the other are their sum. -/
theorem sq3_eq (x y : Fin 3 → EReal) :
    ((zero + (x 0 - y 0) * (x 0 - y 0)) + (x 1 - y 1) * (x 1 - y 1)) + (x 2 - y 2) * (x 2 - y 2) = sq3 x y := by
  unfold sq3
  rw [Fin.sum_univ_three, zero_eq, zero_add]

end Cert.Clash

end
-- ==== Proof.BodyAt.lean ====
/-
  The body read at a row: a row's two lane sums are the double sum over the side-chain atoms and the neighbour's atoms;
  neighbour `k`'s pair term, index by index, is the mask product times the sigmoid of the cutoff minus the distance over
  the columns 14 k + a (mask, radii), c * 420 + 14 k + a (coordinates) and k (the combined neighbour mask); the running sum
  after n neighbours is zero plus the first n neighbours' sums (induction on n); so the body's result in row r is the
  specification's row sum.  Halving is dividing by two, and the squared differences added from zero are the squared distance.
-/
import proofs.«107015_j40819369181410_2_alg».proof.Proof.BodyIter
import proofs.«107015_j40819369181410_2_alg».proof.Proof.BodyRead
import proofs.«107015_j40819369181410_2_alg».proof.Proof.Consts
import Idealize.ShloMosaic.PureOps.Ideal.Laws

noncomputable section

namespace Cert.KernelIdeal.Body

open Idealize.ShloMosaic Idealize.ShloMosaic.ValueIdx Cert.KernelIdeal Cert.KernelIdeal.Gen Cert.Clash

/-- The two lane sums of a row: over the neighbour's atoms inside, over the side-chain atoms outside. -/
theorem sumPairs_apply (t : FVec Ideal S512x10x14 .f32) (r : Fin 512) :
    sumPairs t (ix1 r) = ∑ a' : Fin 10, ∑ a : Fin 14, t (ix3 r a' a) := by
  unfold sumPairs
  refine (Ideal.multiReduction_add_single (s := S512x10) (t := S512) (a := 1) _ 0x00000000#32 reduces_S512x10_S512 (.inl rfl) rfl (ix1 r)).trans ?_
  refine Finset.sum_congr rfl fun a' _ => ?_
  refine (Ideal.multiReduction_add_single (s := S512x10x14) (t := S512x10) (a := 2) t 0x00000000#32 reduces_S512x10x14_S512x10 (.inl rfl) rfl _).trans ?_
  refine Finset.sum_congr rfl fun a _ => ?_
  refine congrArg t ?_
  funext d
  match d with
  | ⟨0, _⟩ => exact Fin.ext rfl
  | ⟨1, _⟩ => exact Fin.ext rfl
  | ⟨2, _⟩ => exact Fin.ext rfl

section
variable (k : ℕ) (hk : k < 30) (v3 v5 : FVec Ideal S512x10 .f32) (v7 : FVec Ideal S512x1260 .f32)
  (v9 v11 : FVec Ideal S512x420 .f32) (v13 : FVec Ideal S512x30 .f32) (v15 v16 v17 : FVec Ideal S512x10 .f32)

theorem colKA_val (a : Fin 14) : (colKA ⟨k, hk⟩ a).val = 14 * k + a.val := by
  show k * 14 + a.val = 14 * k + a.val; omega
theorem colXj_val0 (a : Fin 14) : (colXj 0 ⟨k, hk⟩ a).val = 0 + 14 * k + a.val := by
  show 0 * 420 + k * 14 + a.val = 0 + 14 * k + a.val; omega
theorem colXj_val1 (a : Fin 14) : (colXj 1 ⟨k, hk⟩ a).val = 420 + 14 * k + a.val := by
  show 1 * 420 + k * 14 + a.val = 420 + 14 * k + a.val; omega
theorem colXj_val2 (a : Fin 14) : (colXj 2 ⟨k, hk⟩ a).val = 840 + 14 * k + a.val := by
  show 2 * 420 + k * 14 + a.val = 840 + 14 * k + a.val; omega

/-- Neighbour `k`'s term of the pair (a', a) in row r, as the kernel spells it. -/
theorem pairs_apply (r : Fin 512) (a' : Fin 10) (a : Fin 14) :
    pairs k hk v3 v5 v7 v9 v11 v13 v15 v16 v17 (ix3 r a' a) =
      ((v3 (ix2 r a') * v9 (ix2 r (colKA ⟨k, hk⟩ a))) * v13 (ix2 r (⟨k, hk⟩ : Fin 30))) *
        Ideal.logistic (one * ((((v5 (ix2 r a') + v11 (ix2 r (colKA ⟨k, hk⟩ a))) * half) + c35) -
          Ideal.sqrt ((((zero + (v15 (ix2 r a') - v7 (ix2 r (colXj 0 ⟨k, hk⟩ a))) * (v15 (ix2 r a') - v7 (ix2 r (colXj 0 ⟨k, hk⟩ a))))
              + (v16 (ix2 r a') - v7 (ix2 r (colXj 1 ⟨k, hk⟩ a))) * (v16 (ix2 r a') - v7 (ix2 r (colXj 1 ⟨k, hk⟩ a))))
              + (v17 (ix2 r a') - v7 (ix2 r (colXj 2 ⟨k, hk⟩ a))) * (v17 (ix2 r a') - v7 (ix2 r (colXj 2 ⟨k, hk⟩ a)))) + eps))) := by
  unfold pairs
  simp only [mulf_apply, addf_apply, subf_apply, broadcast_apply, sqrt, logistic, col_apply, row_apply, one_apply,
    slice420_apply v9 (14 * k) (sl420 k hk) r a (colKA ⟨k, hk⟩ a) (colKA_val k hk a),
    slice420_apply v11 (14 * k) (sl420 k hk) r a (colKA ⟨k, hk⟩ a) (colKA_val k hk a),
    slice30_apply v13 k (sl30 k hk) r (⟨k, hk⟩ : Fin 30) rfl,
    slice1260_apply v7 (0 + 14 * k) (sl1260 0 k (by omega) hk) r a (colXj 0 ⟨k, hk⟩ a) (colXj_val0 k hk a),
    slice1260_apply v7 (420 + 14 * k) (sl1260 420 k (by omega) hk) r a (colXj 1 ⟨k, hk⟩ a) (colXj_val1 k hk a),
    slice1260_apply v7 (840 + 14 * k) (sl1260 840 k (by omega) hk) r a (colXj 2 ⟨k, hk⟩ a) (colXj_val2 k hk a)]
  rfl

end

section
variable (v3 v5 : FVec Ideal S512x10 .f32) (v7 : FVec Ideal S512x1260 .f32)
  (v9 v11 : FVec Ideal S512x420 .f32) (v13 : FVec Ideal S512x30 .f32) (v15 v16 v17 : FVec Ideal S512x10 .f32)
  (xi : FVec Ideal S512x30 .f32)
  (h15 : ∀ (r : Fin 512) (a' : Fin 10), v15 (ix2 r a') = xi (ix2 r (colXi 0 a')))
  (h16 : ∀ (r : Fin 512) (a' : Fin 10), v16 (ix2 r a') = xi (ix2 r (colXi 1 a')))
  (h17 : ∀ (r : Fin 512) (a' : Fin 10), v17 (ix2 r a') = xi (ix2 r (colXi 2 a')))
include h15 h16 h17

/-- Neighbour `k`'s sum in row r, in the specification's words: halving is dividing by two, and the three squared
    differences added from zero are the squared distance. -/
theorem neighbour_apply (k : ℕ) (hk : k < 30) (r : Fin 512) :
    sumPairs (pairs k hk v3 v5 v7 v9 v11 v13 v15 v16 v17) (ix1 r) =
      ∑ a' : Fin 10, ∑ a : Fin 14,
        Tk (v3 (ix2 r a')) (v9 (ix2 r (colKA ⟨k, hk⟩ a))) (v13 (ix2 r (⟨k, hk⟩ : Fin 30))) (v5 (ix2 r a'))
          (v11 (ix2 r (colKA ⟨k, hk⟩ a))) (fun c => xi (ix2 r (colXi c a'))) (fun c => v7 (ix2 r (colXj c ⟨k, hk⟩ a))) := by
  rw [sumPairs_apply]
  refine Finset.sum_congr rfl fun a' _ => Finset.sum_congr rfl fun a _ => ?_
  rw [pairs_apply, h15, h16, h17, mul_half]
  unfold Tk gate
  rw [← sq3_eq]

/-- The running sum after `n` neighbours in row r: zero plus the first `n` neighbours' sums. -/
theorem accUpTo_apply (r : Fin 512) : ∀ (n : ℕ) (hn : n ≤ 30),
    accUpTo v3 v5 v7 v9 v11 v13 v15 v16 v17 n hn (ix1 r) =
      zero + ∑ k : Fin n, ∑ a' : Fin 10, ∑ a : Fin 14,
        Tk (v3 (ix2 r a')) (v9 (ix2 r (colKA ⟨k.val, Nat.lt_of_lt_of_le k.isLt hn⟩ a)))
          (v13 (ix2 r (⟨k.val, Nat.lt_of_lt_of_le k.isLt hn⟩ : Fin 30))) (v5 (ix2 r a'))
          (v11 (ix2 r (colKA ⟨k.val, Nat.lt_of_lt_of_le k.isLt hn⟩ a))) (fun c => xi (ix2 r (colXi c a')))
          (fun c => v7 (ix2 r (colXj c ⟨k.val, Nat.lt_of_lt_of_le k.isLt hn⟩ a)))
  | 0, _ => by
      rw [Fin.sum_univ_zero, add_zero]
      rfl
  | n + 1, hn => by
      rw [accUpTo, addf_apply, accUpTo_apply r n (Nat.le_of_succ_le hn),
        neighbour_apply v3 v5 v7 v9 v11 v13 v15 v16 v17 xi h15 h16 h17 n (Nat.lt_of_succ_le hn) r, add_assoc]
      conv_rhs => rw [Fin.sum_univ_castSucc]
      rfl

end

/-- The body's result in row r is the specification's row sum over the seven loaded blocks. -/
theorem bodyVal_apply (l0 : Vec Ideal S512x30 .f32) (l1 : Vec Ideal S512x1260 .f32) (l2 : Vec Ideal S512x10 .f32)
    (l3 : Vec Ideal S512x420 .f32) (l4 : Vec Ideal S512x10 .f32) (l5 : Vec Ideal S512x420 .f32)
    (l6 : Vec Ideal S512x30 .f32) (r : Fin 512) :
    bodyVal (F := Ideal) l0 l1 l2 l3 l4 l5 l6 (ix1 r) = rowAt (Rn := 512) l0 l1 l2 l3 l4 l5 l6 r := by
  unfold bodyVal
  simp only [shapeCast_self]
  rw [accUpTo_apply l2 l4 l1 l3 l5 l6 _ _ _ l0
      (fun r a' => slice10_apply l0 0 _ r a' (colXi 0 a') (by show 0 * 10 + a'.val = 0 + a'.val; omega))
      (fun r a' => slice10_apply l0 10 _ r a' (colXi 1 a') (by show 1 * 10 + a'.val = 10 + a'.val; omega))
      (fun r a' => slice10_apply l0 20 _ r a' (colXi 2 a') (by show 2 * 10 + a'.val = 20 + a'.val; omega))
      r 30 (Nat.le_refl 30), zero_eq, zero_add]
  rfl

end Cert.KernelIdeal.Body

end
-- ==== Proof.BodyOut.lean ====
/-
  The kernel body's result buffer as one function of the seven input blocks: the thirty unrolled neighbour iterations
  are the recursion on the neighbour index unfolded (the two terms are the same operations in the same order), its one
  store through the whole buffer leaves its payload, the loads through the whole blocks read the blocks, and row by row
  the payload is the specification's row sum.
-/
import proofs.«107015_j40819369181410_2_alg».proof.Proof.PFrameKernelIdeal
import proofs.«107015_j40819369181410_2_alg».proof.Proof.BodyAt

set_option maxRecDepth 16384

noncomputable section

namespace Cert.KernelIdeal.Body

open Idealize.ShloMosaic Idealize.ShloMosaic.ValueIdx Idealize.ShloMosaic.Pipeline Cert.KernelIdeal Cert.KernelIdeal.Gen Cert.KernelIdeal.GenP Cert.Clash

variable {F : FTy → Type} [FloatOps F]

set_option maxHeartbeats 4000000 in
/-- The unrolled body is the recursion unfolded thirty times. -/
theorem out_unrolled (x0 : Vec F S512x30 .f32) (x1 : Vec F S512x1260 .f32) (x2 : Vec F S512x10 .f32) (x3 : Vec F S512x420 .f32)
    (x4 : Vec F S512x10 .f32) (x5 : Vec F S512x420 .f32) (x6 : Vec F S512x30 .f32) :
    out0_7 x0 x1 x2 x3 x4 x5 x6 = View.canon [⟨r0_4, bodyVal (View.ld x0 r0_0) (View.ld x1 r0_2) (View.ld x2 r0_1)
      (View.ld x3 r0_3) (View.ld x4 r0_1) (View.ld x5 r0_3) (View.ld x6 r0_0)⟩] := rfl

theorem zeros1 : (![0] : Fin S512.rank → ℕ) = fun _ => 0 := by
  funext a; match a with | ⟨0, _⟩ => rfl
theorem zeros2 : (![0, 0] : Fin 2 → ℕ) = fun _ => 0 := by
  funext a; match a with | ⟨0, _⟩ => rfl | ⟨1, _⟩ => rfl

/-- The body's result buffer is the specification's row sums over the seven input blocks. -/
theorem out_eq (x0 : Vec Ideal S512x30 .f32) (x1 : Vec Ideal S512x1260 .f32) (x2 : Vec Ideal S512x10 .f32)
    (x3 : Vec Ideal S512x420 .f32) (x4 : Vec Ideal S512x10 .f32) (x5 : Vec Ideal S512x420 .f32) (x6 : Vec Ideal S512x30 .f32) :
    out0_7 (F := Ideal) x0 x1 x2 x3 x4 x5 x6 = Cert.Clash.rowsG (Rn := 512) x0 x1 x2 x3 x4 x5 x6 := by
  rw [out_unrolled, View.canon_unit_zero zeros1]
  simp only [View.ld_unit_zero (S := S512x30) zeros2, View.ld_unit_zero (S := S512x1260) zeros2,
    View.ld_unit_zero (S := S512x10) zeros2, View.ld_unit_zero (S := S512x420) zeros2]
  funext i
  rw [eq_ix1 i]
  exact bodyVal_apply x0 x1 x2 x3 x4 x5 x6 (i 0)

end Cert.KernelIdeal.Body

end
-- ==== Proof.PipeRows.lean ====
/-
  The row sum of the flattened layout depends on one row of each of its seven arrays only.  So when seven arrays of
  512 rows are, row by row, rows of seven arrays of 4096 rows along one row map `ρ` (a block of consecutive rows of the
  taller arrays is the case in mind), the sum at row `r` of the short arrays is the sum at row `ρ r` of the tall ones.
-/
import proofs.«107015_j40819369181410_2_alg».proof.Proof.Spec

noncomputable section

namespace Cert.KernelIdeal.Pipe

open Idealize.ShloMosaic Idealize.ShloMosaic.ValueIdx Cert.Clash

/-- One row: every entry the sum reads sits in row `r` of the short arrays, hence in row `ρ r` of the tall ones. -/
theorem rowAt_rows (ρ : Fin 512 → Fin 4096)
    (Xi : FVec Ideal ⟨2, ![4096, 30]⟩ .f32) (Xj : FVec Ideal ⟨2, ![4096, 1260]⟩ .f32) (Mai : FVec Ideal ⟨2, ![4096, 10]⟩ .f32)
    (Mg : FVec Ideal ⟨2, ![4096, 420]⟩ .f32) (Ri : FVec Ideal ⟨2, ![4096, 10]⟩ .f32) (Rj : FVec Ideal ⟨2, ![4096, 420]⟩ .f32)
    (Mnk : FVec Ideal ⟨2, ![4096, 30]⟩ .f32)
    (xi : FVec Ideal ⟨2, ![512, 30]⟩ .f32) (xj : FVec Ideal ⟨2, ![512, 1260]⟩ .f32) (mai : FVec Ideal ⟨2, ![512, 10]⟩ .f32)
    (mg : FVec Ideal ⟨2, ![512, 420]⟩ .f32) (ri : FVec Ideal ⟨2, ![512, 10]⟩ .f32) (rj : FVec Ideal ⟨2, ![512, 420]⟩ .f32)
    (mnk : FVec Ideal ⟨2, ![512, 30]⟩ .f32)
    (h0 : ∀ (r : Fin 512) (q : Fin 30), xi (ix2 r q) = Xi (ix2 (ρ r) q))
    (h1 : ∀ (r : Fin 512) (q : Fin 1260), xj (ix2 r q) = Xj (ix2 (ρ r) q))
    (h2 : ∀ (r : Fin 512) (q : Fin 10), mai (ix2 r q) = Mai (ix2 (ρ r) q))
    (h3 : ∀ (r : Fin 512) (q : Fin 420), mg (ix2 r q) = Mg (ix2 (ρ r) q))
    (h4 : ∀ (r : Fin 512) (q : Fin 10), ri (ix2 r q) = Ri (ix2 (ρ r) q))
    (h5 : ∀ (r : Fin 512) (q : Fin 420), rj (ix2 r q) = Rj (ix2 (ρ r) q))
    (h6 : ∀ (r : Fin 512) (q : Fin 30), mnk (ix2 r q) = Mnk (ix2 (ρ r) q))
    (r : Fin 512) :
    rowAt xi xj mai mg ri rj mnk r = rowAt Xi Xj Mai Mg Ri Rj Mnk (ρ r) := by
  unfold rowAt
  refine Finset.sum_congr rfl fun k _ => Finset.sum_congr rfl fun a' _ => Finset.sum_congr rfl fun a _ => ?_
  rw [h2 r a', h3 r (colKA k a), h6 r k, h4 r a', h5 r (colKA k a)]
  refine congrArg₂ (Tk (Mai (ix2 (ρ r) a')) (Mg (ix2 (ρ r) (colKA k a))) (Mnk (ix2 (ρ r) k)) (Ri (ix2 (ρ r) a'))
    (Rj (ix2 (ρ r) (colKA k a)))) (funext fun c => h0 r (colXi c a')) (funext fun c => h1 r (colXj c k a))

/-- All rows: the sums of the short arrays at a rank-one index `j` and of the tall arrays at any rank-one index `i`
    whose coordinate is `ρ` of `j`'s. -/
theorem rowsG_rows (ρ : Fin 512 → Fin 4096)
    (Xi : FVec Ideal ⟨2, ![4096, 30]⟩ .f32) (Xj : FVec Ideal ⟨2, ![4096, 1260]⟩ .f32) (Mai : FVec Ideal ⟨2, ![4096, 10]⟩ .f32)
    (Mg : FVec Ideal ⟨2, ![4096, 420]⟩ .f32) (Ri : FVec Ideal ⟨2, ![4096, 10]⟩ .f32) (Rj : FVec Ideal ⟨2, ![4096, 420]⟩ .f32)
    (Mnk : FVec Ideal ⟨2, ![4096, 30]⟩ .f32)
    (xi : FVec Ideal ⟨2, ![512, 30]⟩ .f32) (xj : FVec Ideal ⟨2, ![512, 1260]⟩ .f32) (mai : FVec Ideal ⟨2, ![512, 10]⟩ .f32)
    (mg : FVec Ideal ⟨2, ![512, 420]⟩ .f32) (ri : FVec Ideal ⟨2, ![512, 10]⟩ .f32) (rj : FVec Ideal ⟨2, ![512, 420]⟩ .f32)
    (mnk : FVec Ideal ⟨2, ![512, 30]⟩ .f32)
    (h0 : ∀ (r : Fin 512) (q : Fin 30), xi (ix2 r q) = Xi (ix2 (ρ r) q))
    (h1 : ∀ (r : Fin 512) (q : Fin 1260), xj (ix2 r q) = Xj (ix2 (ρ r) q))
    (h2 : ∀ (r : Fin 512) (q : Fin 10), mai (ix2 r q) = Mai (ix2 (ρ r) q))
    (h3 : ∀ (r : Fin 512) (q : Fin 420), mg (ix2 r q) = Mg (ix2 (ρ r) q))
    (h4 : ∀ (r : Fin 512) (q : Fin 10), ri (ix2 r q) = Ri (ix2 (ρ r) q))
    (h5 : ∀ (r : Fin 512) (q : Fin 420), rj (ix2 r q) = Rj (ix2 (ρ r) q))
    (h6 : ∀ (r : Fin 512) (q : Fin 30), mnk (ix2 r q) = Mnk (ix2 (ρ r) q))
    (j : (⟨1, ![512]⟩ : Shape).Idx) (i : (⟨1, ![4096]⟩ : Shape).Idx) (hi : i 0 = ρ (j 0)) :
    rowsG xi xj mai mg ri rj mnk j = rowsG Xi Xj Mai Mg Ri Rj Mnk i := by
  show rowAt xi xj mai mg ri rj mnk (j 0) = rowAt Xi Xj Mai Mg Ri Rj Mnk (i 0)
  rw [hi]
  exact rowAt_rows ρ Xi Xj Mai Mg Ri Rj Mnk xi xj mai mg ri rj mnk h0 h1 h2 h3 h4 h5 h6 (j 0)

end Cert.KernelIdeal.Pipe

end
-- ==== Proof.PipeIndex.lean ====
/-
  The grid of the row pipeline: eight points, point `t` working on rows `512 t … 512 t + 511` of every one of the eight
  flattened arrays.  Each window's printed index map sends point `t` to block `t` along the rows and block `0` along the
  columns (decided over the eight points), so an entry at row `y` of the block at point `t` is the array's entry at row
  `512 t + y` of the same column.
-/
import proofs.«107015_j40819369181410_2_alg».proof.Proof.Gen.KernelIdeal.Launch

noncomputable section

namespace Cert.KernelIdeal.Pipe

open Cert.KernelIdeal Cert.KernelIdeal.Gen Idealize.ShloMosaic

/-- The pipeline has eight points. -/
theorem point_lt (t : Fin cfg0.N) : t.val < 8 := lt_of_lt_of_eq t.isLt N_0

/-- Row `y` of the block at point `t` is row `512 t + y` of the array. -/
def rowOf (t : Fin cfg0.N) (y : Fin 512) : Fin 4096 :=
  ⟨512 * t.val + y.val, by have := point_lt t; omega⟩

theorem rowOf_val (t : Fin cfg0.N) (y : Fin 512) : (rowOf t y).val = 512 * t.val + y.val := rfl

/-- The point whose block holds row `r`: `r / 512`. -/
def pointOf (r : Fin 4096) : Fin cfg0.N :=
  ⟨r.val / 512, lt_of_lt_of_eq (by omega : r.val / 512 < 8) N_0.symm⟩

theorem pointOf_val (r : Fin 4096) : (pointOf r).val = r.val / 512 := rfl

/-- The printed index maps, decided over the grid: every window's block index at point `t` is `t` along the rows, and
    `0` along the columns where it has columns. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ win0_7.index t (0 : Fin 1) = t.val :=
  (by decide +kernel : ∀ t : Fin grid0.N, _)

end Cert.KernelIdeal.Pipe

end
-- ==== Proof.PipeReads.lean ====
/-
  Reading a block of the row pipeline.  Window `w`'s block at point `t` is the rectangle of its array at block index
  (t, 0) with block sizes (512, columns), so the block's entry (y, q) is the array's entry (512 t + y, q): a block's
  coordinate in the array is always index * size + 1 * the coordinate inside the block.  Stated for any contents `A` of the
  array, one lemma per window; the output window's single axis likewise.
-/
import proofs.«107015_j40819369181410_2_alg».proof.Proof.PipeIndex
import Idealize.ShloMosaic.Lib.Pipeline.Value
import Idealize.ShloMosaic.Lib.ValueIdx

noncomputable section

namespace Cert.KernelIdeal.Pipe

open Cert.KernelIdeal Cert.KernelIdeal.Gen Idealize.ShloMosaic Idealize.ShloMosaic.ValueIdx

/-- Window 0, the residue's own coordinates: 30 columns. -/
theorem read0 (A : S4096x30.Idx → EReal) (t : Fin cfg0.N) (y : Fin 512) (q : Fin 30) :
    A (((cfg0.win 0).blk t).view.emb (ix2 y q)) = A (ix2 (rowOf t y) q) := by
  obtain ⟨⟨e0, e1⟩, -⟩ := idx_facts t
  refine congrArg A (funext fun a => Fin.ext ?_)
  match a with
  | ⟨0, _⟩ => show win0_0.index t (0 : Fin 2) * 512 + 1 * y.val = 512 * t.val + y.val; rw [e0]; omega
  | ⟨1, _⟩ => show win0_0.index t (1 : Fin 2) * 30 + 1 * q.val = q.val; rw [e1]; omega

/-- Window 1, the gathered coordinates: 1260 columns. -/
theorem read1 (A : S4096x1260.Idx → EReal) (t : Fin cfg0.N) (y : Fin 512) (q : Fin 1260) :
    A (((cfg0.win 1).blk t).view.emb (ix2 y q)) = A (ix2 (rowOf t y) q) := by
  obtain ⟨-, ⟨e0, e1⟩, -⟩ := idx_facts t
  refine congrArg A (funext fun a => Fin.ext ?_)
  match a with
  | ⟨0, _⟩ => show win0_1.index t (0 : Fin 2) * 512 + 1 * y.val = 512 * t.val + y.val; rw [e0]; omega
  | ⟨1, _⟩ => show win0_1.index t (1 : Fin 2) * 1260 + 1 * q.val = q.val; rw [e1]; omega

/-- Window 2, the own atom mask: 10 columns. -/
theorem read2 (A : S4096x10.Idx → EReal) (t : Fin cfg0.N) (y : Fin 512) (q : Fin 10) :
    A (((cfg0.win 2).blk t).view.emb (ix2 y q)) = A (ix2 (rowOf t y) q) := by
  obtain ⟨-, -, ⟨e0, e1⟩, -⟩ := idx_facts t
  refine congrArg A (funext fun a => Fin.ext ?_)
  match a with
  | ⟨0, _⟩ => show win0_2.index t (0 : Fin 2) * 512 + 1 * y.val = 512 * t.val + y.val; rw [e0]; omega
  | ⟨1, _⟩ => show win0_2.index t (1 : Fin 2) * 10 + 1 * q.val = q.val; rw [e1]; omega

/-- Window 3, the gathered atom mask: 420 columns. -/
theorem read3 (A : S4096x420.Idx → EReal) (t : Fin cfg0.N) (y : Fin 512) (q : Fin 420) :
    A (((cfg0.win 3).blk t).view.emb (ix2 y q)) = A (ix2 (rowOf t y) q) := by
  obtain ⟨-, -, -, ⟨e0, e1⟩, -⟩ := idx_facts t
  refine congrArg A (funext fun a => Fin.ext ?_)
  match a with
  | ⟨0, _⟩ => show win0_3.index t (0 : Fin 2) * 512 + 1 * y.val = 512 * t.val + y.val; rw [e0]; omega
  | ⟨1, _⟩ => show win0_3.index t (1 : Fin 2) * 420 + 1 * q.val = q.val; rw [e1]; omega

/-- Window 4, the own radii: 10 columns. -/
theorem read4 (A : S4096x10.Idx → EReal) (t : Fin cfg0.N) (y : Fin 512) (q : Fin 10) :
    A (((cfg0.win 4).blk t).view.emb (ix2 y q)) = A (ix2 (rowOf t y) q) := by
  obtain ⟨-, -, -, -, ⟨e0, e1⟩, -⟩ := idx_facts t
  refine congrArg A (funext fun a => Fin.ext ?_)
  match a with
  | ⟨0, _⟩ => show win0_4.index t (0 : Fin 2) * 512 + 1 * y.val = 512 * t.val + y.val; rw [e0]; omega
  | ⟨1, _⟩ => show win0_4.index t (1 : Fin 2) * 10 + 1 * q.val = q.val; rw [e1]; omega

/-- Window 5, the gathered radii: 420 columns. -/
theorem read5 (A : S4096x420.Idx → EReal) (t : Fin cfg0.N) (y : Fin 512) (q : Fin 420) :
    A (((cfg0.win 5).blk t).view.emb (ix2 y q)) = A (ix2 (rowOf t y) q) := by
  obtain ⟨-, -, -, -, -, ⟨e0, e1⟩, -⟩ := idx_facts t
  refine congrArg A (funext fun a => Fin.ext ?_)
  match a with
  | ⟨0, _⟩ => show win0_5.index t (0 : Fin 2) * 512 + 1 * y.val = 512 * t.val + y.val; rw [e0]; omega
  | ⟨1, _⟩ => show win0_5.index t (1 : Fin 2) * 420 + 1 * q.val = q.val; rw [e1]; omega

/-- Window 6, the combined neighbour mask: 30 columns. -/
theorem read6 (A : S4096x30.Idx → EReal) (t : Fin cfg0.N) (y : Fin 512) (q : Fin 30) :
    A (((cfg0.win 6).blk t).view.emb (ix2 y q)) = A (ix2 (rowOf t y) q) := by
  obtain ⟨-, -, -, -, -, -, ⟨e0, e1⟩, -⟩ := idx_facts t
  refine congrArg A (funext fun a => Fin.ext ?_)
  match a with
  | ⟨0, _⟩ => show win0_6.index t (0 : Fin 2) * 512 + 1 * y.val = 512 * t.val + y.val; rw [e0]; omega
  | ⟨1, _⟩ => show win0_6.index t (1 : Fin 2) * 30 + 1 * q.val = q.val; rw [e1]; omega

/-- Window 7, the result: entry `j` of the block at point `t` sits at row `512 t + j` of the 4096. -/
theorem emb7 (t : Fin cfg0.N) (j : S512.Idx) :
    (((cfg0.win 7).blk t).view.emb j : S4096.Idx) 0 = rowOf t (j 0) := by
  obtain ⟨-, -, -, -, -, -, -, e0⟩ := idx_facts t
  apply Fin.ext
  show win0_7.index t (0 : Fin 1) * 512 + 1 * (j 0).val = 512 * t.val + (j 0).val
  rw [e0]; omega

end Cert.KernelIdeal.Pipe

end
-- ==== Proof.PipeIblk.lean ====
/-
  Each input window's block at point `t`, read off its array as the pipeline finds it: entry (y, q) of the block is the
  array's entry (512 t + y, q).  The array's contents are carried as they are, never opened.
-/
import proofs.«107015_j40819369181410_2_alg».proof.Proof.PFrameKernelIdeal
import proofs.«107015_j40819369181410_2_alg».proof.Proof.Spec
import proofs.«107015_j40819369181410_2_alg».proof.Proof.PipeReads

noncomputable section

namespace Cert.KernelIdeal.Pipe

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.Clash

variable (m : (ℓ : Loc nD τ sig) → Buf (Elt Ideal) ℓ)

/-- Window 0's block at point `t`, entry by entry. -/
theorem iblk0 (c : Dev nD) (t : Fin cfg0.N) (y : Fin 512) (q : Fin 30) :
    (iblk m c 0 t : Vec Ideal S512x30 .f32) (ix2 y q) = (V m c main_v61 : S4096x30.Idx → EReal) (ix2 (rowOf t y) q) := by
  show (V m c main_v61 : S4096x30.Idx → EReal) (((cfg0.win 0).blk t).view.emb (ix2 y q)) = _
  generalize (V m c main_v61 : S4096x30.Idx → EReal) = A
  exact read0 A t y q

/-- Window 1's block at point `t`, entry by entry. -/
theorem iblk1 (c : Dev nD) (t : Fin cfg0.N) (y : Fin 512) (q : Fin 1260) :
    (iblk m c 1 t : Vec Ideal S512x1260 .f32) (ix2 y q) = (V m c main_v63 : S4096x1260.Idx → EReal) (ix2 (rowOf t y) q) := by
  show (V m c main_v63 : S4096x1260.Idx → EReal) (((cfg0.win 1).blk t).view.emb (ix2 y q)) = _
  generalize (V m c main_v63 : S4096x1260.Idx → EReal) = A
  exact read1 A t y q

/-- Window 2's block at point `t`, entry by entry. -/
theorem iblk2 (c : Dev nD) (t : Fin cfg0.N) (y : Fin 512) (q : Fin 10) :
    (iblk m c 2 t : Vec Ideal S512x10 .f32) (ix2 y q) = (V m c main_v64 : S4096x10.Idx → EReal) (ix2 (rowOf t y) q) := by
  show (V m c main_v64 : S4096x10.Idx → EReal) (((cfg0.win 2).blk t).view.emb (ix2 y q)) = _
  generalize (V m c main_v64 : S4096x10.Idx → EReal) = A
  exact read2 A t y q

/-- Window 3's block at point `t`, entry by entry. -/
theorem iblk3 (c : Dev nD) (t : Fin cfg0.N) (y : Fin 512) (q : Fin 420) :
    (iblk m c 3 t : Vec Ideal S512x420 .f32) (ix2 y q) = (V m c main_v65 : S4096x420.Idx → EReal) (ix2 (rowOf t y) q) := by
  show (V m c main_v65 : S4096x420.Idx → EReal) (((cfg0.win 3).blk t).view.emb (ix2 y q)) = _
  generalize (V m c main_v65 : S4096x420.Idx → EReal) = A
  exact read3 A t y q

/-- Window 4's block at point `t`, entry by entry. -/
theorem iblk4 (c : Dev nD) (t : Fin cfg0.N) (y : Fin 512) (q : Fin 10) :
    (iblk m c 4 t : Vec Ideal S512x10 .f32) (ix2 y q) = (V m c main_v66 : S4096x10.Idx → EReal) (ix2 (rowOf t y) q) := by
  show (V m c main_v66 : S4096x10.Idx → EReal) (((cfg0.win 4).blk t).view.emb (ix2 y q)) = _
  generalize (V m c main_v66 : S4096x10.Idx → EReal) = A
  exact read4 A t y q

/-- Window 5's block at point `t`, entry by entry. -/
theorem iblk5 (c : Dev nD) (t : Fin cfg0.N) (y : Fin 512) (q : Fin 420) :
    (iblk m c 5 t : Vec Ideal S512x420 .f32) (ix2 y q) = (V m c main_v67 : S4096x420.Idx → EReal) (ix2 (rowOf t y) q) := by
  show (V m c main_v67 : S4096x420.Idx → EReal) (((cfg0.win 5).blk t).view.emb (ix2 y q)) = _
  generalize (V m c main_v67 : S4096x420.Idx → EReal) = A
  exact read5 A t y q

/-- Window 6's block at point `t`, entry by entry. -/
theorem iblk6 (c : Dev nD) (t : Fin cfg0.N) (y : Fin 512) (q : Fin 30) :
    (iblk m c 6 t : Vec Ideal S512x30 .f32) (ix2 y q) = (V m c main_v68 : S4096x30.Idx → EReal) (ix2 (rowOf t y) q) := by
  show (V m c main_v68 : S4096x30.Idx → EReal) (((cfg0.win 6).blk t).view.emb (ix2 y q)) = _
  generalize (V m c main_v68 : S4096x30.Idx → EReal) = A
  exact read6 A t y q

end Cert.KernelIdeal.Pipe

end
-- ==== Proof.PipeCover.lean ====
/-
  The result window's blocks tile the 4096 rows: row `r` lies in the block of point `r / 512`, and every point writes its
  block back.  Membership in a block is membership in its rectangle, coordinate by coordinate.
-/
import proofs.«107015_j40819369181410_2_alg».proof.Proof.PipeIndex
import proofs.«107015_j40819369181410_2_alg».proof.Proof.Gen.KernelIdeal.Points
import Idealize.ShloMosaic.Lib.Pipeline.Value

noncomputable section

namespace Cert.KernelIdeal.Pipe

open Cert.KernelIdeal Cert.KernelIdeal.Gen Idealize.ShloMosaic

/-- An index of the result array is in point `t`'s block iff its coordinate is in the block's range of rows. -/
theorem mem_blk (t : Fin cfg0.N) (i : S4096.Idx) :
    i ∈ ((cfg0.win 7).blk t).view.set ↔ ∀ a : Fin 1, win0_7.index t a * S512.size a ≤ (i a).val ∧ (i a).val < win0_7.index t a * S512.size a + S512.size a := by
  show i ∈ ((View.whole main_v69).slice (win0_7.rect t)).set ↔ _
  rw [View.set_slice_whole, Rect.mem_set_unit]
  exact Iff.rfl

/-- Every index of the result array is in the block of a point that writes back: the point `i / 512`. -/
theorem cover (i : S4096.Idx) : ∃ t : Fin cfg0.N, (cfg0.win 7).flush t = true ∧ i ∈ ((cfg0.win 7).blk t).view.set := by
  have hi : (i 0).val < 4096 := (i 0).isLt
  refine ⟨pointOf (i 0), flush0_7 _, ?_⟩
  rw [mem_blk]
  intro a
  obtain ⟨-, -, -, -, -, -, -, e0⟩ := idx_facts (pointOf (i 0))
  match a with
  | ⟨0, _⟩ =>
    show win0_7.index (pointOf (i 0)) (0 : Fin 1) * 512 ≤ (i 0).val ∧ (i 0).val < win0_7.index (pointOf (i 0)) (0 : Fin 1) * 512 + 512
    have hp : (pointOf (i 0)).val = (i 0).val / 512 := rfl
    rw [e0]; omega

end Cert.KernelIdeal.Pipe

end
-- ==== Proof.PipeBlocks.lean ====
/-
  From blocks to the array.  Given that the body, on any seven input blocks, leaves in the result block the row sums of
  those blocks, what point `t` writes back is block `t` of ONE function of the seven arrays as the pipeline finds them — the
  row sums over the whole arrays —, because a row sum reads one row of each array and the block's row `y` is the arrays'
  row `512 t + y`.  The blocks tile the result array, so after the last point the array is that function.
-/
import proofs.«107015_j40819369181410_2_alg».proof.Proof.PFrameKernelIdeal
import proofs.«107015_j40819369181410_2_alg».proof.Proof.Spec
import proofs.«107015_j40819369181410_2_alg».proof.Proof.PipeRows
import proofs.«107015_j40819369181410_2_alg».proof.Proof.PipeIblk
import proofs.«107015_j40819369181410_2_alg».proof.Proof.PipeCover
import Idealize.ShloMosaic.Lib.Pipeline.Value

noncomputable section

namespace Cert.KernelIdeal.Pipe

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.Clash

variable (m : (ℓ : Loc nD τ sig) → Buf (Elt Ideal) ℓ)

/-- What the body is taken to compute: on any seven input blocks, the row sums of those blocks. -/
abbrev BodyIs : Prop :=
  ∀ (x0 : Vec Ideal S512x30 .f32) (x1 : Vec Ideal S512x1260 .f32) (x2 : Vec Ideal S512x10 .f32) (x3 : Vec Ideal S512x420 .f32) (x4 : Vec Ideal S512x10 .f32) (x5 : Vec Ideal S512x420 .f32) (x6 : Vec Ideal S512x30 .f32),
    GenP.out0_7 (F := Ideal) x0 x1 x2 x3 x4 x5 x6 = Cert.Clash.rowsG (Rn := 512) x0 x1 x2 x3 x4 x5 x6

/-- The row sums over the seven whole arrays as the pipeline finds them. -/
abbrev rowsV (c : Dev nD) : FVec Ideal ⟨1, ![4096]⟩ .f32 :=
  rowsG (Rn := 4096) (V m c main_v61) (V m c main_v63) (V m c main_v64) (V m c main_v65) (V m c main_v66) (V m c main_v67) (V m c main_v68)

/-- What point `t` writes back is block `t` of the row sums over the whole arrays. -/
theorem flushed_eq (hbody : BodyIs) (c : Dev nD) (t : Fin cfg0.N) :
    (dats m 0 c).flushed 7 t = ((cfg0.win 7).blk t).view.read (Elt Ideal) (rowsV m c) := by
  show (cfg0.win 7).cut (grid0.coords t) ((dats m 0 c).after 7 t) = _
  rw [after0_7]
  funext j
  show out0_7 (F := Ideal) (iblk m c 0 t) (iblk m c 1 t) (iblk m c 2 t) (iblk m c 3 t) (iblk m c 4 t) (iblk m c 5 t) (iblk m c 6 t) j
    = rowsV m c (((cfg0.win 7).blk t).view.emb j)
  refine (congrFun (hbody (iblk m c 0 t) (iblk m c 1 t) (iblk m c 2 t) (iblk m c 3 t) (iblk m c 4 t) (iblk m c 5 t) (iblk m c 6 t)) j).trans ?_
  exact rowsG_rows (rowOf t) (V m c main_v61) (V m c main_v63) (V m c main_v64) (V m c main_v65) (V m c main_v66) (V m c main_v67) (V m c main_v68)
    (iblk m c 0 t) (iblk m c 1 t) (iblk m c 2 t) (iblk m c 3 t) (iblk m c 4 t) (iblk m c 5 t) (iblk m c 6 t)
    (iblk0 m c t) (iblk1 m c t) (iblk2 m c t) (iblk3 m c t) (iblk4 m c t) (iblk5 m c t) (iblk6 m c t)
    j (((cfg0.win 7).blk t).view.emb j) (emb7 t j)

/-- The result array after the last point: the row sums over the whole arrays. -/
theorem final (hbody : BodyIs) (c : Dev nD) : (dats m 0 c).arrAt 7 cfg0.N = rowsV m c :=
  (dats m 0 c).arrAt_eq_of_cover 7 (rowsV m c) (fun t _ => flushed_eq m hbody c t) cover

end Cert.KernelIdeal.Pipe

end
-- ==== Proof.PipeUnflat.lean ====
/-
  The reshape after the pipeline: a flat array of 4096 recast as 2 x 2048 keeps row-major positions, so its entry (b, n)
  is the flat array's entry `b * 2048 + n`.
-/
import proofs.«107015_j40819369181410_2_alg».proof.Proof.Spec
import Idealize.ShloMosaic.Lib.Pipeline.Value

noncomputable section

namespace Cert.KernelIdeal.Pipe

open Idealize.ShloMosaic Idealize.ShloMosaic.ValueIdx Cert.Clash

/-- The shape cast [4096] -> [2, 2048] read at an index. -/
theorem shapeCast_unflat (y : FVec Ideal ⟨1, ![4096]⟩ .f32)
    (h : (⟨1, ![4096]⟩ : Shape).ShapeCasts (⟨2, ![2, 2048]⟩ : Shape)) :
    shapeCast (⟨2, ![2, 2048]⟩ : Shape) y h = unflat y := by
  funext i
  refine shapeCast_apply y h i (ix1 (flat (i 0) (i 1))) ?_
  rw [Shape.rowMajor_val_one, Shape.rowMajor_val_two]
  rfl

end Cert.KernelIdeal.Pipe

end
-- ==== Proof.PipeTail.lean ====
/-
  The one host operation after the pipeline reshapes the result array [4096] to [2, 2048].  What the program's result
  buffer holds after it: the result array of the pipeline — the row sums over the seven arrays — read as 2 x 2048.
-/
import proofs.«107015_j40819369181410_2_alg».proof.Proof.PipeBlocks
import proofs.«107015_j40819369181410_2_alg».proof.Proof.PipeUnflat
import Idealize.ShloMosaic.Lib.StableHlo.Run

noncomputable section

namespace Cert.KernelIdeal.Pipe

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.Clash

variable (m : (ℓ : Loc nD τ sig) → Buf (Elt Ideal) ℓ)

/-- The program's result buffer after the reshape that follows the pipeline. -/
theorem tail (hbody : BodyIs) (c : Dev nD) :
    Pipeline.afterTail₀ cfgs (dats m) 0 (V0 m) [hostOps1] c main_v70 = unflat (rowsV m c) := by
  have hW : Pipeline.withArrays spec0 c (V0 m c) (fun w => (dats m 0 c).arrAt w cfg0.N) (Proc.devRef .tc main_v69) = rowsV m c :=
    (Pipeline.withArrays_arr spec0 launch0.win.arr_inj c _ _ 7).trans (final m hbody c)
  unfold Pipeline.afterTail₀
  show StableHlo.after hostOps1 _ (Proc.devRef .tc main_v70) = _
  after_results
  show shapeCast S2x2048 (Pipeline.withArrays spec0 c (V0 m c) (fun w => (dats m 0 c).arrAt w cfg0.N) (Proc.devRef .tc main_v69)) shapeCasts_S4096_S2x2048 = unflat (rowsV m c)
  rw [hW]
  exact shapeCast_unflat (rowsV m c) shapeCasts_S4096_S2x2048

end Cert.KernelIdeal.Pipe

end
-- ==== Proof.Pipe.lean ====
/-
  The kernel program's run, read: every weakly fair execution terminates without a fault; the result buffer ends at the
  row sums over the seven flattened arrays the pipeline finds, read as 2 x 2048; the six argument arrays end unchanged.
-/
import proofs.«107015_j40819369181410_2_alg».proof.Proof.PipeTail

noncomputable section

namespace Cert.KernelIdeal.Pipe

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.Clash

/-- The run of the kernel program from any memory with zero counters, given what the body computes on blocks. -/
theorem run
    (hbody : ∀ (x0 : Vec Ideal S512x30 .f32) (x1 : Vec Ideal S512x1260 .f32) (x2 : Vec Ideal S512x10 .f32) (x3 : Vec Ideal S512x420 .f32) (x4 : Vec Ideal S512x10 .f32) (x5 : Vec Ideal S512x420 .f32) (x6 : Vec Ideal S512x30 .f32),
    GenP.out0_7 (F := Ideal) x0 x1 x2 x3 x4 x5 x6 = Cert.Clash.rowsG (Rn := 512) x0 x1 x2 x3 x4 x5 x6)
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70) = Cert.Clash.unflat (Cert.Clash.rowsG (Rn := 4096) (GenP.V m c main_v61) (GenP.V m c main_v63) (GenP.V m c main_v64) (GenP.V m c main_v65) (GenP.V m c main_v66) (GenP.V m c main_v67) (GenP.V m c main_v68))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v70 (Pipeline.mem_restRefs_of main_v70 (by decide) (by decide))).trans (tail m hbody c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Pipe

end
-- ==== Proof.PreDefs.lean ====
/-
  The arrays the kernel program's host prefix computes from the arguments before any layout change, each as the composition of the printed host operations: the atom mask, the gathered neighbour mask, the gathered coordinates, the radii, the gathered radii, the not-self mask.  (The atom index is spread over its unit axes first and converted to a float second.)
-/
import proofs.«107015_j40819369181410_2_alg».proof.Proof.Gen.KernelIdeal
import Idealize.ShloMosaic.PureOps.Ideal

noncomputable section

namespace Cert.KernelIdeal.Pre

open Idealize.ShloMosaic Cert.KernelIdeal Cert.KernelIdeal.Gen

/-- The residue type as an index into the 20 tables: a negative index wraps once. -/
def sIdx (a4 : IVec S2x2048 32) : IVec S2x2048 32 :=
  select (cmpi .slt a4 (broadcastInDim S2x2048 ![] bcast_S_S2x2048 (constantI S_ 32 0#32)))
    (addi a4 (broadcastInDim S2x2048 ![] bcast_S_S2x2048 (constantI S_ 32 20#32))) a4

/-- The number of atoms of each residue, zero where the chain label is not positive. -/
def cnt (a3 a4 : IVec S2x2048 32) : FVec Ideal S2x2048 .f32 :=
  mulf (sitofp .f32 (Host.gather gather_S20_S2x2048x1_S2x2048_n_0_n_n_0_2_1 (fun i => lit0 (S20.rowMajor i))
      (broadcastInDim S2x2048x1 ![0, 1] bcast_S2x2048_S2x2048x1_0_1 (sIdx a4))))
    (uitofp .f32 (cmpi .sgt a3 (broadcastInDim S2x2048 ![] bcast_S_S2x2048 (constantI S_ 32 0#32))))

/-- The atom mask: atom `a` of a residue is present when `a` is below the residue's atom count. -/
def MAk (a3 a4 : IVec S2x2048 32) : FVec Ideal S2x2048x14 .f32 :=
  uitofp .f32 (cmpf .olt
    (broadcastInDim S2x2048x14 ![0, 1, 2] bcast_S1x1x14_S2x2048x14_0_1_2 (sitofp .f32 (broadcastInDim S1x1x14 ![2] bcast_S14_S1x1x14_2 (iotaInDim S14 32 0))))
    (broadcastInDim S2x2048x14 ![0, 1, 2] bcast_S2x2048x1_S2x2048x14_0_1_2
      (broadcastInDim S2x2048x1 ![0, 1] bcast_S2x2048_S2x2048x1_0_1 (cnt a3 a4))))

/-- The neighbour index of each edge: a negative index wraps once. -/
def eIdx (a5 : IVec S2x2048x30 32) : IVec S2x2048x30 32 :=
  select (cmpi .slt a5 (broadcastInDim S2x2048x30 ![] bcast_S_S2x2048x30 (constantI S_ 32 0#32)))
    (addi a5 (broadcastInDim S2x2048x30 ![] bcast_S_S2x2048x30 (constantI S_ 32 2048#32))) a5

/-- The same with the trailing unit axis a gather takes. -/
def eIdx1 (a5 : IVec S2x2048x30 32) : IVec S2x2048x30x1 32 :=
  broadcastInDim S2x2048x30x1 ![0, 1, 2] bcast_S2x2048x30_S2x2048x30x1_0_1_2 (eIdx a5)

/-- The neighbours' atom masks (times the residue mask), gathered along the edges. -/
def MGk (a1 : FVec Ideal S2x2048 .f32) (a3 a4 : IVec S2x2048 32) (a5 : IVec S2x2048x30 32) : FVec Ideal S2x2048x30x14 .f32 :=
  Host.gather gather_S2x2048x14_S2x2048x30x1_S2x2048x30x14_3_1_0_0_1_3_1114
    (mulf (MAk a3 a4) (broadcastInDim S2x2048x14 ![0, 1, 2] bcast_S2x2048x1_S2x2048x14_0_1_2
      (broadcastInDim S2x2048x1 ![0, 1] bcast_S2x2048_S2x2048x1_0_1 a1)))
    (eIdx1 a5)

/-- The neighbours' coordinates, gathered along the edges. -/
def XJk (a0 : FVec Ideal S2x2048x14x3 .f32) (a5 : IVec S2x2048x30 32) : FVec Ideal S2x2048x30x14x3 .f32 :=
  Host.gather gather_S2x2048x14x3_S2x2048x30x1_S2x2048x30x14x3_34_1_0_0_1_3_11143 a0 (eIdx1 a5)

/-- The atoms' radii by residue type. -/
def Rk (a4 : IVec S2x2048 32) : FVec Ideal S2x2048x14 .f32 :=
  Host.gather gather_S20x14_S2x2048x1_S2x2048x14_2_0_n_n_0_2_114 (fun i => FloatOps.ofBits (F := Ideal) .f32 (lit1 (S20x14.rowMajor i)))
    (broadcastInDim S2x2048x1 ![0, 1] bcast_S2x2048_S2x2048x1_0_1 (sIdx a4))

/-- The neighbours' radii, gathered along the edges. -/
def RJk (a4 : IVec S2x2048 32) (a5 : IVec S2x2048x30 32) : FVec Ideal S2x2048x30x14 .f32 :=
  Host.gather gather_S2x2048x14_S2x2048x30x1_S2x2048x30x14_3_1_0_0_1_3_1114 (Rk a4) (eIdx1 a5)

/-- The not-self mask: an edge counts when its neighbour index is not the residue's own position. -/
def NEk (a5 : IVec S2x2048x30 32) : FVec Ideal S2x2048x30 .f32 :=
  uitofp .f32 (cmpi .ne a5 (broadcastInDim S2x2048x30 ![0, 1, 2] bcast_S1x2048x1_S2x2048x30_0_1_2
    (broadcastInDim S1x2048x1 ![1] bcast_S2048_S1x2048x1_1 (iotaInDim S2048 32 0))))

end Cert.KernelIdeal.Pre

end
-- ==== Proof.PreLay.lean ====
/-
  The layout of the pipeline's inputs: one row per residue.  Before the pipelined region the program slices the atom axis to
  the side-chain atoms (atoms 4..13), moves the coordinate axis in front of the atom axes, and flattens (batch, residue) into
  the row and every remaining axis into the column.  The maps are written over variables, exactly as the program's host
  operations compose them, so that reading them at an index never opens the arrays they are applied to.
-/
import proofs.«107015_j40819369181410_2_alg».proof.Proof.Gen.KernelIdeal
import Idealize.ShloMosaic.PureOps.Ideal

noncomputable section

namespace Cert.KernelIdeal.Pre

open Idealize.ShloMosaic Idealize.SL.Sem
open Cert.KernelIdeal Cert.KernelIdeal.Facts₀ Cert.KernelIdeal.Facts

/-- The residue's own side-chain coordinates [4096,30] (`%57`, `%60`, `%61`): atoms 4..13, the coordinate axis moved in
    front of the atom axis, rows and columns flattened. -/
def xiF (X : FVec Ideal S2x2048x14x3 .f32) : FVec Ideal S4096x30 .f32 :=
  shapeCast S4096x30
    (transpose S2x2048x3x10 [0, 1, 3, 2]
      (extractStridedSlice S2x2048x10x3 ![0, 0, 4, 0] X slices_S2x2048x14x3_S2x2048x10x3_0_0_4_0)
      transposes_S2x2048x10x3_S2x2048x3x10_0_1_3_2)
    shapeCasts_S2x2048x3x10_S4096x30

/-- The gathered coordinates [4096,1260] (`%62`, `%63`): the coordinate axis moved in front of the neighbour and atom
    axes, flattened. -/
def xjF (XJ : FVec Ideal S2x2048x30x14x3 .f32) : FVec Ideal S4096x1260 .f32 :=
  shapeCast S4096x1260
    (transpose S2x2048x3x30x14 [0, 1, 4, 2, 3] XJ transposes_S2x2048x30x14x3_S2x2048x3x30x14_0_1_4_2_3)
    shapeCasts_S2x2048x3x30x14_S4096x1260

/-- The own atom mask [4096,10] (`%58`, `%64`): atoms 4..13, flattened. -/
def maiF (MA : FVec Ideal S2x2048x14 .f32) : FVec Ideal S4096x10 .f32 :=
  shapeCast S4096x10
    (extractStridedSlice S2x2048x10 ![0, 0, 4] MA slices_S2x2048x14_S2x2048x10_0_0_4)
    shapeCasts_S2x2048x10_S4096x10

/-- The gathered mask [4096,420] (`%65`). -/
def mgF (MG : FVec Ideal S2x2048x30x14 .f32) : FVec Ideal S4096x420 .f32 :=
  shapeCast S4096x420 MG shapeCasts_S2x2048x30x14_S4096x420

/-- The own radii [4096,10] (`%59`, `%66`): atoms 4..13, flattened. -/
def riF (R : FVec Ideal S2x2048x14 .f32) : FVec Ideal S4096x10 .f32 :=
  shapeCast S4096x10
    (extractStridedSlice S2x2048x10 ![0, 0, 4] R slices_S2x2048x14_S2x2048x10_0_0_4)
    shapeCasts_S2x2048x10_S4096x10

/-- The gathered radii [4096,420] (`%67`). -/
def rjF (RJ : FVec Ideal S2x2048x30x14 .f32) : FVec Ideal S4096x420 .f32 :=
  shapeCast S4096x420 RJ shapeCasts_S2x2048x30x14_S4096x420

/-- The combined neighbour mask [4096,30] (`%56`, `%68`): the not-self mask times the pair mask, flattened. -/
def mnkF (NE MIJ : FVec Ideal S2x2048x30 .f32) : FVec Ideal S4096x30 .f32 :=
  shapeCast S4096x30 (mulf NE MIJ) shapeCasts_S2x2048x30_S4096x30

end Cert.KernelIdeal.Pre

end
-- ==== Proof.PreA61.lean ====
/-
  The own-coordinates array the pipeline's first window reads: the fold of the host operations before the region, read at
  that buffer, is the slice, transposition and reshape of the coordinates argument as launched.
-/
import proofs.«107015_j40819369181410_2_alg».proof.Proof.Gen.KernelIdeal.Launch
import proofs.«107015_j40819369181410_2_alg».proof.Proof.PreDefs
import proofs.«107015_j40819369181410_2_alg».proof.Proof.PreLay
import Idealize.ShloMosaic.Lib.StableHlo.Run

noncomputable section

namespace Cert.KernelIdeal.Pre

open Idealize.ShloMosaic Idealize.ShloMosaic.TcCoe Idealize.ShloMosaic.StableHlo
open Idealize.SL.Sem
open Cert.KernelIdeal

variable (m : (ℓ : Loc nD τ sig) → Buf (Elt Ideal) ℓ) (c : Dev nD)

set_option maxRecDepth 16384 in
theorem after_v61 :
    StableHlo.after Gen.hostOps0 (fun b => m (c, b)) (Proc.devRef .tc main_v61)
      = xiF (m ((c : Thread nD τ).loc main_arg0)) := by
  after_results_simp
  rfl

end Cert.KernelIdeal.Pre

end
-- ==== Proof.PreA63.lean ====
/-
  The gathered-coordinates array the second window reads: the fold of the host operations before the region, read at that
  buffer, is the gather of the coordinates at the neighbour indices, transposed and reshaped.
-/
import proofs.«107015_j40819369181410_2_alg».proof.Proof.Gen.KernelIdeal.Launch
import proofs.«107015_j40819369181410_2_alg».proof.Proof.PreDefs
import proofs.«107015_j40819369181410_2_alg».proof.Proof.PreLay
import Idealize.ShloMosaic.Lib.StableHlo.Run

noncomputable section

namespace Cert.KernelIdeal.Pre

open Idealize.ShloMosaic Idealize.ShloMosaic.TcCoe Idealize.ShloMosaic.StableHlo
open Idealize.SL.Sem
open Cert.KernelIdeal

variable (m : (ℓ : Loc nD τ sig) → Buf (Elt Ideal) ℓ) (c : Dev nD)

set_option maxRecDepth 16384 in
theorem after_v63 :
    StableHlo.after Gen.hostOps0 (fun b => m (c, b)) (Proc.devRef .tc main_v63)
      = xjF (XJk (m ((c : Thread nD τ).loc main_arg0)) (m ((c : Thread nD τ).loc main_arg5))) := by
  after_results_simp
  rfl

end Cert.KernelIdeal.Pre

end
-- ==== Proof.PreA64.lean ====
/-
  The own atom mask the third window reads: the fold of the host operations before the region, read at that buffer, is the
  atom mask sliced to the side-chain atoms and reshaped.
-/
import proofs.«107015_j40819369181410_2_alg».proof.Proof.Gen.KernelIdeal.Launch
import proofs.«107015_j40819369181410_2_alg».proof.Proof.PreDefs
import proofs.«107015_j40819369181410_2_alg».proof.Proof.PreLay
import Idealize.ShloMosaic.Lib.StableHlo.Run

noncomputable section

namespace Cert.KernelIdeal.Pre

open Idealize.ShloMosaic Idealize.ShloMosaic.TcCoe Idealize.ShloMosaic.StableHlo
open Idealize.SL.Sem
open Cert.KernelIdeal

variable (m : (ℓ : Loc nD τ sig) → Buf (Elt Ideal) ℓ) (c : Dev nD)

set_option maxRecDepth 16384 in
theorem after_v64 :
    StableHlo.after Gen.hostOps0 (fun b => m (c, b)) (Proc.devRef .tc main_v64)
      = maiF (MAk (m ((c : Thread nD τ).loc main_arg3)) (m ((c : Thread nD τ).loc main_arg4))) := by
  after_results_simp
  rfl

end Cert.KernelIdeal.Pre

end
-- ==== Proof.PreA65.lean ====
/-
  The gathered mask the fourth window reads: the fold of the host operations before the region, read at that buffer, is the
  masked atom mask gathered at the neighbour indices and reshaped.
-/
import proofs.«107015_j40819369181410_2_alg».proof.Proof.Gen.KernelIdeal.Launch
import proofs.«107015_j40819369181410_2_alg».proof.Proof.PreDefs
import proofs.«107015_j40819369181410_2_alg».proof.Proof.PreLay
import Idealize.ShloMosaic.Lib.StableHlo.Run

noncomputable section

namespace Cert.KernelIdeal.Pre

open Idealize.ShloMosaic Idealize.ShloMosaic.TcCoe Idealize.ShloMosaic.StableHlo
open Idealize.SL.Sem
open Cert.KernelIdeal

variable (m : (ℓ : Loc nD τ sig) → Buf (Elt Ideal) ℓ) (c : Dev nD)

set_option maxRecDepth 16384 in
theorem after_v65 :
    StableHlo.after Gen.hostOps0 (fun b => m (c, b)) (Proc.devRef .tc main_v65)
      = mgF (MGk (m ((c : Thread nD τ).loc main_arg1)) (m ((c : Thread nD τ).loc main_arg3)) (m ((c : Thread nD τ).loc main_arg4)) (m ((c : Thread nD τ).loc main_arg5))) := by
  after_results_simp
  rfl

end Cert.KernelIdeal.Pre

end
-- ==== Proof.PreA66.lean ====
/-
  The own radii the fifth window reads: the fold of the host operations before the region, read at that buffer, is the radii
  table read at the residue types, sliced to the side-chain atoms and reshaped.
-/
import proofs.«107015_j40819369181410_2_alg».proof.Proof.Gen.KernelIdeal.Launch
import proofs.«107015_j40819369181410_2_alg».proof.Proof.PreDefs
import proofs.«107015_j40819369181410_2_alg».proof.Proof.PreLay
import Idealize.ShloMosaic.Lib.StableHlo.Run

noncomputable section

namespace Cert.KernelIdeal.Pre

open Idealize.ShloMosaic Idealize.ShloMosaic.TcCoe Idealize.ShloMosaic.StableHlo
open Idealize.SL.Sem
open Cert.KernelIdeal

variable (m : (ℓ : Loc nD τ sig) → Buf (Elt Ideal) ℓ) (c : Dev nD)

set_option maxRecDepth 16384 in
theorem after_v66 :
    StableHlo.after Gen.hostOps0 (fun b => m (c, b)) (Proc.devRef .tc main_v66)
      = riF (Rk (m ((c : Thread nD τ).loc main_arg4))) := by
  after_results_simp
  rfl

end Cert.KernelIdeal.Pre

end
-- ==== Proof.PreA67.lean ====
/-
  The gathered radii the sixth window reads: the fold of the host operations before the region, read at that buffer, is the
  radii gathered at the neighbour indices and reshaped.
-/
import proofs.«107015_j40819369181410_2_alg».proof.Proof.Gen.KernelIdeal.Launch
import proofs.«107015_j40819369181410_2_alg».proof.Proof.PreDefs
import proofs.«107015_j40819369181410_2_alg».proof.Proof.PreLay
import Idealize.ShloMosaic.Lib.StableHlo.Run

noncomputable section

namespace Cert.KernelIdeal.Pre

open Idealize.ShloMosaic Idealize.ShloMosaic.TcCoe Idealize.ShloMosaic.StableHlo
open Idealize.SL.Sem
open Cert.KernelIdeal

variable (m : (ℓ : Loc nD τ sig) → Buf (Elt Ideal) ℓ) (c : Dev nD)

set_option maxRecDepth 16384 in
theorem after_v67 :
    StableHlo.after Gen.hostOps0 (fun b => m (c, b)) (Proc.devRef .tc main_v67)
      = rjF (RJk (m ((c : Thread nD τ).loc main_arg4)) (m ((c : Thread nD τ).loc main_arg5))) := by
  after_results_simp
  rfl

end Cert.KernelIdeal.Pre

end
-- ==== Proof.PreA68.lean ====
/-
  The combined neighbour mask the seventh window reads: the fold of the host operations before the region, read at that
  buffer, is the not-self mask times the pair mask argument, reshaped.
-/
import proofs.«107015_j40819369181410_2_alg».proof.Proof.Gen.KernelIdeal.Launch
import proofs.«107015_j40819369181410_2_alg».proof.Proof.PreDefs
import proofs.«107015_j40819369181410_2_alg».proof.Proof.PreLay
import Idealize.ShloMosaic.Lib.StableHlo.Run

noncomputable section

namespace Cert.KernelIdeal.Pre

open Idealize.ShloMosaic Idealize.ShloMosaic.TcCoe Idealize.ShloMosaic.StableHlo
open Idealize.SL.Sem
open Cert.KernelIdeal

variable (m : (ℓ : Loc nD τ sig) → Buf (Elt Ideal) ℓ) (c : Dev nD)

set_option maxRecDepth 16384 in
theorem after_v68 :
    StableHlo.after Gen.hostOps0 (fun b => m (c, b)) (Proc.devRef .tc main_v68)
      = mnkF (NEk (m ((c : Thread nD τ).loc main_arg5))) (m ((c : Thread nD τ).loc main_arg2)) := by
  after_results_simp
  rfl

end Cert.KernelIdeal.Pre

end
-- ==== Proof.PreV.lean ====
/-
  What the pipeline's seven input arrays are when the region is entered.  The region finds, in each window's array, the
  fold of the host operations before it over the launch memory; read at the array's buffer that fold is the composition of
  the operations that wrote it (the sibling modules, one per array), down to the program's argument arrays as launched.
-/
import proofs.«107015_j40819369181410_2_alg».proof.Proof.PFrameKernelIdeal
import proofs.«107015_j40819369181410_2_alg».proof.Proof.PreA61
import proofs.«107015_j40819369181410_2_alg».proof.Proof.PreA63
import proofs.«107015_j40819369181410_2_alg».proof.Proof.PreA64
import proofs.«107015_j40819369181410_2_alg».proof.Proof.PreA65
import proofs.«107015_j40819369181410_2_alg».proof.Proof.PreA66
import proofs.«107015_j40819369181410_2_alg».proof.Proof.PreA67
import proofs.«107015_j40819369181410_2_alg».proof.Proof.PreA68

noncomputable section

namespace Cert.KernelIdeal.Pre

open Idealize.ShloMosaic Idealize.ShloMosaic.TcCoe
open Idealize.SL.Sem
open Cert.KernelIdeal

variable (m : (ℓ : Loc nD τ sig) → Buf (Elt Ideal) ℓ) (c : Dev nD)

/-- Own coordinates (window 0). -/
theorem V_v61 : GenP.V m c main_v61 = xiF (m ((c : Thread nD τ).loc main_arg0)) := after_v61 m c

/-- Gathered coordinates (window 1). -/
theorem V_v63 : GenP.V m c main_v63
    = xjF (XJk (m ((c : Thread nD τ).loc main_arg0)) (m ((c : Thread nD τ).loc main_arg5))) := after_v63 m c

/-- Own atom mask (window 2). -/
theorem V_v64 : GenP.V m c main_v64
    = maiF (MAk (m ((c : Thread nD τ).loc main_arg3)) (m ((c : Thread nD τ).loc main_arg4))) := after_v64 m c

/-- Gathered mask (window 3). -/
theorem V_v65 : GenP.V m c main_v65
    = mgF (MGk (m ((c : Thread nD τ).loc main_arg1)) (m ((c : Thread nD τ).loc main_arg3))
        (m ((c : Thread nD τ).loc main_arg4)) (m ((c : Thread nD τ).loc main_arg5))) := after_v65 m c

/-- Own radii (window 4). -/
theorem V_v66 : GenP.V m c main_v66 = riF (Rk (m ((c : Thread nD τ).loc main_arg4))) := after_v66 m c

/-- Gathered radii (window 5). -/
theorem V_v67 : GenP.V m c main_v67
    = rjF (RJk (m ((c : Thread nD τ).loc main_arg4)) (m ((c : Thread nD τ).loc main_arg5))) := after_v67 m c

/-- Combined neighbour mask (window 6). -/
theorem V_v68 : GenP.V m c main_v68
    = mnkF (NEk (m ((c : Thread nD τ).loc main_arg5))) (m ((c : Thread nD τ).loc main_arg2)) := after_v68 m c

/-- The seven at once. -/
theorem V_eq :
    GenP.V m c main_v61 = xiF (m ((c : Thread nD τ).loc main_arg0))
    ∧ GenP.V m c main_v63 = xjF (XJk (m ((c : Thread nD τ).loc main_arg0)) (m ((c : Thread nD τ).loc main_arg5)))
    ∧ GenP.V m c main_v64 = maiF (MAk (m ((c : Thread nD τ).loc main_arg3)) (m ((c : Thread nD τ).loc main_arg4)))
    ∧ GenP.V m c main_v65 = mgF (MGk (m ((c : Thread nD τ).loc main_arg1)) (m ((c : Thread nD τ).loc main_arg3))
        (m ((c : Thread nD τ).loc main_arg4)) (m ((c : Thread nD τ).loc main_arg5)))
    ∧ GenP.V m c main_v66 = riF (Rk (m ((c : Thread nD τ).loc main_arg4)))
    ∧ GenP.V m c main_v67 = rjF (RJk (m ((c : Thread nD τ).loc main_arg4)) (m ((c : Thread nD τ).loc main_arg5)))
    ∧ GenP.V m c main_v68 = mnkF (NEk (m ((c : Thread nD τ).loc main_arg5))) (m ((c : Thread nD τ).loc main_arg2)) :=
  ⟨V_v61 m c, V_v63 m c, V_v64 m c, V_v65 m c, V_v66 m c, V_v67 m c, V_v68 m c⟩

end Cert.KernelIdeal.Pre

end
-- ==== Proof.PreRead.lean ====
/-
  The layout maps read at an index.  Each map is a row-major reshape of an array whose leading axes are (batch, residue),
  possibly after a slice of the atom axis (atoms 4..13) and a transposition that brings the coordinate axis forward; so
  row `b * 2048 + n` at the column built from the remaining coordinates reads the array at (b, n, ...).  Every index
  equation is stated from the coordinates to the flat position, so it is linear arithmetic.
-/
import proofs.«107015_j40819369181410_2_alg».proof.Proof.PreLay
import proofs.«107015_j40819369181410_2_alg».proof.Proof.Spec
import Idealize.ShloMosaic.Lib.Pipeline.Value
import Idealize.ShloMosaic.Lib.ValueIdx

noncomputable section

namespace Cert.KernelIdeal.Pre

open Idealize.ShloMosaic Idealize.ShloMosaic.ValueIdx
open Cert.KernelIdeal Cert.Clash

/-- Own coordinates: row (b, n), column `c * 10 + a'` reads coordinate `c` of atom `a' + 4`. -/
theorem xiF_apply (X : FVec Ideal S2x2048x14x3 .f32) (b : Fin 2) (n : Fin 2048) (c : Fin 3) (a' : Fin 10) :
    xiF X (ix2 (flat b n) (colXi c a')) = X (ix4 b n (up4 a') c) := by
  unfold xiF
  refine (shapeCast_apply _ _ _ (ix4 b n c a') ?_).trans ?_
  · rw [Shape.rowMajor_val_four, Shape.rowMajor_val_two]
    show ((b.val * 2048 + n.val) * 3 + c.val) * 10 + a'.val = (b.val * 2048 + n.val) * 30 + (c.val * 10 + a'.val)
    omega
  refine (transpose_apply _ _ _ _ (ix4 b n a' c)
    (fun d => match d with | ⟨0, _⟩ => rfl | ⟨1, _⟩ => rfl | ⟨2, _⟩ => rfl | ⟨3, _⟩ => rfl)).trans ?_
  exact extractStridedSlice_apply _ _ _ _ (ix4 b n (up4 a') c) (fun d => match d with
    | ⟨0, _⟩ => by show b.val = 0 + b.val; omega
    | ⟨1, _⟩ => by show n.val = 0 + n.val; omega
    | ⟨2, _⟩ => by show a'.val + 4 = 4 + a'.val; omega
    | ⟨3, _⟩ => by show c.val = 0 + c.val; omega)

/-- Gathered coordinates: row (b, n), column `c * 420 + k * 14 + a` reads coordinate `c` of atom `a` of neighbour `k`. -/
theorem xjF_apply (XJ : FVec Ideal S2x2048x30x14x3 .f32) (b : Fin 2) (n : Fin 2048) (c : Fin 3) (k : Fin 30) (a : Fin 14) :
    xjF XJ (ix2 (flat b n) (colXj c k a)) = XJ (ix5 b n k a c) := by
  unfold xjF
  refine (shapeCast_apply _ _ _ (ix5 b n c k a) ?_).trans ?_
  · rw [Shape.rowMajor_val_five, Shape.rowMajor_val_two]
    show (((b.val * 2048 + n.val) * 3 + c.val) * 30 + k.val) * 14 + a.val
      = (b.val * 2048 + n.val) * 1260 + (c.val * 420 + k.val * 14 + a.val)
    omega
  exact transpose_apply _ _ _ _ (ix5 b n k a c)
    (fun d => match d with | ⟨0, _⟩ => rfl | ⟨1, _⟩ => rfl | ⟨2, _⟩ => rfl | ⟨3, _⟩ => rfl | ⟨4, _⟩ => rfl)

/-- Own atom mask: row (b, n), column `a'` reads atom `a' + 4`. -/
theorem maiF_apply (MA : FVec Ideal S2x2048x14 .f32) (b : Fin 2) (n : Fin 2048) (a' : Fin 10) :
    maiF MA (ix2 (flat b n) a') = MA (ix3 b n (up4 a')) := by
  unfold maiF
  refine (shapeCast_apply _ _ _ (ix3 b n a') ?_).trans ?_
  · rw [Shape.rowMajor_val_three, Shape.rowMajor_val_two]
    show (b.val * 2048 + n.val) * 10 + a'.val = (b.val * 2048 + n.val) * 10 + a'.val
    rfl
  exact extractStridedSlice_apply _ _ _ _ (ix3 b n (up4 a')) (fun d => match d with
    | ⟨0, _⟩ => by show b.val = 0 + b.val; omega
    | ⟨1, _⟩ => by show n.val = 0 + n.val; omega
    | ⟨2, _⟩ => by show a'.val + 4 = 4 + a'.val; omega)

/-- Gathered mask: row (b, n), column `k * 14 + a` reads atom `a` of neighbour `k`. -/
theorem mgF_apply (MG : FVec Ideal S2x2048x30x14 .f32) (b : Fin 2) (n : Fin 2048) (k : Fin 30) (a : Fin 14) :
    mgF MG (ix2 (flat b n) (colKA k a)) = MG (ix4 b n k a) := by
  unfold mgF
  refine shapeCast_apply _ _ _ (ix4 b n k a) ?_
  rw [Shape.rowMajor_val_four, Shape.rowMajor_val_two]
  show ((b.val * 2048 + n.val) * 30 + k.val) * 14 + a.val = (b.val * 2048 + n.val) * 420 + (k.val * 14 + a.val)
  omega

/-- Own radii: row (b, n), column `a'` reads atom `a' + 4`. -/
theorem riF_apply (R : FVec Ideal S2x2048x14 .f32) (b : Fin 2) (n : Fin 2048) (a' : Fin 10) :
    riF R (ix2 (flat b n) a') = R (ix3 b n (up4 a')) := by
  unfold riF
  refine (shapeCast_apply _ _ _ (ix3 b n a') ?_).trans ?_
  · rw [Shape.rowMajor_val_three, Shape.rowMajor_val_two]
    show (b.val * 2048 + n.val) * 10 + a'.val = (b.val * 2048 + n.val) * 10 + a'.val
    rfl
  exact extractStridedSlice_apply _ _ _ _ (ix3 b n (up4 a')) (fun d => match d with
    | ⟨0, _⟩ => by show b.val = 0 + b.val; omega
    | ⟨1, _⟩ => by show n.val = 0 + n.val; omega
    | ⟨2, _⟩ => by show a'.val + 4 = 4 + a'.val; omega)

/-- Gathered radii: row (b, n), column `k * 14 + a` reads atom `a` of neighbour `k`. -/
theorem rjF_apply (RJ : FVec Ideal S2x2048x30x14 .f32) (b : Fin 2) (n : Fin 2048) (k : Fin 30) (a : Fin 14) :
    rjF RJ (ix2 (flat b n) (colKA k a)) = RJ (ix4 b n k a) := by
  unfold rjF
  refine shapeCast_apply _ _ _ (ix4 b n k a) ?_
  rw [Shape.rowMajor_val_four, Shape.rowMajor_val_two]
  show ((b.val * 2048 + n.val) * 30 + k.val) * 14 + a.val = (b.val * 2048 + n.val) * 420 + (k.val * 14 + a.val)
  omega

/-- Combined neighbour mask: row (b, n), column `k` reads the product of the two masks at neighbour `k`. -/
theorem mnkF_apply (NE MIJ : FVec Ideal S2x2048x30 .f32) (b : Fin 2) (n : Fin 2048) (k : Fin 30) :
    mnkF NE MIJ (ix2 (flat b n) k) = NE (ix3 b n k) * MIJ (ix3 b n k) := by
  unfold mnkF
  refine (shapeCast_apply _ _ _ (ix3 b n k) ?_).trans ?_
  · rw [Shape.rowMajor_val_three, Shape.rowMajor_val_two]
    show (b.val * 2048 + n.val) * 30 + k.val = (b.val * 2048 + n.val) * 30 + k.val
    rfl
  rfl

end Cert.KernelIdeal.Pre

end
-- ==== Proof.PreFlat.lean ====
/-
  The flattened row layout is the specification: summing, for row `b * 2048 + n`, over neighbours, side-chain atoms and
  neighbour atoms of the row-layout arrays is summing over the same index sets of the shared arrays at (b, n), term by term;
  the one difference, the two neighbour masks multiplied before the others, is associativity of the product.
-/
import proofs.«107015_j40819369181410_2_alg».proof.Proof.PreRead

noncomputable section

namespace Cert.KernelIdeal.Pre

open Idealize.ShloMosaic Idealize.ShloMosaic.ValueIdx
open Cert.KernelIdeal Cert.Clash

/-- One row of the layout is the score of its residue. -/
theorem rowAt_flat (MA : FVec Ideal S2x2048x14 .f32) (MG : FVec Ideal S2x2048x30x14 .f32) (NE MIJ : FVec Ideal S2x2048x30 .f32)
    (X : FVec Ideal S2x2048x14x3 .f32) (XJ : FVec Ideal S2x2048x30x14x3 .f32) (R : FVec Ideal S2x2048x14 .f32)
    (RJ : FVec Ideal S2x2048x30x14 .f32) (b : Fin 2) (n : Fin 2048) :
    rowAt (Rn := 4096) (xiF X) (xjF XJ) (maiF MA) (mgF MG) (riF R) (rjF RJ) (mnkF NE MIJ) (flat b n)
      = Gat MA MG NE MIJ X XJ R RJ b n := by
  unfold rowAt Gat
  refine Finset.sum_congr rfl fun k _ => Finset.sum_congr rfl fun a' _ => Finset.sum_congr rfl fun a _ => ?_
  rw [maiF_apply, mgF_apply, mnkF_apply, riF_apply, rjF_apply]
  have hx : (fun c => xiF X (ix2 (flat b n) (colXi c a'))) = fun c => X (ix4 b n (up4 a') c) :=
    funext fun c => xiF_apply X b n c a'
  have hy : (fun c => xjF XJ (ix2 (flat b n) (colXj c k a))) = fun c => XJ (ix5 b n k a c) :=
    funext fun c => xjF_apply XJ b n c k a
  rw [hx, hy]
  exact Tk_mul _ _ _ _ _ _ _ _

/-- The kernel's row layout, read back as [2, 2048], is the specification over the shared arrays. -/
theorem flat_eq (MA : FVec Ideal S2x2048x14 .f32) (MG : FVec Ideal S2x2048x30x14 .f32) (NE MIJ : FVec Ideal S2x2048x30 .f32)
    (X : FVec Ideal S2x2048x14x3 .f32) (XJ : FVec Ideal S2x2048x30x14x3 .f32) (R : FVec Ideal S2x2048x14 .f32)
    (RJ : FVec Ideal S2x2048x30x14 .f32) :
    Cert.Clash.unflat (Cert.Clash.rowsG (Rn := 4096) (xiF X) (xjF XJ) (maiF MA) (mgF MG) (riF R) (rjF RJ) (mnkF NE MIJ))
      = Cert.Clash.G MA MG NE MIJ X XJ R RJ := by
  funext i
  obtain ⟨b, n, rfl⟩ : ∃ (b : Fin 2) (n : Fin 2048), i = ix2 b n := ⟨i 0, i 1, eq_ix2 i⟩
  exact rowAt_flat MA MG NE MIJ X XJ R RJ b n

end Cert.KernelIdeal.Pre

end
-- ==== Proof.RefOps.lean ====
import proofs.«107015_j40819369181410_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The host operations 1 … 60 of the 119 of @main (its window `main_part0`), in order. -/
abbrev ops0 : List (HloOp τ sig (Elt F)) :=
  [ StableHlo.nullary main_c (fun i => lit0 (S20.rowMajor i)),
    StableHlo.nullary main_cst (fun i => FloatOps.ofBits .f32 (lit1 (S20x14.rowMajor i))),
    StableHlo.nullary main_c_0 (constantI S_ 32 0#32),
    StableHlo.unary main_c_0 main_v0 (broadcastInDim S2x2048 ![] bcast_S_S2x2048 : (⟨S_, .i32⟩ : BufTy).Contents (Elt F) → (⟨S2x2048, .i32⟩ : BufTy).Contents (Elt F)),
    StableHlo.binary main_arg4 main_v0 main_v1 (cmpi .slt : (⟨S2x2048, .i32⟩ : BufTy).Contents (Elt F) → (⟨S2x2048, .i32⟩ : BufTy).Contents (Elt F) → (⟨S2x2048, .i1⟩ : BufTy).Contents (Elt F)),
    StableHlo.nullary main_c_1 (constantI S_ 32 20#32),
    StableHlo.unary main_c_1 main_v2 (broadcastInDim S2x2048 ![] bcast_S_S2x2048 : (⟨S_, .i32⟩ : BufTy).Contents (Elt F) → (⟨S2x2048, .i32⟩ : BufTy).Contents (Elt F)),
    StableHlo.binary main_arg4 main_v2 main_v3 (addi : (⟨S2x2048, .i32⟩ : BufTy).Contents (Elt F) → (⟨S2x2048, .i32⟩ : BufTy).Contents (Elt F) → (⟨S2x2048, .i32⟩ : BufTy).Contents (Elt F)),
    StableHlo.ternary main_v1 main_v3 main_arg4 main_v4 (select : (⟨S2x2048, .i1⟩ : BufTy).Contents (Elt F) → (⟨S2x2048, .i32⟩ : BufTy).Contents (Elt F) → (⟨S2x2048, .i32⟩ : BufTy).Contents (Elt F) → (⟨S2x2048, .i32⟩ : BufTy).Contents (Elt F)),
    StableHlo.unary main_v4 main_v5 (broadcastInDim S2x2048x1 ![0, 1] bcast_S2x2048_S2x2048x1_0_1 : (⟨S2x2048, .i32⟩ : BufTy).Contents (Elt F) → (⟨S2x2048x1, .i32⟩ : BufTy).Contents (Elt F)),
    StableHlo.binary main_c main_v5 main_v6 ((fun x i => Host.gather gather_S20_S2x2048x1_S2x2048_n_0_n_n_0_2_1 x i) : (⟨S20, .i32⟩ : BufTy).Contents (Elt F) → (⟨S2x2048x1, .i32⟩ : BufTy).Contents (Elt F) → (⟨S2x2048, .i32⟩ : BufTy).Contents (Elt F)),
    StableHlo.unary main_v6 main_v7 (sitofp .f32 : (⟨S2x2048, .i32⟩ : BufTy).Contents (Elt F) → (⟨S2x2048, .f32⟩ : BufTy).Contents (Elt F)),
    StableHlo.nullary main_c_2 (constantI S_ 32 0#32),
    StableHlo.unary main_c_2 main_v8 (broadcastInDim S2x2048 ![] bcast_S_S2x2048 : (⟨S_, .i32⟩ : BufTy).Contents (Elt F) → (⟨S2x2048, .i32⟩ : BufTy).Contents (Elt F)),
    StableHlo.binary main_arg3 main_v8 main_v9 (cmpi .sgt : (⟨S2x2048, .i32⟩ : BufTy).Contents (Elt F) → (⟨S2x2048, .i32⟩ : BufTy).Contents (Elt F) → (⟨S2x2048, .i1⟩ : BufTy).Contents (Elt F)),
    StableHlo.unary main_v9 main_v10 (uitofp .f32 : (⟨S2x2048, .i1⟩ : BufTy).Contents (Elt F) → (⟨S2x2048, .f32⟩ : BufTy).Contents (Elt F)),
    StableHlo.binary main_v7 main_v10 main_v11 (mulf : (⟨S2x2048, .f32⟩ : BufTy).Contents (Elt F) → (⟨S2x2048, .f32⟩ : BufTy).Contents (Elt F) → (⟨S2x2048, .f32⟩ : BufTy).Contents (Elt F)),
    StableHlo.nullary main_v12 (iotaInDim S14 32 0),
    StableHlo.unary main_v11 main_v13 (broadcastInDim S2x2048x1 ![0, 1] bcast_S2x2048_S2x2048x1_0_1 : (⟨S2x2048, .f32⟩ : BufTy).Contents (Elt F) → (⟨S2x2048x1, .f32⟩ : BufTy).Contents (Elt F)),
    StableHlo.unary main_v12 main_v14 (sitofp .f32 : (⟨S14, .i32⟩ : BufTy).Contents (Elt F) → (⟨S14, .f32⟩ : BufTy).Contents (Elt F)),
    StableHlo.unary main_v14 main_v15 (broadcastInDim S1x1x14 ![2] bcast_S14_S1x1x14_2 : (⟨S14, .f32⟩ : BufTy).Contents (Elt F) → (⟨S1x1x14, .f32⟩ : BufTy).Contents (Elt F)),
    StableHlo.unary main_v15 main_v16 (broadcastInDim S2x2048x14 ![0, 1, 2] bcast_S1x1x14_S2x2048x14_0_1_2 : (⟨S1x1x14, .f32⟩ : BufTy).Contents (Elt F) → (⟨S2x2048x14, .f32⟩ : BufTy).Contents (Elt F)),
    StableHlo.unary main_v13 main_v17 (broadcastInDim S2x2048x14 ![0, 1, 2] bcast_S2x2048x1_S2x2048x14_0_1_2 : (⟨S2x2048x1, .f32⟩ : BufTy).Contents (Elt F) → (⟨S2x2048x14, .f32⟩ : BufTy).Contents (Elt F)),
    StableHlo.binary main_v16 main_v17 main_v18 (cmpf .olt : (⟨S2x2048x14, .f32⟩ : BufTy).Contents (Elt F) → (⟨S2x2048x14, .f32⟩ : BufTy).Contents (Elt F) → (⟨S2x2048x14, .i1⟩ : BufTy).Contents (Elt F)),
    StableHlo.unary main_v18 main_v19 (uitofp .f32 : (⟨S2x2048x14, .i1⟩ : BufTy).Contents (Elt F) → (⟨S2x2048x14, .f32⟩ : BufTy).Contents (Elt F)),
    StableHlo.unary main_arg1 main_v20 (broadcastInDim S2x2048x1 ![0, 1] bcast_S2x2048_S2x2048x1_0_1 : (⟨S2x2048, .f32⟩ : BufTy).Contents (Elt F) → (⟨S2x2048x1, .f32⟩ : BufTy).Contents (Elt F)),
    StableHlo.unary main_v20 main_v21 (broadcastInDim S2x2048x14 ![0, 1, 2] bcast_S2x2048x1_S2x2048x14_0_1_2 : (⟨S2x2048x1, .f32⟩ : BufTy).Contents (Elt F) → (⟨S2x2048x14, .f32⟩ : BufTy).Contents (Elt F)),
    StableHlo.binary main_v19 main_v21 main_v22 (mulf : (⟨S2x2048x14, .f32⟩ : BufTy).Contents (Elt F) → (⟨S2x2048x14, .f32⟩ : BufTy).Contents (Elt F) → (⟨S2x2048x14, .f32⟩ : BufTy).Contents (Elt F)),
    StableHlo.nullary main_c_3 (constantI S_ 32 0#32),
    StableHlo.unary main_c_3 main_v23 (broadcastInDim S2x2048x30 ![] bcast_S_S2x2048x30 : (⟨S_, .i32⟩ : BufTy).Contents (Elt F) → (⟨S2x2048x30, .i32⟩ : BufTy).Contents (Elt F)),
    StableHlo.binary main_arg5 main_v23 main_v24 (cmpi .slt : (⟨S2x2048x30, .i32⟩ : BufTy).Contents (Elt F) → (⟨S2x2048x30, .i32⟩ : BufTy).Contents (Elt F) → (⟨S2x2048x30, .i1⟩ : BufTy).Contents (Elt F)),
    StableHlo.nullary main_c_4 (constantI S_ 32 2048#32),
    StableHlo.unary main_c_4 main_v25 (broadcastInDim S2x2048x30 ![] bcast_S_S2x2048x30 : (⟨S_, .i32⟩ : BufTy).Contents (Elt F) → (⟨S2x2048x30, .i32⟩ : BufTy).Contents (Elt F)),
    StableHlo.binary main_arg5 main_v25 main_v26 (addi : (⟨S2x2048x30, .i32⟩ : BufTy).Contents (Elt F) → (⟨S2x2048x30, .i32⟩ : BufTy).Contents (Elt F) → (⟨S2x2048x30, .i32⟩ : BufTy).Contents (Elt F)),
    StableHlo.ternary main_v24 main_v26 main_arg5 main_v27 (select : (⟨S2x2048x30, .i1⟩ : BufTy).Contents (Elt F) → (⟨S2x2048x30, .i32⟩ : BufTy).Contents (Elt F) → (⟨S2x2048x30, .i32⟩ : BufTy).Contents (Elt F) → (⟨S2x2048x30, .i32⟩ : BufTy).Contents (Elt F)),
    StableHlo.unary main_v27 main_v28 (broadcastInDim S2x2048x30x1 ![0, 1, 2] bcast_S2x2048x30_S2x2048x30x1_0_1_2 : (⟨S2x2048x30, .i32⟩ : BufTy).Contents (Elt F) → (⟨S2x2048x30x1, .i32⟩ : BufTy).Contents (Elt F)),
    StableHlo.binary main_v22 main_v28 main_v29 ((fun x i => Host.gather gather_S2x2048x14_S2x2048x30x1_S2x2048x30x14_3_1_0_0_1_3_1114 x i) : (⟨S2x2048x14, .f32⟩ : BufTy).Contents (Elt F) → (⟨S2x2048x30x1, .i32⟩ : BufTy).Contents (Elt F) → (⟨S2x2048x30x14, .f32⟩ : BufTy).Contents (Elt F)),
    StableHlo.unary main_v19 main_v30 (broadcastInDim S2x2048x1x14x1 ![0, 1, 3] bcast_S2x2048x14_S2x2048x1x14x1_0_1_3 : (⟨S2x2048x14, .f32⟩ : BufTy).Contents (Elt F) → (⟨S2x2048x1x14x1, .f32⟩ : BufTy).Contents (Elt F)),
    StableHlo.unary main_v29 main_v31 (broadcastInDim S2x2048x30x1x14 ![0, 1, 2, 4] bcast_S2x2048x30x14_S2x2048x30x1x14_0_1_2_4 : (⟨S2x2048x30x14, .f32⟩ : BufTy).Contents (Elt F) → (⟨S2x2048x30x1x14, .f32⟩ : BufTy).Contents (Elt F)),
    StableHlo.unary main_v30 main_v32 (broadcastInDim S2x2048x30x14x14 ![0, 1, 2, 3, 4] bcast_S2x2048x1x14x1_S2x2048x30x14x14_0_1_2_3_4 : (⟨S2x2048x1x14x1, .f32⟩ : BufTy).Contents (Elt F) → (⟨S2x2048x30x14x14, .f32⟩ : BufTy).Contents (Elt F)),
    StableHlo.unary main_v31 main_v33 (broadcastInDim S2x2048x30x14x14 ![0, 1, 2, 3, 4] bcast_S2x2048x30x1x14_S2x2048x30x14x14_0_1_2_3_4 : (⟨S2x2048x30x1x14, .f32⟩ : BufTy).Contents (Elt F) → (⟨S2x2048x30x14x14, .f32⟩ : BufTy).Contents (Elt F)),
    StableHlo.binary main_v32 main_v33 main_v34 (mulf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.nullary main_v35 (iotaInDim S2048 32 0),
    StableHlo.unary main_v35 main_v36 (broadcastInDim S1x2048x1 ![1] bcast_S2048_S1x2048x1_1 : (⟨S2048, .i32⟩ : BufTy).Contents (Elt F) → (⟨S1x2048x1, .i32⟩ : BufTy).Contents (Elt F)),
    StableHlo.unary main_v36 main_v37 (broadcastInDim S2x2048x30 ![0, 1, 2] bcast_S1x2048x1_S2x2048x30_0_1_2 : (⟨S1x2048x1, .i32⟩ : BufTy).Contents (Elt F) → (⟨S2x2048x30, .i32⟩ : BufTy).Contents (Elt F)),
    StableHlo.binary main_arg5 main_v37 main_v38 (cmpi .ne : (⟨S2x2048x30, .i32⟩ : BufTy).Contents (Elt F) → (⟨S2x2048x30, .i32⟩ : BufTy).Contents (Elt F) → (⟨S2x2048x30, .i1⟩ : BufTy).Contents (Elt F)),
    StableHlo.unary main_v38 main_v39 (uitofp .f32 : (⟨S2x2048x30, .i1⟩ : BufTy).Contents (Elt F) → (⟨S2x2048x30, .f32⟩ : BufTy).Contents (Elt F)),
    StableHlo.unary main_v39 main_v40 (broadcastInDim S2x2048x30x1x1 ![0, 1, 2] bcast_S2x2048x30_S2x2048x30x1x1_0_1_2 : (⟨S2x2048x30, .f32⟩ : BufTy).Contents (Elt F) → (⟨S2x2048x30x1x1, .f32⟩ : BufTy).Contents (Elt F)),
    StableHlo.unary main_v40 main_v41 (broadcastInDim S2x2048x30x14x14 ![0, 1, 2, 3, 4] bcast_S2x2048x30x1x1_S2x2048x30x14x14_0_1_2_3_4 : (⟨S2x2048x30x1x1, .f32⟩ : BufTy).Contents (Elt F) → (⟨S2x2048x30x14x14, .f32⟩ : BufTy).Contents (Elt F)),
    StableHlo.binary main_v34 main_v41 main_v42 (mulf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.unary main_arg2 main_v43 (broadcastInDim S2x2048x30x1x1 ![0, 1, 2] bcast_S2x2048x30_S2x2048x30x1x1_0_1_2 : (⟨S2x2048x30, .f32⟩ : BufTy).Contents (Elt F) → (⟨S2x2048x30x1x1, .f32⟩ : BufTy).Contents (Elt F)),
    StableHlo.unary main_v43 main_v44 (broadcastInDim S2x2048x30x14x14 ![0, 1, 2, 3, 4] bcast_S2x2048x30x1x1_S2x2048x30x14x14_0_1_2_3_4 : (⟨S2x2048x30x1x1, .f32⟩ : BufTy).Contents (Elt F) → (⟨S2x2048x30x14x14, .f32⟩ : BufTy).Contents (Elt F)),
    StableHlo.binary main_v42 main_v44 main_v45 (mulf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.nullary main_c_5 (constantI S_ 32 0#32),
    StableHlo.unary main_c_5 main_v46 (broadcastInDim S2x2048x30 ![] bcast_S_S2x2048x30 : (⟨S_, .i32⟩ : BufTy).Contents (Elt F) → (⟨S2x2048x30, .i32⟩ : BufTy).Contents (Elt F)),
    StableHlo.binary main_arg5 main_v46 main_v47 (cmpi .slt : (⟨S2x2048x30, .i32⟩ : BufTy).Contents (Elt F) → (⟨S2x2048x30, .i32⟩ : BufTy).Contents (Elt F) → (⟨S2x2048x30, .i1⟩ : BufTy).Contents (Elt F)),
    StableHlo.nullary main_c_6 (constantI S_ 32 2048#32),
    StableHlo.unary main_c_6 main_v48 (broadcastInDim S2x2048x30 ![] bcast_S_S2x2048x30 : (⟨S_, .i32⟩ : BufTy).Contents (Elt F) → (⟨S2x2048x30, .i32⟩ : BufTy).Contents (Elt F)),
    StableHlo.binary main_arg5 main_v48 main_v49 (addi : (⟨S2x2048x30, .i32⟩ : BufTy).Contents (Elt F) → (⟨S2x2048x30, .i32⟩ : BufTy).Contents (Elt F) → (⟨S2x2048x30, .i32⟩ : BufTy).Contents (Elt F)),
    StableHlo.ternary main_v47 main_v49 main_arg5 main_v50 (select : (⟨S2x2048x30, .i1⟩ : BufTy).Contents (Elt F) → (⟨S2x2048x30, .i32⟩ : BufTy).Contents (Elt F) → (⟨S2x2048x30, .i32⟩ : BufTy).Contents (Elt F) → (⟨S2x2048x30, .i32⟩ : BufTy).Contents (Elt F)) ]

/-- The host operations 61 … 119 of the 119 of @main (its window `main_part1`), in order. -/
abbrev ops1 : List (HloOp τ sig (Elt F)) :=
  [ StableHlo.unary main_v50 main_v51 (broadcastInDim S2x2048x30x1 ![0, 1, 2] bcast_S2x2048x30_S2x2048x30x1_0_1_2 : (⟨S2x2048x30, .i32⟩ : BufTy).Contents (Elt F) → (⟨S2x2048x30x1, .i32⟩ : BufTy).Contents (Elt F)),
    StableHlo.binary main_arg0 main_v51 main_v52 ((fun x i => Host.gather gather_S2x2048x14x3_S2x2048x30x1_S2x2048x30x14x3_34_1_0_0_1_3_11143 x i) : (⟨S2x2048x14x3, .f32⟩ : BufTy).Contents (Elt F) → (⟨S2x2048x30x1, .i32⟩ : BufTy).Contents (Elt F) → (⟨S2x2048x30x14x3, .f32⟩ : BufTy).Contents (Elt F)),
    StableHlo.unary main_arg0 main_v53 (broadcastInDim S2x2048x1x14x1x3 ![0, 1, 3, 5] bcast_S2x2048x14x3_S2x2048x1x14x1x3_0_1_3_5 : (⟨S2x2048x14x3, .f32⟩ : BufTy).Contents (Elt F) → (⟨S2x2048x1x14x1x3, .f32⟩ : BufTy).Contents (Elt F)),
    StableHlo.unary main_v52 main_v54 (broadcastInDim S2x2048x30x1x14x3 ![0, 1, 2, 4, 5] bcast_S2x2048x30x14x3_S2x2048x30x1x14x3_0_1_2_4_5 : (⟨S2x2048x30x14x3, .f32⟩ : BufTy).Contents (Elt F) → (⟨S2x2048x30x1x14x3, .f32⟩ : BufTy).Contents (Elt F)),
    StableHlo.unary main_v53 main_v55 (broadcastInDim S2x2048x30x14x14x3 ![0, 1, 2, 3, 4, 5] bcast_S2x2048x1x14x1x3_S2x2048x30x14x14x3_0_1_2_3_4_5 : (⟨S2x2048x1x14x1x3, .f32⟩ : BufTy).Contents (Elt F) → (⟨S2x2048x30x14x14x3, .f32⟩ : BufTy).Contents (Elt F)),
    StableHlo.unary main_v54 main_v56 (broadcastInDim S2x2048x30x14x14x3 ![0, 1, 2, 3, 4, 5] bcast_S2x2048x30x1x14x3_S2x2048x30x14x14x3_0_1_2_3_4_5 : (⟨S2x2048x30x1x14x3, .f32⟩ : BufTy).Contents (Elt F) → (⟨S2x2048x30x14x14x3, .f32⟩ : BufTy).Contents (Elt F)),
    StableHlo.binary main_v55 main_v56 main_v57 (subf : (⟨S2x2048x30x14x14x3, .f32⟩ : BufTy).Contents (Elt F) → (⟨S2x2048x30x14x14x3, .f32⟩ : BufTy).Contents (Elt F) → (⟨S2x2048x30x14x14x3, .f32⟩ : BufTy).Contents (Elt F)),
    StableHlo.binary main_v57 main_v57 main_v58 (mulf : (⟨S2x2048x30x14x14x3, .f32⟩ : BufTy).Contents (Elt F) → (⟨S2x2048x30x14x14x3, .f32⟩ : BufTy).Contents (Elt F) → (⟨S2x2048x30x14x14x3, .f32⟩ : BufTy).Contents (Elt F)),
    StableHlo.nullary main_cst_7 (constant S_ .f32 0x00000000#32),
    StableHlo.binary main_v58 main_cst_7 main_v59 ((fun x v => Host.reduceAdd x v reducesTo_S2x2048x30x14x14x3_S2x2048x30x14x14_d5 h_S_) : (⟨S2x2048x30x14x14x3, .f32⟩ : BufTy).Contents (Elt F) → (⟨S_, .f32⟩ : BufTy).Contents (Elt F) → (⟨S2x2048x30x14x14, .f32⟩ : BufTy).Contents (Elt F)),
    StableHlo.nullary main_cst_8 (constant S_ .f32 0x3A83126F#32),
    StableHlo.unary main_cst_8 main_v60 (broadcastInDim S2x2048x30x14x14 ![] bcast_S_S2x2048x30x14x14 : (⟨S_, .f32⟩ : BufTy).Contents (Elt F) → (⟨S2x2048x30x14x14, .f32⟩ : BufTy).Contents (Elt F)),
    StableHlo.binary main_v59 main_v60 main_v61 (addf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.unary main_v61 main_v62 (Host.sqrt : (⟨S2x2048x30x14x14, .f32⟩ : BufTy).Contents (Elt F) → (⟨S2x2048x30x14x14, .f32⟩ : BufTy).Contents (Elt F)),
    StableHlo.nullary main_c_9 (constantI S_ 32 0#32),
    StableHlo.unary main_c_9 main_v63 (broadcastInDim S2x2048 ![] bcast_S_S2x2048 : (⟨S_, .i32⟩ : BufTy).Contents (Elt F) → (⟨S2x2048, .i32⟩ : BufTy).Contents (Elt F)),
    StableHlo.binary main_arg4 main_v63 main_v64 (cmpi .slt : (⟨S2x2048, .i32⟩ : BufTy).Contents (Elt F) → (⟨S2x2048, .i32⟩ : BufTy).Contents (Elt F) → (⟨S2x2048, .i1⟩ : BufTy).Contents (Elt F)),
    StableHlo.nullary main_c_10 (constantI S_ 32 20#32),
    StableHlo.unary main_c_10 main_v65 (broadcastInDim S2x2048 ![] bcast_S_S2x2048 : (⟨S_, .i32⟩ : BufTy).Contents (Elt F) → (⟨S2x2048, .i32⟩ : BufTy).Contents (Elt F)),
    StableHlo.binary main_arg4 main_v65 main_v66 (addi : (⟨S2x2048, .i32⟩ : BufTy).Contents (Elt F) → (⟨S2x2048, .i32⟩ : BufTy).Contents (Elt F) → (⟨S2x2048, .i32⟩ : BufTy).Contents (Elt F)),
    StableHlo.ternary main_v64 main_v66 main_arg4 main_v67 (select : (⟨S2x2048, .i1⟩ : BufTy).Contents (Elt F) → (⟨S2x2048, .i32⟩ : BufTy).Contents (Elt F) → (⟨S2x2048, .i32⟩ : BufTy).Contents (Elt F) → (⟨S2x2048, .i32⟩ : BufTy).Contents (Elt F)),
    StableHlo.unary main_v67 main_v68 (broadcastInDim S2x2048x1 ![0, 1] bcast_S2x2048_S2x2048x1_0_1 : (⟨S2x2048, .i32⟩ : BufTy).Contents (Elt F) → (⟨S2x2048x1, .i32⟩ : BufTy).Contents (Elt F)),
    StableHlo.binary main_cst main_v68 main_v69 ((fun x i => Host.gather gather_S20x14_S2x2048x1_S2x2048x14_2_0_n_n_0_2_114 x i) : (⟨S20x14, .f32⟩ : BufTy).Contents (Elt F) → (⟨S2x2048x1, .i32⟩ : BufTy).Contents (Elt F) → (⟨S2x2048x14, .f32⟩ : BufTy).Contents (Elt F)),
    StableHlo.nullary main_c_11 (constantI S_ 32 0#32),
    StableHlo.unary main_c_11 main_v70 (broadcastInDim S2x2048x30 ![] bcast_S_S2x2048x30 : (⟨S_, .i32⟩ : BufTy).Contents (Elt F) → (⟨S2x2048x30, .i32⟩ : BufTy).Contents (Elt F)),
    StableHlo.binary main_arg5 main_v70 main_v71 (cmpi .slt : (⟨S2x2048x30, .i32⟩ : BufTy).Contents (Elt F) → (⟨S2x2048x30, .i32⟩ : BufTy).Contents (Elt F) → (⟨S2x2048x30, .i1⟩ : BufTy).Contents (Elt F)),
    StableHlo.nullary main_c_12 (constantI S_ 32 2048#32),
    StableHlo.unary main_c_12 main_v72 (broadcastInDim S2x2048x30 ![] bcast_S_S2x2048x30 : (⟨S_, .i32⟩ : BufTy).Contents (Elt F) → (⟨S2x2048x30, .i32⟩ : BufTy).Contents (Elt F)),
    StableHlo.binary main_arg5 main_v72 main_v73 (addi : (⟨S2x2048x30, .i32⟩ : BufTy).Contents (Elt F) → (⟨S2x2048x30, .i32⟩ : BufTy).Contents (Elt F) → (⟨S2x2048x30, .i32⟩ : BufTy).Contents (Elt F)),
    StableHlo.ternary main_v71 main_v73 main_arg5 main_v74 (select : (⟨S2x2048x30, .i1⟩ : BufTy).Contents (Elt F) → (⟨S2x2048x30, .i32⟩ : BufTy).Contents (Elt F) → (⟨S2x2048x30, .i32⟩ : BufTy).Contents (Elt F) → (⟨S2x2048x30, .i32⟩ : BufTy).Contents (Elt F)),
    StableHlo.unary main_v74 main_v75 (broadcastInDim S2x2048x30x1 ![0, 1, 2] bcast_S2x2048x30_S2x2048x30x1_0_1_2 : (⟨S2x2048x30, .i32⟩ : BufTy).Contents (Elt F) → (⟨S2x2048x30x1, .i32⟩ : BufTy).Contents (Elt F)),
    StableHlo.binary main_v69 main_v75 main_v76 ((fun x i => Host.gather gather_S2x2048x14_S2x2048x30x1_S2x2048x30x14_3_1_0_0_1_3_1114 x i) : (⟨S2x2048x14, .f32⟩ : BufTy).Contents (Elt F) → (⟨S2x2048x30x1, .i32⟩ : BufTy).Contents (Elt F) → (⟨S2x2048x30x14, .f32⟩ : BufTy).Contents (Elt F)),
    StableHlo.unary main_v69 main_v77 (broadcastInDim S2x2048x1x14x1 ![0, 1, 3] bcast_S2x2048x14_S2x2048x1x14x1_0_1_3 : (⟨S2x2048x14, .f32⟩ : BufTy).Contents (Elt F) → (⟨S2x2048x1x14x1, .f32⟩ : BufTy).Contents (Elt F)),
    StableHlo.unary main_v76 main_v78 (broadcastInDim S2x2048x30x1x14 ![0, 1, 2, 4] bcast_S2x2048x30x14_S2x2048x30x1x14_0_1_2_4 : (⟨S2x2048x30x14, .f32⟩ : BufTy).Contents (Elt F) → (⟨S2x2048x30x1x14, .f32⟩ : BufTy).Contents (Elt F)),
    StableHlo.unary main_v77 main_v79 (broadcastInDim S2x2048x30x14x14 ![0, 1, 2, 3, 4] bcast_S2x2048x1x14x1_S2x2048x30x14x14_0_1_2_3_4 : (⟨S2x2048x1x14x1, .f32⟩ : BufTy).Contents (Elt F) → (⟨S2x2048x30x14x14, .f32⟩ : BufTy).Contents (Elt F)),
    StableHlo.unary main_v78 main_v80 (broadcastInDim S2x2048x30x14x14 ![0, 1, 2, 3, 4] bcast_S2x2048x30x1x14_S2x2048x30x14x14_0_1_2_3_4 : (⟨S2x2048x30x1x14, .f32⟩ : BufTy).Contents (Elt F) → (⟨S2x2048x30x14x14, .f32⟩ : BufTy).Contents (Elt F)),
    StableHlo.binary main_v79 main_v80 main_v81 (addf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.nullary main_cst_13 (constant S_ .f32 0x40000000#32),
    StableHlo.unary main_cst_13 main_v82 (broadcastInDim S2x2048x30x14x14 ![] bcast_S_S2x2048x30x14x14 : (⟨S_, .f32⟩ : BufTy).Contents (Elt F) → (⟨S2x2048x30x14x14, .f32⟩ : BufTy).Contents (Elt F)),
    StableHlo.binary main_v81 main_v82 main_v83 (Host.divf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.nullary main_cst_14 (constant S_ .f32 0x3EB33333#32),
    StableHlo.unary main_cst_14 main_v84 (broadcastInDim S2x2048x30x14x14 ![] bcast_S_S2x2048x30x14x14 : (⟨S_, .f32⟩ : BufTy).Contents (Elt F) → (⟨S2x2048x30x14x14, .f32⟩ : BufTy).Contents (Elt F)),
    StableHlo.binary main_v83 main_v84 main_v85 (addf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.binary main_v85 main_v62 main_v86 (subf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.nullary main_cst_15 (constant S_ .f32 0x3F800000#32),
    StableHlo.unary main_cst_15 main_v87 (broadcastInDim S2x2048x30x14x14 ![] bcast_S_S2x2048x30x14x14 : (⟨S_, .f32⟩ : BufTy).Contents (Elt F) → (⟨S2x2048x30x14x14, .f32⟩ : BufTy).Contents (Elt F)),
    StableHlo.binary main_v87 main_v86 main_v88 (mulf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.unary main_v88 main_v89 (Host.negf : (⟨S2x2048x30x14x14, .f32⟩ : BufTy).Contents (Elt F) → (⟨S2x2048x30x14x14, .f32⟩ : BufTy).Contents (Elt F)),
    StableHlo.unary main_v89 main_v90 (Host.exp : (⟨S2x2048x30x14x14, .f32⟩ : BufTy).Contents (Elt F) → (⟨S2x2048x30x14x14, .f32⟩ : BufTy).Contents (Elt F)),
    StableHlo.nullary main_cst_16 (constant S_ .f32 0x3F800000#32),
    StableHlo.unary main_cst_16 main_v91 (broadcastInDim S2x2048x30x14x14 ![] bcast_S_S2x2048x30x14x14 : (⟨S_, .f32⟩ : BufTy).Contents (Elt F) → (⟨S2x2048x30x14x14, .f32⟩ : BufTy).Contents (Elt F)),
    StableHlo.binary main_v91 main_v90 main_v92 (addf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.nullary main_cst_17 (constant S_ .f32 0x3F800000#32),
    StableHlo.unary main_cst_17 main_v93 (broadcastInDim S2x2048x30x14x14 ![] bcast_S_S2x2048x30x14x14 : (⟨S_, .f32⟩ : BufTy).Contents (Elt F) → (⟨S2x2048x30x14x14, .f32⟩ : BufTy).Contents (Elt F)),
    StableHlo.binary main_v93 main_v92 main_v94 (Host.divf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.binary main_v45 main_v94 main_v95 (mulf : (⟨S2x2048x30x14x14, .f32⟩ : BufTy).Contents (Elt F) → (⟨S2x2048x30x14x14, .f32⟩ : BufTy).Contents (Elt F) → (⟨S2x2048x30x14x14, .f32⟩ : BufTy).Contents (Elt F)),
    StableHlo.unary main_v95 main_v96 ((extractStridedSlice S2x2048x30x10x14 ![0, 0, 0, 4, 0] · slices_S2x2048x30x14x14_S2x2048x30x10x14_0_0_0_4_0) : (⟨S2x2048x30x14x14, .f32⟩ : BufTy).Contents (Elt F) → (⟨S2x2048x30x10x14, .f32⟩ : BufTy).Contents (Elt F)),
    StableHlo.nullary main_cst_18 (constant S_ .f32 0x00000000#32),
    StableHlo.binary main_v96 main_cst_18 main_v97 ((fun x v => Host.reduceAdd x v reducesTo_S2x2048x30x10x14_S2x2048_d2_3_4 h_S_) : (⟨S2x2048x30x10x14, .f32⟩ : BufTy).Contents (Elt F) → (⟨S_, .f32⟩ : BufTy).Contents (Elt F) → (⟨S2x2048, .f32⟩ : BufTy).Contents (Elt F)) ]

end Cert.ReferenceIdeal.RefValue

end
-- ==== Proof.RefRun.lean ====
/-
  The reference program's @main is the straight line of its host operations: the two windows it is printed in are the
  two halves of the list, every operation touches tensor values only, and nothing is scoped; so every weakly fair
  execution terminates with each buffer at the fold of the operations over its launch contents.
-/
import proofs.«107015_j40819369181410_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the first window's, then the second's. -/
abbrev ops : List (HloOp τ sig (Elt F)) := ops0 ++ ops1

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig := by
  simp only [ops0, List.forall_cons, List.Forall, nullary_bufs_sub, unary_bufs_sub, binary_bufs_sub, ternary_bufs_sub, and_self]
set_option maxRecDepth 8192 in
theorem ops1_sub : (ops1 : List (HloOp τ sig (Elt F))).Forall fun op => op.bufs ⊆ tcRefs τ sig := by
  simp only [ops1, List.forall_cons, List.Forall, nullary_bufs_sub, unary_bufs_sub, binary_bufs_sub, ternary_bufs_sub, and_self]

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

end Cert.ReferenceIdeal.RefValue

end
-- ==== Proof.RefDefs.lean ====
/-
  The arrays the reference program computes from the arguments before its pairwise stage, each as the composition of the printed host operations: the atom mask, the gathered neighbour mask, the gathered coordinates, the radii, the gathered radii, the not-self mask.  (The atom index is converted to a float first and spread over its unit axes second.)
-/
import proofs.«107015_j40819369181410_2_alg».proof.Proof.Gen.ReferenceIdeal
import Idealize.ShloMosaic.PureOps.Ideal

noncomputable section

namespace Cert.ReferenceIdeal.RefValue

open Idealize.ShloMosaic Cert.ReferenceIdeal Cert.ReferenceIdeal.Gen

/-- The residue type as an index into the 20 tables: a negative index wraps once. -/
def sIdx (a4 : IVec S2x2048 32) : IVec S2x2048 32 :=
  select (cmpi .slt a4 (broadcastInDim S2x2048 ![] bcast_S_S2x2048 (constantI S_ 32 0#32)))
    (addi a4 (broadcastInDim S2x2048 ![] bcast_S_S2x2048 (constantI S_ 32 20#32))) a4

/-- The number of atoms of each residue, zero where the chain label is not positive. -/
def cnt (a3 a4 : IVec S2x2048 32) : FVec Ideal S2x2048 .f32 :=
  mulf (sitofp .f32 (Host.gather gather_S20_S2x2048x1_S2x2048_n_0_n_n_0_2_1 (fun i => lit0 (S20.rowMajor i))
      (broadcastInDim S2x2048x1 ![0, 1] bcast_S2x2048_S2x2048x1_0_1 (sIdx a4))))
    (uitofp .f32 (cmpi .sgt a3 (broadcastInDim S2x2048 ![] bcast_S_S2x2048 (constantI S_ 32 0#32))))

/-- The atom mask: atom `a` of a residue is present when `a` is below the residue's atom count. -/
def MAr (a3 a4 : IVec S2x2048 32) : FVec Ideal S2x2048x14 .f32 :=
  uitofp .f32 (cmpf .olt
    (broadcastInDim S2x2048x14 ![0, 1, 2] bcast_S1x1x14_S2x2048x14_0_1_2 (broadcastInDim S1x1x14 ![2] bcast_S14_S1x1x14_2 (sitofp .f32 (iotaInDim S14 32 0))))
    (broadcastInDim S2x2048x14 ![0, 1, 2] bcast_S2x2048x1_S2x2048x14_0_1_2
      (broadcastInDim S2x2048x1 ![0, 1] bcast_S2x2048_S2x2048x1_0_1 (cnt a3 a4))))

/-- The neighbour index of each edge: a negative index wraps once. -/
def eIdx (a5 : IVec S2x2048x30 32) : IVec S2x2048x30 32 :=
  select (cmpi .slt a5 (broadcastInDim S2x2048x30 ![] bcast_S_S2x2048x30 (constantI S_ 32 0#32)))
    (addi a5 (broadcastInDim S2x2048x30 ![] bcast_S_S2x2048x30 (constantI S_ 32 2048#32))) a5

/-- The same with the trailing unit axis a gather takes. -/
def eIdx1 (a5 : IVec S2x2048x30 32) : IVec S2x2048x30x1 32 :=
  broadcastInDim S2x2048x30x1 ![0, 1, 2] bcast_S2x2048x30_S2x2048x30x1_0_1_2 (eIdx a5)

/-- The neighbours' atom masks (times the residue mask), gathered along the edges. -/
def MGr (a1 : FVec Ideal S2x2048 .f32) (a3 a4 : IVec S2x2048 32) (a5 : IVec S2x2048x30 32) : FVec Ideal S2x2048x30x14 .f32 :=
  Host.gather gather_S2x2048x14_S2x2048x30x1_S2x2048x30x14_3_1_0_0_1_3_1114
    (mulf (MAr a3 a4) (broadcastInDim S2x2048x14 ![0, 1, 2] bcast_S2x2048x1_S2x2048x14_0_1_2
      (broadcastInDim S2x2048x1 ![0, 1] bcast_S2x2048_S2x2048x1_0_1 a1)))
    (eIdx1 a5)

/-- The neighbours' coordinates, gathered along the edges. -/
def XJr (a0 : FVec Ideal S2x2048x14x3 .f32) (a5 : IVec S2x2048x30 32) : FVec Ideal S2x2048x30x14x3 .f32 :=
  Host.gather gather_S2x2048x14x3_S2x2048x30x1_S2x2048x30x14x3_34_1_0_0_1_3_11143 a0 (eIdx1 a5)

/-- The atoms' radii by residue type. -/
def Rr (a4 : IVec S2x2048 32) : FVec Ideal S2x2048x14 .f32 :=
  Host.gather gather_S20x14_S2x2048x1_S2x2048x14_2_0_n_n_0_2_114 (fun i => FloatOps.ofBits (F := Ideal) .f32 (lit1 (S20x14.rowMajor i)))
    (broadcastInDim S2x2048x1 ![0, 1] bcast_S2x2048_S2x2048x1_0_1 (sIdx a4))

/-- The neighbours' radii, gathered along the edges. -/
def RJr (a4 : IVec S2x2048 32) (a5 : IVec S2x2048x30 32) : FVec Ideal S2x2048x30x14 .f32 :=
  Host.gather gather_S2x2048x14_S2x2048x30x1_S2x2048x30x14_3_1_0_0_1_3_1114 (Rr a4) (eIdx1 a5)

/-- The not-self mask: an edge counts when its neighbour index is not the residue's own position. -/
def NEr (a5 : IVec S2x2048x30 32) : FVec Ideal S2x2048x30 .f32 :=
  uitofp .f32 (cmpi .ne a5 (broadcastInDim S2x2048x30 ![0, 1, 2] bcast_S1x2048x1_S2x2048x30_0_1_2
    (broadcastInDim S1x2048x1 ![1] bcast_S2048_S1x2048x1_1 (iotaInDim S2048 32 0))))

end Cert.ReferenceIdeal.RefValue

end
-- ==== Proof.RefCore.lean ====
/-
  The reference program's pairwise part as one function of the arrays it is computed from — the atom mask, the gathered
  neighbour mask, the not-self mask, the pair mask, the coordinates, the gathered coordinates, the radii and the gathered
  radii —: the four masks multiplied together, the distance of every atom pair, the cutoff, the smooth cutoff, the slice
  to the residue's side-chain atoms and the sum over neighbours and atom pairs, each the composition of the program's
  host operations in the program's order.
-/
import proofs.«107015_j40819369181410_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The product of the four masks at (residue, neighbour, own atom, neighbour's atom). -/
def maskD (MA : FVec Ideal S2x2048x14 .f32) (MG : FVec Ideal S2x2048x30x14 .f32)
    (NE MIJ : FVec Ideal S2x2048x30 .f32) : FVec Ideal S2x2048x30x14x14 .f32 :=
  mulf (F := Ideal) (φ := .f32)
    (mulf (F := Ideal) (φ := .f32)
      (mulf (F := Ideal) (φ := .f32)
        (broadcastInDim S2x2048x30x14x14 ![0, 1, 2, 3, 4] bcast_S2x2048x1x14x1_S2x2048x30x14x14_0_1_2_3_4
          (broadcastInDim S2x2048x1x14x1 ![0, 1, 3] bcast_S2x2048x14_S2x2048x1x14x1_0_1_3 MA))
        (broadcastInDim S2x2048x30x14x14 ![0, 1, 2, 3, 4] bcast_S2x2048x30x1x14_S2x2048x30x14x14_0_1_2_3_4
          (broadcastInDim S2x2048x30x1x14 ![0, 1, 2, 4] bcast_S2x2048x30x14_S2x2048x30x1x14_0_1_2_4 MG)))
      (broadcastInDim S2x2048x30x14x14 ![0, 1, 2, 3, 4] bcast_S2x2048x30x1x1_S2x2048x30x14x14_0_1_2_3_4
        (broadcastInDim S2x2048x30x1x1 ![0, 1, 2] bcast_S2x2048x30_S2x2048x30x1x1_0_1_2 NE)))
    (broadcastInDim S2x2048x30x14x14 ![0, 1, 2, 3, 4] bcast_S2x2048x30x1x1_S2x2048x30x14x14_0_1_2_3_4
      (broadcastInDim S2x2048x30x1x1 ![0, 1, 2] bcast_S2x2048x30_S2x2048x30x1x1_0_1_2 MIJ))

/-- The squared coordinate differences of every atom pair, coordinate by coordinate. -/
def sqDiff (X : FVec Ideal S2x2048x14x3 .f32) (XJ : FVec Ideal S2x2048x30x14x3 .f32) : FVec Ideal S2x2048x30x14x14x3 .f32 :=
  mulf (F := Ideal) (φ := .f32)
    (subf (F := Ideal) (φ := .f32)
      (broadcastInDim S2x2048x30x14x14x3 ![0, 1, 2, 3, 4, 5] bcast_S2x2048x1x14x1x3_S2x2048x30x14x14x3_0_1_2_3_4_5
        (broadcastInDim S2x2048x1x14x1x3 ![0, 1, 3, 5] bcast_S2x2048x14x3_S2x2048x1x14x1x3_0_1_3_5 X))
      (broadcastInDim S2x2048x30x14x14x3 ![0, 1, 2, 3, 4, 5] bcast_S2x2048x30x1x14x3_S2x2048x30x14x14x3_0_1_2_3_4_5
        (broadcastInDim S2x2048x30x1x14x3 ![0, 1, 2, 4, 5] bcast_S2x2048x30x14x3_S2x2048x30x1x14x3_0_1_2_4_5 XJ)))
    (subf (F := Ideal) (φ := .f32)
      (broadcastInDim S2x2048x30x14x14x3 ![0, 1, 2, 3, 4, 5] bcast_S2x2048x1x14x1x3_S2x2048x30x14x14x3_0_1_2_3_4_5
        (broadcastInDim S2x2048x1x14x1x3 ![0, 1, 3, 5] bcast_S2x2048x14x3_S2x2048x1x14x1x3_0_1_3_5 X))
      (broadcastInDim S2x2048x30x14x14x3 ![0, 1, 2, 3, 4, 5] bcast_S2x2048x30x1x14x3_S2x2048x30x14x14x3_0_1_2_3_4_5
        (broadcastInDim S2x2048x30x1x14x3 ![0, 1, 2, 4, 5] bcast_S2x2048x30x14x3_S2x2048x30x1x14x3_0_1_2_4_5 XJ)))

/-- The distance of every atom pair: the square root of the squared coordinate differences summed, plus the small constant. -/
def distD (X : FVec Ideal S2x2048x14x3 .f32) (XJ : FVec Ideal S2x2048x30x14x3 .f32) : FVec Ideal S2x2048x30x14x14 .f32 :=
  Host.sqrt (F := Ideal) (φ := .f32)
    (addf (F := Ideal) (φ := .f32)
      (Host.reduceAdd (F := Ideal) (φ := .f32) (sqDiff X XJ)
        (constant (F := Ideal) S_ .f32 0x00000000#32) reducesTo_S2x2048x30x14x14x3_S2x2048x30x14x14_d5 h_S_)
      (broadcastInDim S2x2048x30x14x14 ![] bcast_S_S2x2048x30x14x14 (constant (F := Ideal) S_ .f32 0x3A83126F#32)))

/-- The cutoff of every atom pair: the mean of the two radii plus the constant. -/
def cutD (R : FVec Ideal S2x2048x14 .f32) (RJ : FVec Ideal S2x2048x30x14 .f32) :
    FVec Ideal S2x2048x30x14x14 .f32 :=
  addf (F := Ideal) (φ := .f32)
    (Host.divf (F := Ideal) (φ := .f32)
      (addf (F := Ideal) (φ := .f32)
        (broadcastInDim S2x2048x30x14x14 ![0, 1, 2, 3, 4] bcast_S2x2048x1x14x1_S2x2048x30x14x14_0_1_2_3_4
          (broadcastInDim S2x2048x1x14x1 ![0, 1, 3] bcast_S2x2048x14_S2x2048x1x14x1_0_1_3 R))
        (broadcastInDim S2x2048x30x14x14 ![0, 1, 2, 3, 4] bcast_S2x2048x30x1x14_S2x2048x30x14x14_0_1_2_3_4
          (broadcastInDim S2x2048x30x1x14 ![0, 1, 2, 4] bcast_S2x2048x30x14_S2x2048x30x1x14_0_1_2_4 RJ)))
      (broadcastInDim S2x2048x30x14x14 ![] bcast_S_S2x2048x30x14x14 (constant (F := Ideal) S_ .f32 0x40000000#32)))
    (broadcastInDim S2x2048x30x14x14 ![] bcast_S_S2x2048x30x14x14 (constant (F := Ideal) S_ .f32 0x3EB33333#32))

/-- The smooth cutoff of every atom pair: the sigmoid of (cutoff - distance), written out as the program does,
    `1 / (1 + exp (-(1 * (cutoff - distance))))`. -/
def sigD (X : FVec Ideal S2x2048x14x3 .f32) (XJ : FVec Ideal S2x2048x30x14x3 .f32)
    (R : FVec Ideal S2x2048x14 .f32) (RJ : FVec Ideal S2x2048x30x14 .f32) :
    FVec Ideal S2x2048x30x14x14 .f32 :=
  Host.divf (F := Ideal) (φ := .f32)
    (broadcastInDim S2x2048x30x14x14 ![] bcast_S_S2x2048x30x14x14 (constant (F := Ideal) S_ .f32 0x3F800000#32))
    (addf (F := Ideal) (φ := .f32)
      (broadcastInDim S2x2048x30x14x14 ![] bcast_S_S2x2048x30x14x14 (constant (F := Ideal) S_ .f32 0x3F800000#32))
      (Host.exp (F := Ideal) (φ := .f32)
        (Host.negf (F := Ideal) (φ := .f32)
          (mulf (F := Ideal) (φ := .f32)
            (broadcastInDim S2x2048x30x14x14 ![] bcast_S_S2x2048x30x14x14 (constant (F := Ideal) S_ .f32 0x3F800000#32))
            (subf (F := Ideal) (φ := .f32) (cutD R RJ) (distD X XJ))))))

/-- The reference's result from the shared arrays: the masked smooth cutoff, restricted to the residue's side-chain atoms
    (own atoms 4 … 13), summed over neighbours, own atoms and neighbours' atoms. -/
def refCore (MA : FVec Ideal S2x2048x14 .f32) (MG : FVec Ideal S2x2048x30x14 .f32)
    (NE MIJ : FVec Ideal S2x2048x30 .f32) (X : FVec Ideal S2x2048x14x3 .f32)
    (XJ : FVec Ideal S2x2048x30x14x3 .f32) (R : FVec Ideal S2x2048x14 .f32)
    (RJ : FVec Ideal S2x2048x30x14 .f32) : FVec Ideal S2x2048 .f32 :=
  Host.reduceAdd (F := Ideal) (φ := .f32)
    (extractStridedSlice S2x2048x30x10x14 ![0, 0, 0, 4, 0] (mulf (F := Ideal) (φ := .f32) (maskD MA MG NE MIJ) (sigD X XJ R RJ))
      slices_S2x2048x30x14x14_S2x2048x30x10x14_0_0_0_4_0)
    (constant (F := Ideal) S_ .f32 0x00000000#32) reducesTo_S2x2048x30x10x14_S2x2048_d2_3_4 h_S_

end Cert.ReferenceIdeal.RefValue

end
-- ==== Proof.RefTerm.lean ====
/-
  The reference's run, read back: after the straight line of host operations the result buffer holds the pairwise part
  applied to the six arrays the first operations build from the arguments, and the six arguments hold what they held.
-/
import proofs.«107015_j40819369181410_2_alg».proof.Proof.RefRun
import proofs.«107015_j40819369181410_2_alg».proof.Proof.RefDefs
import proofs.«107015_j40819369181410_2_alg».proof.Proof.RefCore

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The result buffer after the operations, from any contents: the composed term of the argument buffers' contents. -/
def resultOf (V : Valuation τ sig (Elt Ideal)) : (⟨S2x2048, .f32⟩ : BufTy).Contents (Elt Ideal) :=
  refCore (MAr (V (Proc.devRef .tc main_arg3)) (V (Proc.devRef .tc main_arg4)))
    (MGr (V (Proc.devRef .tc main_arg1)) (V (Proc.devRef .tc main_arg3)) (V (Proc.devRef .tc main_arg4)) (V (Proc.devRef .tc main_arg5)))
    (NEr (V (Proc.devRef .tc main_arg5))) (V (Proc.devRef .tc main_arg2)) (V (Proc.devRef .tc main_arg0))
    (XJr (V (Proc.devRef .tc main_arg0)) (V (Proc.devRef .tc main_arg5))) (Rr (V (Proc.devRef .tc main_arg4)))
    (RJr (V (Proc.devRef .tc main_arg4)) (V (Proc.devRef .tc main_arg5)))

set_option maxRecDepth 8192 in
set_option maxHeartbeats 48000000 in
theorem after_v97 (V : Valuation τ sig (Elt Ideal)) :
    after (ops (F := Ideal)) V (Proc.devRef .tc main_v97) = resultOf V := by
  simp only [ops, ops0, ops1, List.cons_append, List.nil_append]
  after_results_simp
  rfl

set_option maxRecDepth 8192 in
set_option maxHeartbeats 48000000 in
theorem after_arg0 (V : Valuation τ sig (Elt Ideal)) :
    after (ops (F := Ideal)) V (Proc.devRef .tc main_arg0) = V (Proc.devRef .tc main_arg0) := by
  simp only [ops, ops0, ops1, List.cons_append, List.nil_append]
  after_results_simp

set_option maxRecDepth 8192 in
set_option maxHeartbeats 48000000 in
theorem after_arg1 (V : Valuation τ sig (Elt Ideal)) :
    after (ops (F := Ideal)) V (Proc.devRef .tc main_arg1) = V (Proc.devRef .tc main_arg1) := by
  simp only [ops, ops0, ops1, List.cons_append, List.nil_append]
  after_results_simp

set_option maxRecDepth 8192 in
set_option maxHeartbeats 48000000 in
theorem after_arg2 (V : Valuation τ sig (Elt Ideal)) :
    after (ops (F := Ideal)) V (Proc.devRef .tc main_arg2) = V (Proc.devRef .tc main_arg2) := by
  simp only [ops, ops0, ops1, List.cons_append, List.nil_append]
  after_results_simp

set_option maxRecDepth 8192 in
set_option maxHeartbeats 48000000 in
theorem after_arg3 (V : Valuation τ sig (Elt Ideal)) :
    after (ops (F := Ideal)) V (Proc.devRef .tc main_arg3) = V (Proc.devRef .tc main_arg3) := by
  simp only [ops, ops0, ops1, List.cons_append, List.nil_append]
  after_results_simp

set_option maxRecDepth 8192 in
set_option maxHeartbeats 48000000 in
theorem after_arg4 (V : Valuation τ sig (Elt Ideal)) :
    after (ops (F := Ideal)) V (Proc.devRef .tc main_arg4) = V (Proc.devRef .tc main_arg4) := by
  simp only [ops, ops0, ops1, List.cons_append, List.nil_append]
  after_results_simp

set_option maxRecDepth 8192 in
set_option maxHeartbeats 48000000 in
theorem after_arg5 (V : Valuation τ sig (Elt Ideal)) :
    after (ops (F := Ideal)) V (Proc.devRef .tc main_arg5) = V (Proc.devRef .tc main_arg5) := by
  simp only [ops, ops0, ops1, List.cons_append, List.nil_append]
  after_results_simp

/-- On every device, from any memory with zero counters: every weakly fair execution of @main terminates with the result
    buffer at the pairwise part applied to the six arrays built from the arguments, and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97)
        = refCore (MAr (m ((c.tc : Thread nD τ).loc main_arg3)) (m ((c.tc : Thread nD τ).loc main_arg4)))
            (MGr (m ((c.tc : Thread nD τ).loc main_arg1)) (m ((c.tc : Thread nD τ).loc main_arg3))
              (m ((c.tc : Thread nD τ).loc main_arg4)) (m ((c.tc : Thread nD τ).loc main_arg5)))
            (NEr (m ((c.tc : Thread nD τ).loc main_arg5))) (m ((c.tc : Thread nD τ).loc main_arg2))
            (m ((c.tc : Thread nD τ).loc main_arg0))
            (XJr (m ((c.tc : Thread nD τ).loc main_arg0)) (m ((c.tc : Thread nD τ).loc main_arg5)))
            (Rr (m ((c.tc : Thread nD τ).loc main_arg4)))
            (RJr (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v97).trans (after_v97 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c))⟩)
    (run_seq scopedRefs_eq scopedSems_eq defs main (fun _ => ops) main_eq (fun _ => ops_sub) m ρ)

end Cert.ReferenceIdeal.RefValue

end
-- ==== Proof.RefIdx.lean ====
/-
  The layout operations of the reference's pairwise part, read at an index given by its coordinates: a broadcast of a
  broadcast reads its operand at the coordinates it keeps; the slice to the side-chain atoms shifts the own-atom
  coordinate by four; the sum over the three coordinates is the initial value plus the sum over `Fin 3`; and the sum over
  neighbours, own atoms and neighbours' atoms is the initial value plus the triple sum.
-/
import proofs.«107015_j40819369181410_2_alg».proof.Proof.RefCore
import proofs.«107015_j40819369181410_2_alg».proof.Proof.Spec
import Idealize.ShloMosaic.Lib.ValueIdxCoords
import Idealize.ShloMosaic.PureOps.Ideal.Laws

noncomputable section

open scoped BigOperators

namespace Cert.ReferenceIdeal.RefValue

open Cert.ReferenceIdeal Idealize.ShloMosaic Idealize.ShloMosaic.ValueIdx

variable {α : Type}

/-! ## Broadcasts -/

/-- An array over (residue, own atom) broadcast to (residue, neighbour, own atom, neighbour's atom). -/
theorem bc_own (Y : S2x2048x14.Idx → α)
    (h1 : S2x2048x14.BroadcastsInDim S2x2048x1x14x1 (![0, 1, 3] : Fin 3 → Fin S2x2048x1x14x1.rank))
    (h2 : S2x2048x1x14x1.BroadcastsInDim S2x2048x30x14x14 (![0, 1, 2, 3, 4] : Fin 5 → Fin S2x2048x30x14x14.rank))
    (b : Fin 2) (n : Fin 2048) (k : Fin 30) (a1 a : Fin 14) :
    broadcastInDim S2x2048x30x14x14 ![0, 1, 2, 3, 4] h2 (broadcastInDim S2x2048x1x14x1 ![0, 1, 3] h1 Y) (ix5 b n k a1 a)
      = Y (ix3 b n a1) :=
  congrArg Y (funext fun c => Fin.ext (by match c with | ⟨0, _⟩ => rfl | ⟨1, _⟩ => rfl | ⟨2, _⟩ => rfl))

/-- An array over (residue, neighbour, neighbour's atom) broadcast to (residue, neighbour, own atom, neighbour's atom). -/
theorem bc_nbr (Y : S2x2048x30x14.Idx → α)
    (h1 : S2x2048x30x14.BroadcastsInDim S2x2048x30x1x14 (![0, 1, 2, 4] : Fin 4 → Fin S2x2048x30x1x14.rank))
    (h2 : S2x2048x30x1x14.BroadcastsInDim S2x2048x30x14x14 (![0, 1, 2, 3, 4] : Fin 5 → Fin S2x2048x30x14x14.rank))
    (b : Fin 2) (n : Fin 2048) (k : Fin 30) (a1 a : Fin 14) :
    broadcastInDim S2x2048x30x14x14 ![0, 1, 2, 3, 4] h2 (broadcastInDim S2x2048x30x1x14 ![0, 1, 2, 4] h1 Y) (ix5 b n k a1 a)
      = Y (ix4 b n k a) :=
  congrArg Y (funext fun c => Fin.ext (by match c with | ⟨0, _⟩ => rfl | ⟨1, _⟩ => rfl | ⟨2, _⟩ => rfl | ⟨3, _⟩ => rfl))

/-- An array over (residue, neighbour) broadcast to (residue, neighbour, own atom, neighbour's atom). -/
theorem bc_k (Y : S2x2048x30.Idx → α)
    (h1 : S2x2048x30.BroadcastsInDim S2x2048x30x1x1 (![0, 1, 2] : Fin 3 → Fin S2x2048x30x1x1.rank))
    (h2 : S2x2048x30x1x1.BroadcastsInDim S2x2048x30x14x14 (![0, 1, 2, 3, 4] : Fin 5 → Fin S2x2048x30x14x14.rank))
    (b : Fin 2) (n : Fin 2048) (k : Fin 30) (a1 a : Fin 14) :
    broadcastInDim S2x2048x30x14x14 ![0, 1, 2, 3, 4] h2 (broadcastInDim S2x2048x30x1x1 ![0, 1, 2] h1 Y) (ix5 b n k a1 a)
      = Y (ix3 b n k) :=
  congrArg Y (funext fun c => Fin.ext (by match c with | ⟨0, _⟩ => rfl | ⟨1, _⟩ => rfl | ⟨2, _⟩ => rfl))

/-- The coordinates over (residue, own atom, coordinate) broadcast to (residue, neighbour, own atom, neighbour's atom, coordinate). -/
theorem bc_X (Y : S2x2048x14x3.Idx → α)
    (h1 : S2x2048x14x3.BroadcastsInDim S2x2048x1x14x1x3 (![0, 1, 3, 5] : Fin 4 → Fin S2x2048x1x14x1x3.rank))
    (h2 : S2x2048x1x14x1x3.BroadcastsInDim S2x2048x30x14x14x3 (![0, 1, 2, 3, 4, 5] : Fin 6 → Fin S2x2048x30x14x14x3.rank))
    (b : Fin 2) (n : Fin 2048) (k : Fin 30) (a1 a : Fin 14) (c : Fin 3) :
    broadcastInDim S2x2048x30x14x14x3 ![0, 1, 2, 3, 4, 5] h2 (broadcastInDim S2x2048x1x14x1x3 ![0, 1, 3, 5] h1 Y) (ix6 b n k a1 a c)
      = Y (ix4 b n a1 c) :=
  congrArg Y (funext fun e => Fin.ext (by match e with | ⟨0, _⟩ => rfl | ⟨1, _⟩ => rfl | ⟨2, _⟩ => rfl | ⟨3, _⟩ => rfl))

/-- The gathered coordinates over (residue, neighbour, neighbour's atom, coordinate) broadcast likewise. -/
theorem bc_XJ (Y : S2x2048x30x14x3.Idx → α)
    (h1 : S2x2048x30x14x3.BroadcastsInDim S2x2048x30x1x14x3 (![0, 1, 2, 4, 5] : Fin 5 → Fin S2x2048x30x1x14x3.rank))
    (h2 : S2x2048x30x1x14x3.BroadcastsInDim S2x2048x30x14x14x3 (![0, 1, 2, 3, 4, 5] : Fin 6 → Fin S2x2048x30x14x14x3.rank))
    (b : Fin 2) (n : Fin 2048) (k : Fin 30) (a1 a : Fin 14) (c : Fin 3) :
    broadcastInDim S2x2048x30x14x14x3 ![0, 1, 2, 3, 4, 5] h2 (broadcastInDim S2x2048x30x1x14x3 ![0, 1, 2, 4, 5] h1 Y) (ix6 b n k a1 a c)
      = Y (ix5 b n k a c) :=
  congrArg Y (funext fun e => Fin.ext (by match e with | ⟨0, _⟩ => rfl | ⟨1, _⟩ => rfl | ⟨2, _⟩ => rfl | ⟨3, _⟩ => rfl | ⟨4, _⟩ => rfl))

/-- A splat literal broadcast to every atom pair reads the extended real its word encodes. -/
theorem bc_const (w : BitVec 32) (h : S_.BroadcastsInDim S2x2048x30x14x14 (![] : Fin 0 → Fin S2x2048x30x14x14.rank))
    (j : S2x2048x30x14x14.Idx) :
    broadcastInDim S2x2048x30x14x14 ![] h (constant (F := Ideal) S_ .f32 w) j = Ideal.ofBits .f32 w := rfl

/-! ## The slice to the side-chain atoms -/

/-- The slice at offset four on the own-atom axis reads own atom `a' + 4`. -/
theorem slice_apply (x : S2x2048x30x14x14.Idx → α)
    (h : S2x2048x30x14x14.Slices (![0, 0, 0, 4, 0] : Fin S2x2048x30x14x14.rank → Nat) S2x2048x30x10x14)
    (b : Fin 2) (n : Fin 2048) (k : Fin 30) (a' : Fin 10) (a : Fin 14) :
    extractStridedSlice S2x2048x30x10x14 ![0, 0, 0, 4, 0] x h (ix5 b n k a' a) = x (ix5 b n k (Cert.Clash.up4 a') a) :=
  congrArg x (funext fun c => Fin.ext (by
    match c with
    | ⟨0, _⟩ => exact (show (0 : Nat) + b.val = b.val from Nat.zero_add _)
    | ⟨1, _⟩ => exact (show (0 : Nat) + n.val = n.val from Nat.zero_add _)
    | ⟨2, _⟩ => exact (show (0 : Nat) + k.val = k.val from Nat.zero_add _)
    | ⟨3, _⟩ => exact (show (4 : Nat) + a'.val = a'.val + 4 from Nat.add_comm _ _)
    | ⟨4, _⟩ => exact (show (0 : Nat) + a.val = a.val from Nat.zero_add _)))

/-! ## The sum over the three coordinates -/

/-- The host's sum over the last axis of the squared differences, at one atom pair: the initial value plus the sum over
    the three coordinates. -/
theorem sum_c (x : S2x2048x30x14x14x3.Idx → EReal) (h' : S2x2048x30x14x14x3.ReducesTo [5] S2x2048x30x14x14) (init : EReal)
    (b : Fin 2) (n : Fin 2048) (k : Fin 30) (a1 a : Fin 14) :
    Ideal.hostReduceAdd h' x init (ix5 b n k a1 a) = init + ∑ c : Fin 3, x (ix6 b n k a1 a c) := by
  rw [Ideal.hostReduceAdd_single h' (by decide)]
  refine congrArg (init + ·) (Finset.sum_congr rfl fun c _ => ?_)
  exact congrArg x (funext fun e => Fin.ext (by
    match e with | ⟨0, _⟩ => rfl | ⟨1, _⟩ => rfl | ⟨2, _⟩ => rfl | ⟨3, _⟩ => rfl | ⟨4, _⟩ => rfl | ⟨5, _⟩ => rfl))

/-! ## The sum over neighbours, own atoms and neighbours' atoms -/

/-- Dropping the three summed axes of an index leaves its residue. -/
theorem drop_ix5 (h : S2x2048x30x10x14.ReducesTo [2, 3, 4] S2x2048) (b : Fin 2) (n : Fin 2048) (k : Fin 30) (a' : Fin 10)
    (a : Fin 14) : h.drop (ix5 b n k a' a) = ix2 b n :=
  funext fun c => Fin.ext (by
    match c with
    | ⟨0, _⟩ => exact h.drop_apply_val_of_eq (ix5 b n k a' a) (0 : Fin S2x2048.rank) 0
    | ⟨1, _⟩ => exact h.drop_apply_val_of_eq (ix5 b n k a' a) (1 : Fin S2x2048.rank) 1)

/-- Two rank-2 indices given by coordinates are equal only when the coordinates are. -/
theorem ix2_inj {n0 n1 : Nat} {b b' : Fin n0} {n n' : Fin n1} (h : ix2 b' n' = ix2 b n) : b' = b ∧ n' = n :=
  ⟨congrFun h 0, congrFun h 1⟩

/-- The host's sum over the neighbour, own-atom and neighbour's-atom axes, at one residue: the initial value plus the
    triple sum. -/
theorem sum_kaa (x : S2x2048x30x10x14.Idx → EReal) (h : S2x2048x30x10x14.ReducesTo [2, 3, 4] S2x2048) (init : EReal)
    (b : Fin 2) (n : Fin 2048) :
    Ideal.hostReduceAdd h x init (ix2 b n) = init + ∑ k : Fin 30, ∑ a' : Fin 10, ∑ a : Fin 14, x (ix5 b n k a' a) := by
  unfold Ideal.hostReduceAdd
  refine congrArg (init + ·) ?_
  have e : (∑ k : Fin 30, ∑ a' : Fin 10, ∑ a : Fin 14, x (ix5 b n k a' a))
      = ∑ p : Fin 30 × Fin 10 × Fin 14, x (ix5 b n p.1 p.2.1 p.2.2) := by
    rw [Fintype.sum_prod_type]
    refine Finset.sum_congr rfl fun k _ => ?_
    rw [Fintype.sum_prod_type]
  rw [e]
  have split : ∀ i : S2x2048x30x10x14.Idx, h.drop i = ix2 b n → i = ix5 b n (i 2) (i 3) (i 4) := by
    intro i hd
    obtain ⟨b', n', k, a', a, rfl⟩ : ∃ (b' : Fin 2) (n' : Fin 2048) (k : Fin 30) (a' : Fin 10) (a : Fin 14),
        i = ix5 b' n' k a' a := ⟨i 0, i 1, i 2, i 3, i 4, eq_ix5 i⟩
    rw [drop_ix5] at hd
    obtain ⟨rfl, rfl⟩ := ix2_inj hd
    rfl
  refine Finset.sum_nbij' (fun i => ((i 2 : Fin 30), (i 3 : Fin 10), (i 4 : Fin 14)))
    (fun p => ix5 b n p.1 p.2.1 p.2.2) ?_ ?_ ?_ ?_ ?_
  · intro i _; exact Finset.mem_univ _
  · intro p _; exact Finset.mem_filter.mpr ⟨Finset.mem_univ _, drop_ix5 h b n p.1 p.2.1 p.2.2⟩
  · intro i hi; exact (split i (Finset.mem_filter.mp hi).2).symm
  · intro p _; rfl
  · intro i hi; exact congrArg x (split i (Finset.mem_filter.mp hi).2)

end Cert.ReferenceIdeal.RefValue

end
-- ==== Proof.RefRead.lean ====
/-
  The reference's pairwise part is the specification's sum.  At one atom pair the product of the masks, the distance, the
  cutoff and the smooth cutoff are the specification's `T` factors — the reference multiplies the masks in `T`'s order
  and halves by dividing by two as `gate` does, and its sigmoid, written `1 / (1 + exp (-x))`, is `Ideal.logistic`
  because the word `0x3F800000` denotes the extended real one —; the slice reads own atoms `a' + 4`, and the two sums
  start from the zero word, which denotes zero.
-/
import proofs.«107015_j40819369181410_2_alg».proof.Proof.RefIdx
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Cert.Clash

/-! ## The host's pointwise float operations at an index, at the ideal values -/

section Pointwise
variable {s : Shape} {φ : FTy}

theorem hostDivf_apply (x y : FVec Ideal s φ) (i : s.Idx) : Host.divf (F := Ideal) x y i = Ideal.div (x i) (y i) := rfl
theorem hostSqrt_apply (x : FVec Ideal s φ) (i : s.Idx) : Host.sqrt (F := Ideal) x i = Ideal.sqrt (x i) := rfl
theorem hostNegf_apply (x : FVec Ideal s φ) (i : s.Idx) : Host.negf (F := Ideal) x i = -(x i) := rfl
theorem hostExp_apply (x : FVec Ideal s φ) (i : s.Idx) : Host.exp (F := Ideal) x i = Ideal.exp (x i) := rfl

end Pointwise

variable (MA : FVec Ideal S2x2048x14 .f32) (MG : FVec Ideal S2x2048x30x14 .f32) (NE MIJ : FVec Ideal S2x2048x30 .f32)
  (X : FVec Ideal S2x2048x14x3 .f32) (XJ : FVec Ideal S2x2048x30x14x3 .f32) (R : FVec Ideal S2x2048x14 .f32)
  (RJ : FVec Ideal S2x2048x30x14 .f32) (b : Fin 2) (n : Fin 2048) (k : Fin 30) (a1 a : Fin 14)

/-! ## One atom pair -/

/-- The product of the masks, in the order the reference multiplies them. -/
theorem mask_apply :
    maskD MA MG NE MIJ (ix5 b n k a1 a) = ((MA (ix3 b n a1) * MG (ix4 b n k a)) * NE (ix3 b n k)) * MIJ (ix3 b n k) := by
  unfold maskD
  rw [mulf_apply, mulf_apply, mulf_apply, bc_own, bc_nbr, bc_k, bc_k]

/-- One coordinate's squared difference. -/
theorem sqDiff_apply (c : Fin 3) :
    sqDiff X XJ (ix6 b n k a1 a c)
      = (X (ix4 b n a1 c) - XJ (ix5 b n k a c)) * (X (ix4 b n a1 c) - XJ (ix5 b n k a c)) := by
  unfold sqDiff
  rw [mulf_apply, subf_apply, bc_X, bc_XJ]

/-- The distance: the host's sum starts from the zero word. -/
theorem dist_apply :
    distD X XJ (ix5 b n k a1 a) = Ideal.sqrt (sq3 (fun c => X (ix4 b n a1 c)) (fun c => XJ (ix5 b n k a c)) + eps) := by
  have e : distD X XJ (ix5 b n k a1 a)
      = Ideal.sqrt (Ideal.hostReduceAdd reducesTo_S2x2048x30x14x14x3_S2x2048x30x14x14_d5 (sqDiff X XJ)
          (Ideal.ofBits .f32 0x00000000#32) (ix5 b n k a1 a) + Ideal.ofBits .f32 0x3A83126F#32) := rfl
  rw [e, sum_c, Ideal.ofBits_zero_f32, zero_add]
  unfold sq3
  refine congrArg (fun t => Ideal.sqrt (t + Ideal.ofBits .f32 0x3A83126F#32)) (Finset.sum_congr rfl fun c _ => ?_)
  exact sqDiff_apply X XJ b n k a1 a c

/-- The cutoff: the mean of the two radii, halved by dividing by two, plus the constant. -/
theorem cut_apply :
    cutD R RJ (ix5 b n k a1 a) = Ideal.div (R (ix3 b n a1) + RJ (ix4 b n k a)) two + c35 := by
  unfold cutD
  rw [addf_apply, hostDivf_apply, addf_apply, bc_own, bc_nbr, bc_const, bc_const]

/-- The sigmoid the specification writes `Ideal.logistic`, written out over the word for one. -/
theorem gate_eq (ri rj d2 : EReal) :
    gate ri rj d2 = Ideal.div one (one + Ideal.exp (-(one * ((Ideal.div (ri + rj) two + c35) - Ideal.sqrt (d2 + eps))))) := by
  simp only [gate, Ideal.logistic, one, Ideal.ofBits_one_f32]

/-- The smooth cutoff is the specification's `gate`. -/
theorem sig_apply :
    sigD X XJ R RJ (ix5 b n k a1 a)
      = gate (R (ix3 b n a1)) (RJ (ix4 b n k a)) (sq3 (fun c => X (ix4 b n a1 c)) (fun c => XJ (ix5 b n k a c))) := by
  unfold sigD
  rw [hostDivf_apply, addf_apply, hostExp_apply, hostNegf_apply, mulf_apply, subf_apply, bc_const, cut_apply, dist_apply,
    gate_eq]

/-! ## The whole result -/

/-- The reference's pairwise part over the shared arrays is the specification's result. -/
theorem refCore_eq_G : refCore MA MG NE MIJ X XJ R RJ = Cert.Clash.G MA MG NE MIJ X XJ R RJ := by
  funext i
  obtain ⟨b, n, rfl⟩ : ∃ (b : Fin 2) (n : Fin 2048), i = ix2 b n := ⟨i 0, i 1, eq_ix2 i⟩
  have e : refCore MA MG NE MIJ X XJ R RJ (ix2 b n)
      = Ideal.hostReduceAdd reducesTo_S2x2048x30x10x14_S2x2048_d2_3_4
          (extractStridedSlice S2x2048x30x10x14 ![0, 0, 0, 4, 0]
            (mulf (F := Ideal) (φ := .f32) (maskD MA MG NE MIJ) (sigD X XJ R RJ))
            slices_S2x2048x30x14x14_S2x2048x30x10x14_0_0_0_4_0)
          (Ideal.ofBits .f32 0x00000000#32) (ix2 b n) := rfl
  rw [e, sum_kaa, Ideal.ofBits_zero_f32, zero_add]
  show _ = Gat MA MG NE MIJ X XJ R RJ b n
  unfold Cert.Clash.Gat Cert.Clash.T
  refine Finset.sum_congr rfl fun k _ => Finset.sum_congr rfl fun a' _ => Finset.sum_congr rfl fun a _ => ?_
  rw [slice_apply, mulf_apply, mask_apply, sig_apply]

end Cert.ReferenceIdeal.RefValue

end
-- ==== Proof.RefValue.lean ====
/-
  The reference's run against the specification: every weakly fair execution of the reference program terminates with its
  result buffer holding the clash score of every residue — the specification's `G` over the atom mask, the gathered
  neighbour mask, the not-self mask, the pair mask, the coordinates, the gathered coordinates, the radii and the gathered
  radii, each built from the program's arguments — and with the arguments unchanged.
-/
import proofs.«107015_j40819369181410_2_alg».proof.Proof.RefTerm
import proofs.«107015_j40819369181410_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97)
        = Cert.Clash.G (MAr (m ((c.tc : Thread nD τ).loc main_arg3)) (m ((c.tc : Thread nD τ).loc main_arg4)))
            (MGr (m ((c.tc : Thread nD τ).loc main_arg1)) (m ((c.tc : Thread nD τ).loc main_arg3))
              (m ((c.tc : Thread nD τ).loc main_arg4)) (m ((c.tc : Thread nD τ).loc main_arg5)))
            (NEr (m ((c.tc : Thread nD τ).loc main_arg5))) (m ((c.tc : Thread nD τ).loc main_arg2))
            (m ((c.tc : Thread nD τ).loc main_arg0))
            (XJr (m ((c.tc : Thread nD τ).loc main_arg0)) (m ((c.tc : Thread nD τ).loc main_arg5)))
            (Rr (m ((c.tc : Thread nD τ).loc main_arg4)))
            (RJr (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (refCore_eq_G _ _ _ _ _ _ _ _), (h c).2⟩) (run_term m ρ)

end Cert.ReferenceIdeal.RefValue

end
-- ==== Proof.Shared.lean ====
/-
  What the two programs' host prefixes share but spell apart: the two constant tables (the atom counts of the twenty
  residue types and their 20 x 14 radii) hold the same words entry by entry, and converting the atom index 0..13 to a float
  before or after spreading it over a unit axis is the same array.
-/
import proofs.«107015_j40819369181410_2_alg».proof.KernelIdeal
import proofs.«107015_j40819369181410_2_alg».proof.ReferenceIdeal

noncomputable section

namespace Cert.Shared

open Idealize.ShloMosaic

/-- The atom-count tables agree. -/
theorem lit0_eq : ∀ i : Fin 20, Cert.KernelIdeal.lit0 i = Cert.ReferenceIdeal.lit0 i := by decide +kernel

/-- The radii tables agree. -/
theorem lit1_eq : ∀ i : Fin 280, Cert.KernelIdeal.lit1 i = Cert.ReferenceIdeal.lit1 i := by decide +kernel

theorem lit0_fun : Cert.KernelIdeal.lit0 = Cert.ReferenceIdeal.lit0 := funext lit0_eq
theorem lit1_fun : Cert.KernelIdeal.lit1 = Cert.ReferenceIdeal.lit1 := funext lit1_eq

variable {F : FTy → Type} [FloatOps F]

/-- An integer array converted to floats after being spread over new axes is the converted array spread. -/
theorem sitofp_broadcastInDim {s t : Shape} (dims : Fin s.rank → Fin t.rank) (h : s.BroadcastsInDim t dims) (x : IVec s 32) :
    (sitofp .f32 (broadcastInDim t dims h x) : FVec F t .f32) = broadcastInDim t dims h (sitofp .f32 x : FVec F s .f32) := rfl

end Cert.Shared

end
-- ==== Proof.Agree.lean ====
/-
  The two programs compute the same shared arrays from the same arguments: their host prefixes apply the same operations,
  over constant tables that agree entry by entry; the one difference in spelling — the atom index 0..13 converted to a float
  before or after it is spread over its unit axes — is the same array.
-/
import proofs.«107015_j40819369181410_2_alg».proof.Proof.PreDefs
import proofs.«107015_j40819369181410_2_alg».proof.Proof.RefDefs
import proofs.«107015_j40819369181410_2_alg».proof.Proof.Shared

noncomputable section

namespace Cert.Agree

open Idealize.ShloMosaic Cert.KernelIdeal.Pre Cert.ReferenceIdeal.RefValue

theorem sIdx_eq (a4 : IVec Cert.KernelIdeal.S2x2048 32) : Cert.KernelIdeal.Pre.sIdx a4 = Cert.ReferenceIdeal.RefValue.sIdx a4 := rfl

theorem cnt_eq (a3 a4 : IVec Cert.KernelIdeal.S2x2048 32) : Cert.KernelIdeal.Pre.cnt a3 a4 = Cert.ReferenceIdeal.RefValue.cnt a3 a4 := by
  unfold Cert.KernelIdeal.Pre.cnt Cert.ReferenceIdeal.RefValue.cnt
  rw [Cert.Shared.lit0_fun, sIdx_eq]
  rfl

theorem MA_eq (a3 a4 : IVec Cert.KernelIdeal.S2x2048 32) : MAk a3 a4 = MAr a3 a4 := by
  unfold MAk MAr
  rw [cnt_eq]
  rfl

theorem eIdx1_eq (a5 : IVec Cert.KernelIdeal.S2x2048x30 32) : Cert.KernelIdeal.Pre.eIdx1 a5 = Cert.ReferenceIdeal.RefValue.eIdx1 a5 := rfl

theorem MG_eq (a1 : FVec Ideal Cert.KernelIdeal.S2x2048 .f32) (a3 a4 : IVec Cert.KernelIdeal.S2x2048 32)
    (a5 : IVec Cert.KernelIdeal.S2x2048x30 32) : MGk a1 a3 a4 a5 = MGr a1 a3 a4 a5 := by
  unfold MGk MGr
  rw [MA_eq, eIdx1_eq]
  rfl

theorem XJ_eq (a0 : FVec Ideal Cert.KernelIdeal.S2x2048x14x3 .f32) (a5 : IVec Cert.KernelIdeal.S2x2048x30 32) :
    XJk a0 a5 = XJr a0 a5 := rfl

theorem R_eq (a4 : IVec Cert.KernelIdeal.S2x2048 32) : Rk a4 = Rr a4 := by
  unfold Rk Rr
  rw [Cert.Shared.lit1_fun, sIdx_eq]
  rfl

theorem RJ_eq (a4 : IVec Cert.KernelIdeal.S2x2048 32) (a5 : IVec Cert.KernelIdeal.S2x2048x30 32) : RJk a4 a5 = RJr a4 a5 := by
  unfold RJk RJr
  rw [R_eq, eIdx1_eq]
  rfl

theorem NE_eq (a5 : IVec Cert.KernelIdeal.S2x2048x30 32) : NEk a5 = NEr a5 := rfl

end Cert.Agree

end
-- ==== Proof.lean ====
/-
  The side-chain clash score of every residue (b, n) of 2 x 2048 — the sum, over its thirty neighbours k, its ten side-chain
  atoms a' (atoms 4..13) and the neighbour's fourteen atoms a, of the pair's mask times the sigmoid of
  1 * ((r_i + r_j) / 2 + 0.35 - sqrt(|x_i - x_j|^2 + 0.001)) — computed two ways and proved equal on the extended reals.

  The reference forms the [2, 2048, 30, 14, 14] array of pair terms and sums it over its last three axes.  The kernel program
  gathers the same neighbour data, lays every operand out as one row per residue (the neighbour and atom axes folded into
  the columns), runs a pipelined kernel over blocks of 512 rows whose body adds up one neighbour after the other, and reads
  the [4096] result as [2, 2048].

  Both sides are proved equal to one specification `G` of the arrays they share (the atom mask, the gathered neighbour
  mask, the not-self mask, the pair mask, the coordinates, the gathered coordinates, the radii, the gathered radii):
  the kernel's body is its thirty iterations as one recursion on the neighbour index, read row by row; the blocks of the
  pipeline tile the rows; the row layout read at (b * 2048 + n, column) is the shared array at (b, n, ...); the reference's
  broadcasts, its slice of the side-chain atoms and its two sums are the triple sum.  The laws used hold on every extended
  real, so the finiteness precondition is never opened: multiplication is associative (the kernel multiplies the not-self
  and pair masks together first), halving is dividing by two, the sigmoid is 1 / (1 + exp (-x)) on both sides by
  definition, and a sum may be regrouped.  The shared arrays themselves are the same host operations of the same arguments
  in both programs, over constant tables that agree entry by entry.

  The three frame claims are the frames of the two kernel programs (the generated frame certificate, its body triple proved over
  the kernel function written as a flat program) and, for the reference, its run with the
  result dropped; the ideal pass rewrote nothing, so the preservation claim is trivial.
-/
import proofs.«107015_j40819369181410_2_alg».proof.Defs
import proofs.«107015_j40819369181410_2_alg».proof.Proof.Gen.Kernel
import proofs.«107015_j40819369181410_2_alg».proof.Proof.PFrameKernel
import proofs.«107015_j40819369181410_2_alg».proof.Proof.Gen.KernelIdeal
import proofs.«107015_j40819369181410_2_alg».proof.Proof.PFrameKernelIdeal
import proofs.«107015_j40819369181410_2_alg».proof.Proof.Gen.ReferenceIdeal
import proofs.«107015_j40819369181410_2_alg».proof.Proof.Gen.Pre_finite_inputs
import proofs.«107015_j40819369181410_2_alg».proof.Proof.BodyOut
import proofs.«107015_j40819369181410_2_alg».proof.Proof.Pipe
import proofs.«107015_j40819369181410_2_alg».proof.Proof.PreV
import proofs.«107015_j40819369181410_2_alg».proof.Proof.PreFlat
import proofs.«107015_j40819369181410_2_alg».proof.Proof.RefValue
import proofs.«107015_j40819369181410_2_alg».proof.Proof.Agree
import Idealize.ShloMosaic.Adequacy
import Idealize.ShloMosaic.Init

noncomputable section

namespace Cert.Proof

open Idealize.ShloMosaic Idealize.ShloMosaic.TcCoe Idealize.SL.Sem

section Kernel
open Cert.KernelIdeal Cert.KernelIdeal.Pre

/-- The kernel program's run against the specification: the seven arrays the pipeline finds are the row layouts of the
    shared arrays, and the row sums over the row layouts, read as 2 x 2048, are the specification. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70)
        = Cert.Clash.G (MAk (m ((c.tc : Thread nD τ).loc main_arg3)) (m ((c.tc : Thread nD τ).loc main_arg4)))
            (MGk (m ((c.tc : Thread nD τ).loc main_arg1)) (m ((c.tc : Thread nD τ).loc main_arg3))
              (m ((c.tc : Thread nD τ).loc main_arg4)) (m ((c.tc : Thread nD τ).loc main_arg5)))
            (NEk (m ((c.tc : Thread nD τ).loc main_arg5))) (m ((c.tc : Thread nD τ).loc main_arg2))
            (m ((c.tc : Thread nD τ).loc main_arg0))
            (XJk (m ((c.tc : Thread nD τ).loc main_arg0)) (m ((c.tc : Thread nD τ).loc main_arg5)))
            (Rk (m ((c.tc : Thread nD τ).loc main_arg4)))
            (RJk (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by
      rw [V_v61 m c, V_v63 m c, V_v64 m c, V_v65 m c, V_v66 m c, V_v67 m c, V_v68 m c]
      exact flat_eq _ _ _ _ _ _ _ _), (h c).2⟩)
    (Cert.KernelIdeal.Pipe.run Cert.KernelIdeal.Body.out_eq m ρ)

end Kernel

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- Both programs end at the specification over shared arrays that are the same functions of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2,
    ← Cert.Agree.MA_eq, ← Cert.Agree.MG_eq, ← Cert.Agree.NE_eq, ← Cert.Agree.XJ_eq, ← Cert.Agree.R_eq, ← Cert.Agree.RJ_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
